-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S128x8192 : Shape := ⟨2, ![128, 8192]⟩
abbrev S64x128 : Shape := ⟨2, ![64, 128]⟩
abbrev S262144 : Shape := ⟨1, ![262144]⟩
abbrev S1024 : Shape := ⟨1, ![1024]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel
  bcast_S_S128x8192 : S_.BroadcastsInDim S128x8192 (![] : Fin 0 → Fin S128x8192.rank)
  reducesTo_S128x8192_S_d0_1 : S128x8192.ReducesTo [0, 1] S_
  bcast_S_S64x128 : S_.BroadcastsInDim S64x128 (![] : Fin 0 → Fin S64x128.rank)
  reducesTo_S64x128_S_d0_1 : S64x128.ReducesTo [0, 1] S_

variable [Facts]

def fn_part1 {F : FTy → Type} [FloatOps F] (main_v13 : IVec S_ 1) (main_v16 : IVec S8192x8192 1) : IVec S_ 1 :=
  let main_c_5 : IVec S_ 1 := constantI S_ 1 1#1
  let main_v17 : IVec S_ 1 := (fun x v => Host.reduce IntOp.andi x v reducesTo_S8192x8192_S_d0_1 h_S_) main_v16 main_c_5
  let main_v18 : IVec S_ 1 := andi main_v13 main_v17
  main_v18

def fn {F : FTy → Type} [FloatOps F] (main_arg0 : FVec F S8192x8192 .f32) (main_arg1 : FVec F S128x8192 .f32) (main_arg2 : FVec F S64x128 .f32) (main_arg3 : FVec F S8192x8192 .f32) (main_arg4 : IVec S262144 32) (main_arg5 : IVec S262144 32) (main_arg6 : IVec S1024 32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_v4 : FVec F S128x8192 .f32 := Host.absf main_arg1
  let main_cst_0 : FVec F S_ .f32 := constant S_ .f32 0x7F800000#32
  let main_v5 : FVec F S128x8192 .f32 := broadcastInDim S128x8192 ![] bcast_S_S128x8192 main_cst_0
  let main_v6 : IVec S128x8192 1 := cmpf .olt main_v4 main_v5
  let main_c_1 : IVec S_ 1 := constantI S_ 1 1#1
  let main_v7 : IVec S_ 1 := (fun x v => Host.reduce IntOp.andi x v reducesTo_S128x8192_S_d0_1 h_S_) main_v6 main_c_1
  let main_v8 : IVec S_ 1 := andi main_v3 main_v7
  let main_v9 : FVec F S64x128 .f32 := Host.absf main_arg2
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S8192x8192 .f32 := Host.absf main_arg3
  let main_cst_4 : FVec F S_ .f32 := constant S_ .f32 0x7F800000#32
  let main_v15 : FVec F S8192x8192 .f32 := broadcastInDim S8192x8192 ![] bcast_S_S8192x8192 main_cst_4
  let main_v16 : IVec S8192x8192 1 := cmpf .olt main_v14 main_v15
  fn_part1 (F := F) main_v13 main_v16
-- ==== Kernel.lean ====
abbrev S8192x8192 : Shape := ⟨2, ![8192, 8192]⟩
abbrev S128x8192 : Shape := ⟨2, ![128, 8192]⟩
abbrev S64x128 : Shape := ⟨2, ![64, 128]⟩
abbrev S262144 : Shape := ⟨1, ![262144]⟩
abbrev S1024 : Shape := ⟨1, ![1024]⟩
abbrev S8192x128 : Shape := ⟨2, ![8192, 128]⟩
abbrev S1024x1024 : Shape := ⟨2, ![1024, 1024]⟩
abbrev S128x1024 : Shape := ⟨2, ![128, 1024]⟩
abbrev S1024x128 : Shape := ⟨2, ![1024, 128]⟩
abbrev S_ : Shape := ⟨0, ![]⟩
abbrev S262144x1 : Shape := ⟨2, ![262144, 1]⟩
abbrev S262144x128 : Shape := ⟨2, ![262144, 128]⟩
abbrev S8192x64 : Shape := ⟨2, ![8192, 64]⟩
abbrev S2048x128 : Shape := ⟨2, ![2048, 128]⟩
abbrev S2048x64 : Shape := ⟨2, ![2048, 64]⟩
abbrev S262144x64 : Shape := ⟨2, ![262144, 64]⟩
abbrev S1024x1 : Shape := ⟨2, ![1024, 1]⟩
abbrev S1024x64 : Shape := ⟨2, ![1024, 64]⟩
abbrev S1024x8192 : Shape := ⟨2, ![1024, 8192]⟩
abbrev S1x1 : Shape := ⟨2, ![1, 1]⟩
abbrev S1x1024x1024 : Shape := ⟨3, ![1, 1024, 1024]⟩
abbrev S1 : Shape := ⟨1, ![1]⟩
abbrev S1x1x1 : Shape := ⟨3, ![1, 1, 1]⟩

abbrev nBuf : Space → Nat
  | .hbm => 66
  | .vmem => 16
  | .smem => 0
  | _ => 0

abbrev bufTy : (tb : Table) → Fin (tcTables nBuf tb) → BufTy
  | .hbm, ⟨0, _⟩ => ⟨S8192x8192, .f32⟩
  | .hbm, ⟨1, _⟩ => ⟨S128x8192, .f32⟩
  | .hbm, ⟨2, _⟩ => ⟨S64x128, .f32⟩
  | .hbm, ⟨3, _⟩ => ⟨S8192x8192, .f32⟩
  | .hbm, ⟨4, _⟩ => ⟨S262144, .i32⟩
  | .hbm, ⟨5, _⟩ => ⟨S262144, .i32⟩
  | .hbm, ⟨6, _⟩ => ⟨S1024, .i32⟩
  | .hbm, ⟨7, _⟩ => ⟨S8192x128, .f32⟩
  | .hbm, ⟨8, _⟩ => ⟨S_, .i32⟩
  | .hbm, ⟨9, _⟩ => ⟨S262144, .i32⟩
  | .hbm, ⟨10, _⟩ => ⟨S262144, .i1⟩
  | .hbm, ⟨11, _⟩ => ⟨S_, .i32⟩
  | .hbm, ⟨12, _⟩ => ⟨S262144, .i32⟩
  | .hbm, ⟨13, _⟩ => ⟨S262144, .i32⟩
  | .hbm, ⟨14, _⟩ => ⟨S262144, .i32⟩
  | .hbm, ⟨15, _⟩ => ⟨S262144x1, .i32⟩
  | .hbm, ⟨16, _⟩ => ⟨S262144x128, .f32⟩
  | .hbm, ⟨17, _⟩ => ⟨S_, .f32⟩
  | .hbm, ⟨18, _⟩ => ⟨S8192x128, .f32⟩
  | .hbm, ⟨19, _⟩ => ⟨S262144x1, .i32⟩
  | .hbm, ⟨20, _⟩ => ⟨S8192x128, .f32⟩
  | .hbm, ⟨21, _⟩ => ⟨S8192x128, .f32⟩
  | .hbm, ⟨22, _⟩ => ⟨S8192x64, .f32⟩
  | .hbm, ⟨23, _⟩ => ⟨S_, .i32⟩
  | .hbm, ⟨24, _⟩ => ⟨S262144, .i32⟩
  | .hbm, ⟨25, _⟩ => ⟨S262144, .i1⟩
  | .hbm, ⟨26, _⟩ => ⟨S_, .i32⟩
  | .hbm, ⟨27, _⟩ => ⟨S262144, .i32⟩
  | .hbm, ⟨28, _⟩ => ⟨S262144, .i32⟩
  | .hbm, ⟨29, _⟩ => ⟨S262144, .i32⟩
  | .hbm, ⟨30, _⟩ => ⟨S262144x1, .i32⟩
  | .hbm, ⟨31, _⟩ => ⟨S262144x64, .f32⟩
  | .hbm, ⟨32, _⟩ => ⟨S_, .f32⟩
  | .hbm, ⟨33, _⟩ => ⟨S8192x64, .f32⟩
  | .hbm, ⟨34, _⟩ => ⟨S262144x1, .i32⟩
  | .hbm, ⟨35, _⟩ => ⟨S8192x64, .f32⟩
  | .hbm, ⟨36, _⟩ => ⟨S8192x64, .f32⟩
  | .hbm, ⟨37, _⟩ => ⟨S_, .i32⟩
  | .hbm, ⟨38, _⟩ => ⟨S1024, .i32⟩
  | .hbm, ⟨39, _⟩ => ⟨S1024, .i1⟩
  | .hbm, ⟨40, _⟩ => ⟨S_, .i32⟩
  | .hbm, ⟨41, _⟩ => ⟨S1024, .i32⟩
  | .hbm, ⟨42, _⟩ => ⟨S1024, .i32⟩
  | .hbm, ⟨43, _⟩ => ⟨S1024, .i32⟩
  | .hbm, ⟨44, _⟩ => ⟨S1024x1, .i32⟩
  | .hbm, ⟨45, _⟩ => ⟨S1024x64, .f32⟩
  | .hbm, ⟨46, _⟩ => ⟨S_, .i32⟩
  | .hbm, ⟨47, _⟩ => ⟨S1024, .i32⟩
  | .hbm, ⟨48, _⟩ => ⟨S1024, .i1⟩
  | .hbm, ⟨49, _⟩ => ⟨S_, .i32⟩
  | .hbm, ⟨50, _⟩ => ⟨S1024, .i32⟩
  | .hbm, ⟨51, _⟩ => ⟨S1024, .i32⟩
  | .hbm, ⟨52, _⟩ => ⟨S1024, .i32⟩
  | .hbm, ⟨53, _⟩ => ⟨S1024x1, .i32⟩
  | .hbm, ⟨54, _⟩ => ⟨S1024x8192, .f32⟩
  | .hbm, ⟨55, _⟩ => ⟨S_, .i32⟩
  | .hbm, ⟨56, _⟩ => ⟨S1024, .i32⟩
  | .hbm, ⟨57, _⟩ => ⟨S1024, .i1⟩
  | .hbm, ⟨58, _⟩ => ⟨S_, .i32⟩
  | .hbm, ⟨59, _⟩ => ⟨S1024, .i32⟩
  | .hbm, ⟨60, _⟩ => ⟨S1024, .i32⟩
  | .hbm, ⟨61, _⟩ => ⟨S1024, .i32⟩
  | .hbm, ⟨62, _⟩ => ⟨S1024x1, .i32⟩
  | .hbm, ⟨63, _⟩ => ⟨S1024x1024, .f32⟩
  | .hbm, ⟨64, _⟩ => ⟨S1x1, .f32⟩
  | .hbm, ⟨65, _⟩ => ⟨S_, .f32⟩
  | .local _ .vmem, ⟨0, _⟩ => ⟨S1024x1024, .f32⟩
  | .local _ .vmem, ⟨1, _⟩ => ⟨S1024x1024, .f32⟩
  | .local _ .vmem, ⟨2, _⟩ => ⟨S128x1024, .f32⟩
  | .local _ .vmem, ⟨3, _⟩ => ⟨S128x1024, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S2048x128, .f32⟩
  | .local _ .vmem, ⟨8, _⟩ => ⟨S2048x128, .f32⟩
  | .local _ .vmem, ⟨9, _⟩ => ⟨S64x128, .f32⟩
  | .local _ .vmem, ⟨10, _⟩ => ⟨S2048x64, .f32⟩
  | .local _ .vmem, ⟨11, _⟩ => ⟨S2048x64, .f32⟩
  | .local _ .vmem, ⟨12, _⟩ => ⟨S2048x64, .f32⟩
  | .local _ .vmem, ⟨13, _⟩ => ⟨S1024x64, .f32⟩
  | .local _ .vmem, ⟨14, _⟩ => ⟨S1024x1024, .f32⟩
  | .local _ .vmem, ⟨15, _⟩ => ⟨S1x1, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_1 : Ref sig .tc := ⟨.hbm, 23, rfl⟩
abbrev main_v13 : Ref sig .tc := ⟨.hbm, 24, rfl⟩
abbrev main_v14 : Ref sig .tc := ⟨.hbm, 25, rfl⟩
abbrev main_c_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_4 : Ref sig .tc := ⟨.hbm, 37, rfl⟩
abbrev main_v24 : Ref sig .tc := ⟨.hbm, 38, rfl⟩
abbrev main_v25 : Ref sig .tc := ⟨.hbm, 39, rfl⟩
abbrev main_c_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_6 : Ref sig .tc := ⟨.hbm, 46, rfl⟩
abbrev main_v31 : Ref sig .tc := ⟨.hbm, 47, rfl⟩
abbrev main_v32 : Ref sig .tc := ⟨.hbm, 48, rfl⟩
abbrev main_c_7 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_c_8 : Ref sig .tc := ⟨.hbm, 55, rfl⟩
abbrev main_v38 : Ref sig .tc := ⟨.hbm, 56, rfl⟩
abbrev main_v39 : Ref sig .tc := ⟨.hbm, 57, rfl⟩
abbrev main_c_9 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_scratch0 : Ref sig .tc := ⟨.vmem, 12, rfl⟩
abbrev cc2_stg0_0 : Ref sig .tc := ⟨.vmem, 13, rfl⟩
abbrev cc2_stg1_0 : Ref sig .tc := ⟨.vmem, 14, rfl⟩
abbrev cc2_stg2_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem1_0 : DmaSem sig := 12
abbrev cc2_sem2_0 : DmaSem sig := 13

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![4, 1], ![false, false]⟩

def k1_cond2 (i : grid1.Coords) : BitVec 1 :=
  let arg1 : BitVec 32 := BitVec.ofNat 32 (i 1).val
  let c0_i32_8 : BitVec 32 := 0#32
  let v14 : BitVec 1 := Scalar.cmpi .eq arg1 c0_i32_8
  let v15 : BitVec 32 := Scalar.extui v14
  let c0_i32_9 : BitVec 32 := 0#32
  let v16 : BitVec 1 := Scalar.cmpi .ne v15 c0_i32_9
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S64x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true]

abbrev stage1_2 : Fin 2 → Memref sig .tc .vmem S2048x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S1024x64 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S1024x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

class Facts₀ : Prop where
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  inb_S128x1024_S128x1024_0_0 : ∀ a, (![0, 0] : Fin 2 → Nat) a + S128x1024.size a ≤ S128x1024.size a
  h_S128x1024 : 0 < S128x1024.numel
  bcast_S_S262144 : S_.BroadcastsInDim S262144 (![] : Fin 0 → Fin S262144.rank)
  bcast_S262144_S262144x1_0 : S262144.BroadcastsInDim S262144x1 (![0] : Fin 1 → Fin S262144x1.rank)
  bcast_S_S8192x128 : S_.BroadcastsInDim S8192x128 (![] : Fin 0 → Fin S8192x128.rank)
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S64x128_S64x128_0_0 : ∀ a, (![0, 0] : Fin 2 → Nat) a + S64x128.size a ≤ S64x128.size a
  h_S64x128 : 0 < S64x128.numel
  bcast_S_S8192x64 : S_.BroadcastsInDim S8192x64 (![] : Fin 0 → Fin S8192x64.rank)
  bcast_S_S1024 : S_.BroadcastsInDim S1024 (![] : Fin 0 → Fin S1024.rank)
  bcast_S1024_S1024x1_0 : S1024.BroadcastsInDim S1024x1 (![0] : Fin 1 → Fin S1024x1.rank)
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  shapeCasts_S1024x1024_S1024x1024 : S1024x1024.ShapeCasts S1024x1024
  shapeCasts_S1024x1024_S1x1024x1024 : S1024x1024.ShapeCasts S1x1024x1024
  reduces_S1x1024x1024_S1 : S1x1024x1024.Reduces [1, 2] S1
  shapeCasts_S1_S1x1x1 : S1.ShapeCasts S1x1x1
  inpos_S1x1x1_p0_0_0 : ∀ a, (![0, 0, 0] : Fin 3 → Nat) a < S1x1x1.size a
  inb_S1x1_S1x1_0_0 : ∀ a, (![0, 0] : Fin 2 → Nat) a + S1x1.size a ≤ S1x1.size a
  h_S1x1 : 0 < S1x1.numel
  shapeCasts_S1x1_S_ : S1x1.ShapeCasts S_
  dot_S1024x1024_S128x1024_S1024x128_1_1_0_0_n_n_wf : DotDims.WF S1024x1024 S128x1024 S1024x128 [1] [1] [0] [0] [] []
  gather_S8192x128_S262144x1_S262144x128_1_0_n_n_0_1_1128_wf : GatherDims.WF S8192x128 S262144x1 S262144x128 [1] [0] [] [0] [] 1 ![1, 128]
  scatter_S8192x128_S262144x1_S262144x128_1_0_0_1_wf : ScatterDims.WF S8192x128 S262144x1 S262144x128 [1] [0] [0] 1
  dot_S2048x128_S64x128_S2048x64_1_1_0_0_n_n_wf : DotDims.WF S2048x128 S64x128 S2048x64 [1] [1] [0] [0] [] []
  gather_S8192x64_S262144x1_S262144x64_1_0_n_n_0_1_164_wf : GatherDims.WF S8192x64 S262144x1 S262144x64 [1] [0] [] [0] [] 1 ![1, 64]
  scatter_S8192x64_S262144x1_S262144x64_1_0_0_1_wf : ScatterDims.WF S8192x64 S262144x1 S262144x64 [1] [0] [0] 1
  gather_S8192x64_S1024x1_S1024x64_1_0_n_n_0_1_164_wf : GatherDims.WF S8192x64 S1024x1 S1024x64 [1] [0] [] [0] [] 1 ![1, 64]
  gather_S8192x8192_S1024x1_S1024x8192_1_0_n_n_0_1_18192_wf : GatherDims.WF S8192x8192 S1024x1 S1024x8192 [1] [0] [] [0] [] 1 ![1, 8192]
  gather_S1024x8192_S1024x1_S1024x1024_0_1_n_n_1_1_10241_wf : GatherDims.WF S1024x8192 S1024x1 S1024x1024 [0] [1] [] [1] [] 1 ![1024, 1]
  dot_S1024x64_S1024x64_S1024x1024_1_1_0_0_n_n_wf : DotDims.WF S1024x64 S1024x64 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x8192.size a
  hwx0_0 : ∀ i : grid0.Coords, EltTy.bits .f32 = 32 ∨ (Rect.block (s := S8192x8192) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S128x8192.size a
  hwx0_1 : ∀ i : grid0.Coords, EltTy.bits .f32 = 32 ∨ (Rect.block (s := S128x8192) S128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S8192x128.size a
  hwx0_2 : ∀ i : grid0.Coords, EltTy.bits .f32 = 32 ∨ (Rect.block (s := S8192x128) S1024x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x128.size a ≤ S8192x128.size a
  hwx1_0 : ∀ i : grid1.Coords, EltTy.bits .f32 = 32 ∨ (Rect.block (s := S8192x128) S2048x128.size (cc1_transform_0 i) (hinb1_0 i)).WholeWords (EltTy.packing .f32)
  hstage1_1 : ∀ j, (stage1_1 j).IsWhole
  nbuf1_1 : grid1.bufCount reads1_1 false = 1
  hreads1_1 : ∀ i i' : grid1.Coords, (∀ a, reads1_1 a = true → i a = i' a) → cc1_transform_1 i = cc1_transform_1 i'
  hinb1_1 : ∀ (i : grid1.Coords) a, (cc1_transform_1 i a + 1) * S64x128.size a ≤ S64x128.size a
  hwx1_1 : ∀ i : grid1.Coords, EltTy.bits .f32 = 32 ∨ (Rect.block (s := S64x128) S64x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x64.size a ≤ S8192x64.size a
  hwx1_2 : ∀ i : grid1.Coords, EltTy.bits .f32 = 32 ∨ (Rect.block (s := S8192x64) S2048x64.size (cc1_transform_2 i) (hinb1_2 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S1024x64.size a ≤ S1024x64.size a
  hwx2_0 : ∀ i : grid2.Coords, EltTy.bits .f32 = 32 ∨ (Rect.block (s := S1024x64) S1024x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .f32 = 32 ∨ (Rect.block (s := S1024x1024) S1024x1024.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1.size a ≤ S1x1.size a
  hwx2_2 : ∀ i : grid2.Coords, EltTy.bits .f32 = 32 ∨ (Rect.block (s := S1x1) S1x1.size (cc2_transform_2 i) (hinb2_2 i)).WholeWords (EltTy.packing .f32)

variable [Facts₀]

def dot_S1024x1024_S128x1024_S1024x128_1_1_0_0_n_n : DotDims S1024x1024 S128x1024 S1024x128 where
  lhsContracting := [1]
  rhsContracting := [1]
  lhsNonContracting := [0]
  rhsNonContracting := [0]
  lhsBatch := []
  rhsBatch := []
  wf := dot_S1024x1024_S128x1024_S1024x128_1_1_0_0_n_n_wf
def gather_S8192x128_S262144x1_S262144x128_1_0_n_n_0_1_1128 : GatherDims S8192x128 S262144x1 S262144x128 where
  offsetDims := [1]
  collapsedSliceDims := [0]
  operandBatchingDims := []
  startIndicesBatchingDims := []
  startIndexMap := [0]
  indexVectorDim := 1
  sliceSizes := ![1, 128]
  wf := gather_S8192x128_S262144x1_S262144x128_1_0_n_n_0_1_1128_wf
def scatter_S8192x128_S262144x1_S262144x128_1_0_0_1 : ScatterDims S8192x128 S262144x1 S262144x128 where
  updateWindowDims := [1]
  insertedWindowDims := [0]
  scatterDimsToOperandDims := [0]
  indexVectorDim := 1
  wf := scatter_S8192x128_S262144x1_S262144x128_1_0_0_1_wf
def dot_S2048x128_S64x128_S2048x64_1_1_0_0_n_n : DotDims S2048x128 S64x128 S2048x64 where
  lhsContracting := [1]
  rhsContracting := [1]
  lhsNonContracting := [0]
  rhsNonContracting := [0]
  lhsBatch := []
  rhsBatch := []
  wf := dot_S2048x128_S64x128_S2048x64_1_1_0_0_n_n_wf
def gather_S8192x64_S262144x1_S262144x64_1_0_n_n_0_1_164 : GatherDims S8192x64 S262144x1 S262144x64 where
  offsetDims := [1]
  collapsedSliceDims := [0]
  operandBatchingDims := []
  startIndicesBatchingDims := []
  startIndexMap := [0]
  indexVectorDim := 1
  sliceSizes := ![1, 64]
  wf := gather_S8192x64_S262144x1_S262144x64_1_0_n_n_0_1_164_wf
def scatter_S8192x64_S262144x1_S262144x64_1_0_0_1 : ScatterDims S8192x64 S262144x1 S262144x64 where
  updateWindowDims := [1]
  insertedWindowDims := [0]
  scatterDimsToOperandDims := [0]
  indexVectorDim := 1
  wf := scatter_S8192x64_S262144x1_S262144x64_1_0_0_1_wf
def gather_S8192x64_S1024x1_S1024x64_1_0_n_n_0_1_164 : GatherDims S8192x64 S1024x1 S1024x64 where
  offsetDims := [1]
  collapsedSliceDims := [0]
  operandBatchingDims := []
  startIndicesBatchingDims := []
  startIndexMap := [0]
  indexVectorDim := 1
  sliceSizes := ![1, 64]
  wf := gather_S8192x64_S1024x1_S1024x64_1_0_n_n_0_1_164_wf
def gather_S8192x8192_S1024x1_S1024x8192_1_0_n_n_0_1_18192 : GatherDims S8192x8192 S1024x1 S1024x8192 where
  offsetDims := [1]
  collapsedSliceDims := [0]
  operandBatchingDims := []
  startIndicesBatchingDims := []
  startIndexMap := [0]
  indexVectorDim := 1
  sliceSizes := ![1, 8192]
  wf := gather_S8192x8192_S1024x1_S1024x8192_1_0_n_n_0_1_18192_wf
def gather_S1024x8192_S1024x1_S1024x1024_0_1_n_n_1_1_10241 : GatherDims S1024x8192 S1024x1 S1024x1024 where
  offsetDims := [0]
  collapsedSliceDims := [1]
  operandBatchingDims := []
  startIndicesBatchingDims := []
  startIndexMap := [1]
  indexVectorDim := 1
  sliceSizes := ![1024, 1]
  wf := gather_S1024x8192_S1024x1_S1024x1024_0_1_n_n_1_1_10241_wf
def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v11) S2048x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S64x128.size cc1_transform_1 reads1_1 false false 1 stage1_1 sem1_1
    hrank1 hreads1_1 hinb1_1 nbuf1_1 (Memref.isWhole_whole _) hwx1_1 hstage1_1

abbrev win1_2 : Pipeline.Window sig grid1 :=
  Pipeline.Window.ofSpec (Memref.whole main_v12) S2048x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v30) S1024x64.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v44) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S1x1.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S8192x8192 : Shape := ⟨2, ![8192, 8192]⟩
abbrev S128x8192 : Shape := ⟨2, ![128, 8192]⟩
abbrev S64x128 : Shape := ⟨2, ![64, 128]⟩
abbrev S262144 : Shape := ⟨1, ![262144]⟩
abbrev S1024 : Shape := ⟨1, ![1024]⟩
abbrev S8192x128 : Shape := ⟨2, ![8192, 128]⟩
abbrev S_ : Shape := ⟨0, ![]⟩
abbrev S262144x1 : Shape := ⟨2, ![262144, 1]⟩
abbrev S262144x128 : Shape := ⟨2, ![262144, 128]⟩
abbrev S128x64 : Shape := ⟨2, ![128, 64]⟩
abbrev S8192x64 : Shape := ⟨2, ![8192, 64]⟩
abbrev S262144x64 : Shape := ⟨2, ![262144, 64]⟩
abbrev S1024x1 : Shape := ⟨2, ![1024, 1]⟩
abbrev S1024x64 : Shape := ⟨2, ![1024, 64]⟩
abbrev S64x1024 : Shape := ⟨2, ![64, 1024]⟩
abbrev S1024x1024 : Shape := ⟨2, ![1024, 1024]⟩
abbrev S1024x8192 : Shape := ⟨2, ![1024, 8192]⟩

abbrev nBuf : Space → Nat
  | .hbm => 78
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S128x8192, .f32⟩
  | .hbm, ⟨2, _⟩ => ⟨S64x128, .f32⟩
  | .hbm, ⟨3, _⟩ => ⟨S8192x8192, .f32⟩
  | .hbm, ⟨4, _⟩ => ⟨S262144, .i32⟩
  | .hbm, ⟨5, _⟩ => ⟨S262144, .i32⟩
  | .hbm, ⟨6, _⟩ => ⟨S1024, .i32⟩
  | .hbm, ⟨7, _⟩ => ⟨S8192x128, .f32⟩
  | .hbm, ⟨8, _⟩ => ⟨S8192x128, .f32⟩
  | .hbm, ⟨9, _⟩ => ⟨S_, .f32⟩
  | .hbm, ⟨10, _⟩ => ⟨S8192x128, .f32⟩
  | .hbm, ⟨11, _⟩ => ⟨S8192x128, .f32⟩
  | .hbm, ⟨12, _⟩ => ⟨S_, .i32⟩
  | .hbm, ⟨13, _⟩ => ⟨S262144, .i32⟩
  | .hbm, ⟨14, _⟩ => ⟨S262144, .i1⟩
  | .hbm, ⟨15, _⟩ => ⟨S_, .i32⟩
  | .hbm, ⟨16, _⟩ => ⟨S262144, .i32⟩
  | .hbm, ⟨17, _⟩ => ⟨S262144, .i32⟩
  | .hbm, ⟨18, _⟩ => ⟨S262144, .i32⟩
  | .hbm, ⟨19, _⟩ => ⟨S262144x1, .i32⟩
  | .hbm, ⟨20, _⟩ => ⟨S262144x128, .f32⟩
  | .hbm, ⟨21, _⟩ => ⟨S_, .f32⟩
  | .hbm, ⟨22, _⟩ => ⟨S8192x128, .f32⟩
  | .hbm, ⟨23, _⟩ => ⟨S262144x1, .i32⟩
  | .hbm, ⟨24, _⟩ => ⟨S8192x128, .f32⟩
  | .hbm, ⟨25, _⟩ => ⟨S8192x128, .f32⟩
  | .hbm, ⟨26, _⟩ => ⟨S128x64, .f32⟩
  | .hbm, ⟨27, _⟩ => ⟨S8192x64, .f32⟩
  | .hbm, ⟨28, _⟩ => ⟨S_, .f32⟩
  | .hbm, ⟨29, _⟩ => ⟨S8192x64, .f32⟩
  | .hbm, ⟨30, _⟩ => ⟨S8192x64, .f32⟩
  | .hbm, ⟨31, _⟩ => ⟨S_, .i32⟩
  | .hbm, ⟨32, _⟩ => ⟨S262144, .i32⟩
  | .hbm, ⟨33, _⟩ => ⟨S262144, .i1⟩
  | .hbm, ⟨34, _⟩ => ⟨S_, .i32⟩
  | .hbm, ⟨35, _⟩ => ⟨S262144, .i32⟩
  | .hbm, ⟨36, _⟩ => ⟨S262144, .i32⟩
  | .hbm, ⟨37, _⟩ => ⟨S262144, .i32⟩
  | .hbm, ⟨38, _⟩ => ⟨S262144x1, .i32⟩
  | .hbm, ⟨39, _⟩ => ⟨S262144x64, .f32⟩
  | .hbm, ⟨40, _⟩ => ⟨S_, .f32⟩
  | .hbm, ⟨41, _⟩ => ⟨S8192x64, .f32⟩
  | .hbm, ⟨42, _⟩ => ⟨S262144x1, .i32⟩
  | .hbm, ⟨43, _⟩ => ⟨S8192x64, .f32⟩
  | .hbm, ⟨44, _⟩ => ⟨S8192x64, .f32⟩
  | .hbm, ⟨45, _⟩ => ⟨S_, .i32⟩
  | .hbm, ⟨46, _⟩ => ⟨S1024, .i32⟩
  | .hbm, ⟨47, _⟩ => ⟨S1024, .i1⟩
  | .hbm, ⟨48, _⟩ => ⟨S_, .i32⟩
  | .hbm, ⟨49, _⟩ => ⟨S1024, .i32⟩
  | .hbm, ⟨50, _⟩ => ⟨S1024, .i32⟩
  | .hbm, ⟨51, _⟩ => ⟨S1024, .i32⟩
  | .hbm, ⟨52, _⟩ => ⟨S1024x1, .i32⟩
  | .hbm, ⟨53, _⟩ => ⟨S1024x64, .f32⟩
  | .hbm, ⟨54, _⟩ => ⟨S64x1024, .f32⟩
  | .hbm, ⟨55, _⟩ => ⟨S1024x1024, .f32⟩
  | .hbm, ⟨56, _⟩ => ⟨S_, .i32⟩
  | .hbm, ⟨57, _⟩ => ⟨S1024, .i32⟩
  | .hbm, ⟨58, _⟩ => ⟨S1024, .i1⟩
  | .hbm, ⟨59, _⟩ => ⟨S_, .i32⟩
  | .hbm, ⟨60, _⟩ => ⟨S1024, .i32⟩
  | .hbm, ⟨61, _⟩ => ⟨S1024, .i32⟩
  | .hbm, ⟨62, _⟩ => ⟨S1024, .i32⟩
  | .hbm, ⟨63, _⟩ => ⟨S1024x1, .i32⟩
  | .hbm, ⟨64, _⟩ => ⟨S1024x8192, .f32⟩
  | .hbm, ⟨65, _⟩ => ⟨S_, .i32⟩
  | .hbm, ⟨66, _⟩ => ⟨S1024, .i32⟩
  | .hbm, ⟨67, _⟩ => ⟨S1024, .i1⟩
  | .hbm, ⟨68, _⟩ => ⟨S_, .i32⟩
  | .hbm, ⟨69, _⟩ => ⟨S1024, .i32⟩
  | .hbm, ⟨70, _⟩ => ⟨S1024, .i32⟩
  | .hbm, ⟨71, _⟩ => ⟨S1024, .i32⟩
  | .hbm, ⟨72, _⟩ => ⟨S1024x1, .i32⟩
  | .hbm, ⟨73, _⟩ => ⟨S1024x1024, .f32⟩
  | .hbm, ⟨74, _⟩ => ⟨S1024x1024, .f32⟩
  | .hbm, ⟨75, _⟩ => ⟨S1024x1024, .f32⟩
  | .hbm, ⟨76, _⟩ => ⟨S_, .f32⟩
  | .hbm, ⟨77, _⟩ => ⟨S_, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_call0_cst : Ref sig .tc := ⟨.hbm, 9, rfl⟩
abbrev main_call0_v0 : Ref sig .tc := ⟨.hbm, 10, rfl⟩
abbrev main_v2 : Ref sig .tc := ⟨.hbm, 11, rfl⟩
abbrev main_c : Ref sig .tc := ⟨.hbm, 12, rfl⟩
abbrev main_v3 : Ref sig .tc := ⟨.hbm, 13, rfl⟩
abbrev main_v4 : Ref sig .tc := ⟨.hbm, 14, rfl⟩
abbrev main_c_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_call1_cst : Ref sig .tc := ⟨.hbm, 28, rfl⟩
abbrev main_call1_v0 : Ref sig .tc := ⟨.hbm, 29, rfl⟩
abbrev main_v16 : Ref sig .tc := ⟨.hbm, 30, rfl⟩
abbrev main_c_1 : Ref sig .tc := ⟨.hbm, 31, rfl⟩
abbrev main_v17 : Ref sig .tc := ⟨.hbm, 32, rfl⟩
abbrev main_v18 : Ref sig .tc := ⟨.hbm, 33, rfl⟩
abbrev main_c_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_3 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_4 : Ref sig .tc := ⟨.hbm, 45, rfl⟩
abbrev main_v28 : Ref sig .tc := ⟨.hbm, 46, rfl⟩
abbrev main_v29 : Ref sig .tc := ⟨.hbm, 47, rfl⟩
abbrev main_c_5 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_c_6 : Ref sig .tc := ⟨.hbm, 56, rfl⟩
abbrev main_v37 : Ref sig .tc := ⟨.hbm, 57, rfl⟩
abbrev main_v38 : Ref sig .tc := ⟨.hbm, 58, rfl⟩
abbrev main_c_7 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_c_8 : Ref sig .tc := ⟨.hbm, 65, rfl⟩
abbrev main_v44 : Ref sig .tc := ⟨.hbm, 66, rfl⟩
abbrev main_v45 : Ref sig .tc := ⟨.hbm, 67, rfl⟩
abbrev main_c_9 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_10 : Ref sig .tc := ⟨.hbm, 76, rfl⟩
abbrev main_v53 : Ref sig .tc := ⟨.hbm, 77, rfl⟩

abbrev nD : Nat := 1
abbrev τ : Topo := Topo.v7x

variable {F : FTy → Type} [FloatOps F]

class Facts₀ : Prop where
  transposes_S128x8192_S8192x128_1_0 : S128x8192.Transposes [1, 0] S8192x128
  bcast_S_S8192x128 : S_.BroadcastsInDim S8192x128 (![] : Fin 0 → Fin S8192x128.rank)
  bcast_S_S262144 : S_.BroadcastsInDim S262144 (![] : Fin 0 → Fin S262144.rank)
  bcast_S262144_S262144x1_0 : S262144.BroadcastsInDim S262144x1 (![0] : Fin 1 → Fin S262144x1.rank)
  transposes_S64x128_S128x64_1_0 : S64x128.Transposes [1, 0] S128x64
  bcast_S_S8192x64 : S_.BroadcastsInDim S8192x64 (![] : Fin 0 → Fin S8192x64.rank)
  bcast_S_S1024 : S_.BroadcastsInDim S1024 (![] : Fin 0 → Fin S1024.rank)
  bcast_S1024_S1024x1_0 : S1024.BroadcastsInDim S1024x1 (![0] : Fin 1 → Fin S1024x1.rank)
  transposes_S1024x64_S64x1024_1_0 : S1024x64.Transposes [1, 0] S64x1024
  reducesTo_S1024x1024_S_d0_1 : S1024x1024.ReducesTo [0, 1] S_
  h_S_ : 0 < S_.numel
  dot_S8192x8192_S8192x128_S8192x128_1_0_0_1_n_n_wf : DotDims.WF S8192x8192 S8192x128 S8192x128 [1] [0] [0] [1] [] []
  gather_S8192x128_S262144x1_S262144x128_1_0_n_n_0_1_1128_wf : GatherDims.WF S8192x128 S262144x1 S262144x128 [1] [0] [] [0] [] 1 ![1, 128]
  scatter_S8192x128_S262144x1_S262144x128_1_0_0_1_wf : ScatterDims.WF S8192x128 S262144x1 S262144x128 [1] [0] [0] 1
  dot_S8192x128_S128x64_S8192x64_1_0_0_1_n_n_wf : DotDims.WF S8192x128 S128x64 S8192x64 [1] [0] [0] [1] [] []
  gather_S8192x64_S262144x1_S262144x64_1_0_n_n_0_1_164_wf : GatherDims.WF S8192x64 S262144x1 S262144x64 [1] [0] [] [0] [] 1 ![1, 64]
  scatter_S8192x64_S262144x1_S262144x64_1_0_0_1_wf : ScatterDims.WF S8192x64 S262144x1 S262144x64 [1] [0] [0] 1
  gather_S8192x64_S1024x1_S1024x64_1_0_n_n_0_1_164_wf : GatherDims.WF S8192x64 S1024x1 S1024x64 [1] [0] [] [0] [] 1 ![1, 64]
  dot_S1024x64_S64x1024_S1024x1024_1_0_0_1_n_n_wf : DotDims.WF S1024x64 S64x1024 S1024x1024 [1] [0] [0] [1] [] []
  gather_S8192x8192_S1024x1_S1024x8192_1_0_n_n_0_1_18192_wf : GatherDims.WF S8192x8192 S1024x1 S1024x8192 [1] [0] [] [0] [] 1 ![1, 8192]
  gather_S1024x8192_S1024x1_S1024x1024_0_1_n_n_1_1_10241_wf : GatherDims.WF S1024x8192 S1024x1 S1024x1024 [0] [1] [] [1] [] 1 ![1024, 1]

variable [Facts₀]

def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf
def gather_S8192x128_S262144x1_S262144x128_1_0_n_n_0_1_1128 : GatherDims S8192x128 S262144x1 S262144x128 where
  offsetDims := [1]
  collapsedSliceDims := [0]
  operandBatchingDims := []
  startIndicesBatchingDims := []
  startIndexMap := [0]
  indexVectorDim := 1
  sliceSizes := ![1, 128]
  wf := gather_S8192x128_S262144x1_S262144x128_1_0_n_n_0_1_1128_wf
def scatter_S8192x128_S262144x1_S262144x128_1_0_0_1 : ScatterDims S8192x128 S262144x1 S262144x128 where
  updateWindowDims := [1]
  insertedWindowDims := [0]
  scatterDimsToOperandDims := [0]
  indexVectorDim := 1
  wf := scatter_S8192x128_S262144x1_S262144x128_1_0_0_1_wf
def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def gather_S8192x64_S262144x1_S262144x64_1_0_n_n_0_1_164 : GatherDims S8192x64 S262144x1 S262144x64 where
  offsetDims := [1]
  collapsedSliceDims := [0]
  operandBatchingDims := []
  startIndicesBatchingDims := []
  startIndexMap := [0]
  indexVectorDim := 1
  sliceSizes := ![1, 64]
  wf := gather_S8192x64_S262144x1_S262144x64_1_0_n_n_0_1_164_wf
def scatter_S8192x64_S262144x1_S262144x64_1_0_0_1 : ScatterDims S8192x64 S262144x1 S262144x64 where
  updateWindowDims := [1]
  insertedWindowDims := [0]
  scatterDimsToOperandDims := [0]
  indexVectorDim := 1
  wf := scatter_S8192x64_S262144x1_S262144x64_1_0_0_1_wf
def gather_S8192x64_S1024x1_S1024x64_1_0_n_n_0_1_164 : GatherDims S8192x64 S1024x1 S1024x64 where
  offsetDims := [1]
  collapsedSliceDims := [0]
  operandBatchingDims := []
  startIndicesBatchingDims := []
  startIndexMap := [0]
  indexVectorDim := 1
  sliceSizes := ![1, 64]
  wf := gather_S8192x64_S1024x1_S1024x64_1_0_n_n_0_1_164_wf
def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf
def gather_S8192x8192_S1024x1_S1024x8192_1_0_n_n_0_1_18192 : GatherDims S8192x8192 S1024x1 S1024x8192 where
  offsetDims := [1]
  collapsedSliceDims := [0]
  operandBatchingDims := []
  startIndicesBatchingDims := []
  startIndexMap := [0]
  indexVectorDim := 1
  sliceSizes := ![1, 8192]
  wf := gather_S8192x8192_S1024x1_S1024x8192_1_0_n_n_0_1_18192_wf
def gather_S1024x8192_S1024x1_S1024x1024_0_1_n_n_1_1_10241 : GatherDims S1024x8192 S1024x1 S1024x1024 where
  offsetDims := [0]
  collapsedSliceDims := [1]
  operandBatchingDims := []
  startIndicesBatchingDims := []
  startIndexMap := [1]
  indexVectorDim := 1
  sliceSizes := ![1024, 1]
  wf := gather_S1024x8192_S1024x1_S1024x1024_0_1_n_n_1_1_10241_wf

class Facts : Prop extends Facts₀ where

variable [Facts]
-- ==== Proof.KBody0.lean ====
/-
  The first matrix-product region: an [8192, 8192] matrix against a [128, 8192] matrix, contracted over the long axis in
  eight column blocks per row block. A scratch accumulator is reset at the first column block of a row block, gains one
  block product per point, and at the last column block its positive part is stored as the row block of the result.
  Stated at a parameter `V`, the buffer contents when the region is entered.
-/
import proofs.«111818_j30855045054720_1_alg».proof.Proof.Gen.Kernel.Launch
import proofs.«111818_j30855045054720_1_alg».proof.Proof.Gen.Kernel.Skeleton
import proofs.«111818_j30855045054720_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Loads and stores through the whole of a buffer -/

/-- A load through the whole of a view's shape reads what the view reads. -/
theorem readAt_unit_zero_eq_read {κ : Kind} {sp : Space} {s : Shape} {e : EltTy} (v : View sig κ sp s e) (g : v.ty.Contents (Elt F))
    {off : Fin s.rank → ℕ} (ho : off = fun _ => 0) (inb : ∀ a, off a + s.size a ≤ s.size a) :
    v.readAt (Elt F) (Rect.unit (s := s) off s.size inb).toLoadRect g = v.read (Elt F) g := by
  subst ho
  funext x
  exact congrArg (v.read (Elt F) g) (Rect.emb_whole_apply s x)

/-- What a view reads after a store of `P` through the whole of its shape, whatever was stored before: `P`. -/
theorem read_writes_unit_zero {κ : Kind} {sp : Space} {s : Shape} {e : EltTy} (v : View sig κ sp s e) (f : v.ty.Contents (Elt F))
    {off : Fin s.rank → ℕ} (ho : off = fun _ => 0) (inb : ∀ a, off a + s.size a ≤ s.size a) (P : s.Idx → Elt F e)
    (L : List (View.Piece (Elt F) s e)) :
    v.read (Elt F) (v.writes (Elt F) f (⟨Rect.unit (s := s) off s.size inb, P⟩ :: L)) = P := by
  subst ho
  funext x
  have h := View.read_writes_cons_emb v f (Rect.unit (s := s) (fun _ => 0) s.size inb) P L x
  rw [show (Rect.unit (s := s) (fun _ => 0) s.size inb).emb x = x from Rect.emb_whole_apply s x] at h
  exact h

theorem off2_zero : (![0, 0] : Fin 2 → ℕ) = fun _ => 0 := by decide

/-! ## The body's branch conditions and where the output window is idle -/

/-- The condition of the body's first `scf.if` (the accumulator's reset), from the grid coordinates. -/
abbrev cond0_0 (i : grid0.Coords) : Prop := (Scalar.cmpi .ne (Scalar.extui (Scalar.cmpi .eq (BitVec.ofNat 32 (i 1).val) 0#32)) 0#32) = 1#1
/-- It holds at the first column block of each row block. -/
theorem hcond0_0 : ∀ t : Fin cfg0.N, cond0_0 (grid0.coords t) ↔ t.val % 8 = 0 :=
  (by decide +kernel : ∀ t : Fin grid0.N, cond0_0 (grid0.coords t) ↔ t.val % 8 = 0)

/-- The condition of the body's second `scf.if` (the store of the result's row block), from the grid coordinates. -/
abbrev cond0_1 (i : grid0.Coords) : Prop := k0_cond2 i = 1#1
/-- It holds at the last column block of each row block. -/
theorem hcond0_1 : ∀ t : Fin cfg0.N, cond0_1 (grid0.coords t) ↔ t.val % 8 = 7 :=
  (by decide +kernel : ∀ t : Fin grid0.N, cond0_1 (grid0.coords t) ↔ t.val % 8 = 7)

/-- The input windows are never idle. -/
theorem liveAt0_0 : ∀ t : Fin cfg0.N, cfg0.idle 0 (grid0.coords t) = false := fun _ => rfl
theorem liveAt0_1 : ∀ t : Fin cfg0.N, cfg0.idle 1 (grid0.coords t) = false := fun _ => rfl
/-- Away from the last column block the output window is idle, and its block is not written back; -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
/-- at the last column block it is live. -/
theorem liveAt0_2 : ∀ t : Fin cfg0.N, cond0_1 (grid0.coords t) → cfg0.idle 2 (grid0.coords t) = false := by decide +kernel

/-! ## The body's three runs

On whole memrefs — the inputs' staging buffers at their blocks, the output's staging buffer and the accumulator as each
case states — the body runs to the continuation holding the inputs as they were, the accumulator at the block product
added to what it held (to zero at the first column block), and at the last column block the output's buffer at the
accumulator's positive part. -/
set_option maxHeartbeats 1000000 in
theorem run0_mid (c : Dev nD) (i : grid0.Coords) (arg2 : Memref sig .tc .vmem S1024x1024 .f32) (harg2 : arg2.IsWhole) (arg3 : Memref sig .tc .vmem S128x1024 .f32) (harg3 : arg3.IsWhole) (arg4 : Memref sig .tc .vmem S1024x128 .f32) (harg4 : arg4.IsWhole) (arg5 : Memref sig .tc .vmem S1024x128 .f32) (harg5 : arg5.IsWhole)
    (hc0 : ¬cond0_0 i) (hc1 : ¬cond0_1 i)
    (x0 : Vec F S1024x1024 .f32) (x1 : Vec F S128x1024 .f32) (xi2 : Vec F S1024x128 .f32) (xs : Vec F S1024x128 .f32) (E : Set ℕ) (K : PUnit → sProp 𝕄) :
    iprop(owns (c : Thread nD τ) arg2 fullShare x0 ∗ owns (c : Thread nD τ) arg3 fullShare x1 ∗ owns (c : Thread nD τ) arg4 fullShare xi2 ∗ owns (c : Thread nD τ) arg5 fullShare xs
       ∗ (iprop(owns (c : Thread nD τ) arg2 fullShare x0 ∗ owns (c : Thread nD τ) arg3 fullShare x1 ∗ owns (c : Thread nD τ) arg4 fullShare xi2 ∗ owns (c : Thread nD τ) arg5 fullShare (k0_pay2 x0 x1 xs)) -∗ K ⟨⟩))
     ⊢ wp frame (wpE (defs₀ (F := F)) Variants.none c none) E (cc0__linear_relu_kernel i arg2 harg2 arg3 harg3 arg4 harg4 arg5 harg5) K := by
  simp only [cc0__linear_relu_kernel_eq_skeleton]; unfold cc0__linear_relu_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact HS
  ipureintro
  refine (read_writes_unit_zero _ _ off2_zero _ _ _).trans ?_
  rw [readAt_unit_zero_eq_read _ _ off2_zero, readAt_unit_zero_eq_read _ _ off2_zero, readAt_unit_zero_eq_read _ _ off2_zero, hf0, hf1, hfs]

set_option maxHeartbeats 1000000 in
theorem run0_first (c : Dev nD) (i : grid0.Coords) (arg2 : Memref sig .tc .vmem S1024x1024 .f32) (harg2 : arg2.IsWhole) (arg3 : Memref sig .tc .vmem S128x1024 .f32) (harg3 : arg3.IsWhole) (arg4 : Memref sig .tc .vmem S1024x128 .f32) (harg4 : arg4.IsWhole) (arg5 : Memref sig .tc .vmem S1024x128 .f32) (harg5 : arg5.IsWhole)
    (hc0 : cond0_0 i) (hc1 : ¬cond0_1 i)
    (x0 : Vec F S1024x1024 .f32) (x1 : Vec F S128x1024 .f32) (xi2 : Vec F S1024x128 .f32) (E : Set ℕ) (K : PUnit → sProp 𝕄) :
    iprop(owns (c : Thread nD τ) arg2 fullShare x0 ∗ owns (c : Thread nD τ) arg3 fullShare x1 ∗ owns (c : Thread nD τ) arg4 fullShare xi2 ∗ (∃ d, owns (c : Thread nD τ) arg5 fullShare d)
       ∗ (iprop(owns (c : Thread nD τ) arg2 fullShare x0 ∗ owns (c : Thread nD τ) arg3 fullShare x1 ∗ owns (c : Thread nD τ) arg4 fullShare xi2 ∗ owns (c : Thread nD τ) arg5 fullShare (k0_pay2 x0 x1 k0_pay1)) -∗ K ⟨⟩))
     ⊢ wp frame (wpE (defs₀ (F := F)) Variants.none c none) E (cc0__linear_relu_kernel i arg2 harg2 arg3 harg3 arg4 harg4 arg5 harg5) K := by
  simp only [cc0__linear_relu_kernel_eq_skeleton]; unfold cc0__linear_relu_kernel_skel
  unfold owns
  iintro ⟨⟨%f0, %hf0, H0⟩, ⟨%f1, %hf1, H1⟩, ⟨%f2, %hf2, H2⟩, ⟨%ds, %fs, -, HS⟩, Hk⟩
  obtain rfl := harg2.eq_unread hf0; obtain rfl := harg3.eq_unread hf1; obtain rfl := harg4.eq_unread hf2
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact HS
  ipureintro
  refine (read_writes_unit_zero _ _ off2_zero _ _ _).trans ?_
  sl_unfold_run_names
  rw [readAt_unit_zero_eq_read _ _ off2_zero, readAt_unit_zero_eq_read _ _ off2_zero, View.readCov_cons_toLoadRect, hf0, hf1]

set_option maxHeartbeats 1000000 in
theorem run0_last (c : Dev nD) (i : grid0.Coords) (arg2 : Memref sig .tc .vmem S1024x1024 .f32) (harg2 : arg2.IsWhole) (arg3 : Memref sig .tc .vmem S128x1024 .f32) (harg3 : arg3.IsWhole) (arg4 : Memref sig .tc .vmem S1024x128 .f32) (harg4 : arg4.IsWhole) (arg5 : Memref sig .tc .vmem S1024x128 .f32) (harg5 : arg5.IsWhole)
    (hc0 : ¬cond0_0 i) (hc1 : cond0_1 i)
    (x0 : Vec F S1024x1024 .f32) (x1 : Vec F S128x1024 .f32) (xs : Vec F S1024x128 .f32) (E : Set ℕ) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare xs
       ∗ (iprop(owns (c : Thread nD τ) arg2 fullShare x0 ∗ owns (c : Thread nD τ) arg3 fullShare x1 ∗ owns (c : Thread nD τ) arg4 fullShare (k0_pay3 (k0_pay2 x0 x1 xs)) ∗ owns (c : Thread nD τ) arg5 fullShare (k0_pay2 x0 x1 xs)) -∗ K ⟨⟩))
     ⊢ wp frame (wpE (defs₀ (F := F)) Variants.none c none) E (cc0__linear_relu_kernel i arg2 harg2 arg3 harg3 arg4 harg4 arg5 harg5) K := by
  simp only [cc0__linear_relu_kernel_eq_skeleton]; unfold cc0__linear_relu_kernel_skel
  unfold owns
  iintro ⟨⟨%f0, %hf0, H0⟩, ⟨%f1, %hf1, H1⟩, ⟨%d2, %f2, -, H2⟩, ⟨%fs, %hfs, HS⟩, Hk⟩
  obtain rfl := harg2.eq_unread hf0; obtain rfl := harg3.eq_unread hf1; obtain rfl := harg5.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    refine (read_writes_unit_zero _ _ off2_zero _ _ _).trans ?_
    sl_unfold_run_names
    rw [View.readCov_cons_toLoadRect, readAt_unit_zero_eq_read _ _ off2_zero, readAt_unit_zero_eq_read _ _ off2_zero, readAt_unit_zero_eq_read _ _ off2_zero, hf0, hf1, hfs]
  iexists _; isplitr
  swap; · iexact HS
  ipureintro
  sl_unfold_run_names
  refine (read_writes_unit_zero _ _ off2_zero _ _ _).trans ?_
  rw [readAt_unit_zero_eq_read _ _ off2_zero, readAt_unit_zero_eq_read _ _ off2_zero, readAt_unit_zero_eq_read _ _ off2_zero, hf0, hf1, hfs]

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The accumulator after point `n`: the block product of the point added to zero at the first column block of a
    row block, and to what the point before left otherwise. -/
def acc0 (c : Dev nD) : (n : ℕ) → n < cfg0.N → Vec F S1024x128 .f32
  | 0, hn => k0_pay2 (iblk0 V c 0 ⟨0, hn⟩) (iblk0 V c 1 ⟨0, hn⟩) k0_pay1
  | n + 1, hn => k0_pay2 (iblk0 V c 0 ⟨n + 1, hn⟩) (iblk0 V c 1 ⟨n + 1, hn⟩)
      (if (n + 1) % 8 = 0 then k0_pay1 else acc0 c n (Nat.lt_of_succ_lt hn))

/-- The accumulator at the first column block of a row block: the block product added to zero. -/
theorem acc0_first (c : Dev nD) (t : Fin cfg0.N) (h0 : t.val % 8 = 0) :
    acc0 V c t.val t.isLt = k0_pay2 (iblk0 V c 0 t) (iblk0 V c 1 t) k0_pay1 := by
  obtain ⟨n, hn⟩ := t
  cases n with
  | zero => rfl
  | succ n =>
    have h0' : (n + 1) % 8 = 0 := h0
    show k0_pay2 (iblk0 V c 0 ⟨n + 1, hn⟩) (iblk0 V c 1 ⟨n + 1, hn⟩)
      (if (n + 1) % 8 = 0 then k0_pay1 else acc0 V c n (Nat.lt_of_succ_lt hn)) = _
    rw [if_pos h0']

/-- The accumulator at any other column block: the block product added to what the point before left. -/
theorem acc0_next (c : Dev nD) (t : Fin cfg0.N) (h0 : ¬t.val % 8 = 0) :
    acc0 V c t.val t.isLt = k0_pay2 (iblk0 V c 0 t) (iblk0 V c 1 t)
      (acc0 V c (t.val - 1) (Nat.lt_of_le_of_lt (Nat.sub_le _ _) t.isLt)) := by
  obtain ⟨n, hn⟩ := t
  cases n with
  | zero => exact absurd (Nat.zero_mod _) h0
  | succ n =>
    have h0' : ¬(n + 1) % 8 = 0 := h0
    show k0_pay2 (iblk0 V c 0 ⟨n + 1, hn⟩) (iblk0 V c 1 ⟨n + 1, hn⟩)
      (if (n + 1) % 8 = 0 then k0_pay1 else acc0 V c n (Nat.lt_of_succ_lt hn)) = _
    rw [if_neg h0']; rfl

/-- The scratch accumulator as a memref. -/
abbrev scM0 : Memref sig .tc .vmem S1024x128 .f32 := Memref.whole cc0_scratch0

/-- The scoped buffers of the other two regions (their staging buffers and the second region's accumulator), each
    whole at some contents: what the scoped rest holds beside this region's accumulator. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f))

/-- The scoped rest with the accumulator as a memref owned at some contents. -/
theorem PhiA0_eq (c : Dev nD) :
    (Pipeline.ΦA spec0 c : sProp 𝕄)
      = iprop(iprop((∃ d, owns (c : Thread nD τ) scM0 fullShare d) ∗ rest0 (F := F) c) ∗ (∃ r, prngReg c r)) := by
  unfold Pipeline.ΦA; rw [scopedRest0_eq]; unfold rest0; simp only [scM0, owns_whole]; try rfl

/-- The region invariant before position `n`: at first the scoped rest at anything; afterwards the accumulator at what
    the point before left, the other scoped buffers at anything, and the generator register at some state. -/
def Phi0 (c : Dev nD) : (n : ℕ) → n ≤ cfg0.N → sProp 𝕄
  | 0, _ => Pipeline.ΦA spec0 c
  | n + 1, hn => iprop(iprop(owns (c : Thread nD τ) scM0 fullShare (acc0 V c n hn) ∗ rest0 (F := F) c) ∗ (∃ r, prngReg c r))

theorem Phi0_zero (c : Dev nD) (n : ℕ) (h : n ≤ cfg0.N) (hz : n = 0) : Phi0 V c n h = Pipeline.ΦA spec0 c := by
  subst hz; rfl

/-- After point `n`: the accumulator at that point's contents. -/
theorem Phi0_succ (c : Dev nD) (n : ℕ) (hn : n < cfg0.N) :
    Phi0 V c (n + 1) hn = iprop(iprop(owns (c : Thread nD τ) scM0 fullShare (acc0 V c n hn) ∗ rest0 (F := F) c) ∗ (∃ r, prngReg c r)) := rfl

/-- Before a point that is not the first: the accumulator at what the point before left. -/
theorem Phi0_pos (c : Dev nD) (n : ℕ) (h : n ≤ cfg0.N) (hz : n ≠ 0) :
    Phi0 V c n h = iprop(iprop(owns (c : Thread nD τ) scM0 fullShare (acc0 V c (n - 1) (by omega)) ∗ rest0 (F := F) c) ∗ (∃ r, prngReg c r)) := by
  cases n with
  | zero => exact absurd rfl hz
  | succ n => rfl

/-- The proof data of the region on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay3 (acc0 V c t.val t.isLt)
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay3 (acc0 V c t.val t.isLt) := by dsimp only [dat0]

/-- The invariant at a point's start, restated at the point's position. -/
theorem Phi0_castSucc (c : Dev nD) (t : Fin cfg0.N) :
    (dat0 V c).Φ t.castSucc = Phi0 V c t.val (Nat.le_of_lt t.isLt) := by
  dsimp only [dat0]; simp only [Fin.coe_castSucc]

/-- Each input's current staging buffer holds its block at every point. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)

/-! ## The body obligation, at a generic point -/

/-- Each window's current staging memref at point `t`, spelled as the pipeline passes it, and its wholeness. -/
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x128 .f32 := win0_2.stage (cfg0.slots t 2)
abbrev hs0_2 (t : Fin cfg0.N) : (ms0_2 t).IsWhole := hstage0_2 ((cfg0.slots t 2).cast nbuf0_2)

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point. The inputs' memrefs hold their blocks; the position within the row block says which of the
    three runs applies. The invariant hands the body the accumulator (at what the point before left, or at anything
    where it is reset) and takes it back at this point's contents; away from the last column block the output's buffer
    is handed back as found, at the last it holds the positive part of the accumulator. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = Phi0 V c (t.val + 1) t.isLt from rfl, Phi0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  have hN : t.val < 64 := lt_of_lt_of_eq t.isLt (show cfg0.N = 64 from N_0)
  by_cases h0 : t.val % 8 = 0
  · have hc0 : cond0_0 (grid0.coords t) := (hcond0_0 t).mpr h0
    have hc1 : ¬cond0_1 (grid0.coords t) := fun h => by have := (hcond0_1 t).mp h; omega
    rw [Dat.leavesExact_idle (dat0 V c) 2 t (idleAt0_2 t hc1) (noFlush0_2 t hc1)]
    rw [acc0_first V c t h0]
    by_cases hz : t.val = 0
    · rw [Phi0_castSucc V c t, Phi0_zero V c _ _ hz, PhiA0_eq]
      iintro ⟨⟨⟨HS, HR⟩, Hg⟩, Ho, ⟨%d0, H0⟩, ⟨%d1, H1⟩, ⟨%d2, H2⟩⟩
      iapply (run0_first c (grid0.coords t) _ (hs0_0 t) _ (hs0_1 t) _ (hs0_2 t) _ (Memref.isWhole_whole _) hc0 hc1 (iblk0 V c 0 t) (iblk0 V c 1 t) _ Set.univ _)
      isplitl [H0]; · iexact H0
      isplitl [H1]; · iexact H1
      isplitl [H2]; · iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2
    · rw [Phi0_castSucc V c t, Phi0_pos V c _ _ hz]
      iintro ⟨⟨⟨HS, HR⟩, Hg⟩, Ho, ⟨%d0, H0⟩, ⟨%d1, H1⟩, ⟨%d2, H2⟩⟩
      iapply (run0_first c (grid0.coords t) _ (hs0_0 t) _ (hs0_1 t) _ (hs0_2 t) _ (Memref.isWhole_whole _) hc0 hc1 (iblk0 V c 0 t) (iblk0 V c 1 t) _ Set.univ _)
      isplitl [H0]; · iexact H0
      isplitl [H1]; · iexact H1
      isplitl [H2]; · iexact H2
      isplitl [HS]; · iexists _; iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2
  · have hc0 : ¬cond0_0 (grid0.coords t) := fun h => h0 ((hcond0_0 t).mp h)
    have hz : t.val ≠ 0 := fun h => h0 (by rw [h])
    rw [acc0_next V c t h0]
    rw [Phi0_castSucc V c t, Phi0_pos V c _ _ hz]
    by_cases h1 : t.val % 8 = 7
    · have hc1 : cond0_1 (grid0.coords t) := (hcond0_1 t).mpr h1
      rw [show (dat0 V c).leavesExact 2 t = owns (c : Thread nD τ) (ms0_2 t) fullShare ((dat0 V c).after 2 t) from by
        unfold Dat.leavesExact; rw [liveAt0_2 t hc1], after0_2, acc0_next V c t h0]
      iintro ⟨⟨⟨HS, HR⟩, Hg⟩, Ho, ⟨%d0, H0⟩, ⟨%d1, H1⟩, ⟨%d2, H2⟩⟩
      iapply (run0_last c (grid0.coords t) _ (hs0_0 t) _ (hs0_1 t) _ (hs0_2 t) _ (Memref.isWhole_whole _) hc0 hc1 (iblk0 V c 0 t) (iblk0 V c 1 t) _ Set.univ _)
      isplitl [H0]; · iexact H0
      isplitl [H1]; · iexact H1
      isplitl [H2]; · iexists _; iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexact H2
    · have hc1 : ¬cond0_1 (grid0.coords t) := fun h => h1 ((hcond0_1 t).mp h)
      rw [Dat.leavesExact_idle (dat0 V c) 2 t (idleAt0_2 t hc1) (noFlush0_2 t hc1)]
      iintro ⟨⟨⟨HS, HR⟩, Hg⟩, Ho, ⟨%d0, H0⟩, ⟨%d1, H1⟩, ⟨%d2, H2⟩⟩
      iapply (run0_mid c (grid0.coords t) _ (hs0_0 t) _ (hs0_1 t) _ (hs0_2 t) _ (Memref.isWhole_whole _) hc0 hc1 (iblk0 V c 0 t) (iblk0 V c 1 t) _ _ Set.univ _)
      isplitl [H0]; · iexact H0
      isplitl [H1]; · iexact H1
      isplitl [H2]; · iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2

/-- The body obligation at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = Phi0 V c 0 (Nat.zero_le _) from rfl, Phi0_zero V c 0 _ rfl]
  try exact Idealize.SL.BI.Entails.refl _

/-- After any point but the first the invariant gives the scoped rest back: the accumulator's named contents are forgotten. -/
theorem Phi0_out (c : Dev nD) (t : Fin (cfg0.N + 1)) (ht : t.val ≠ 0) : (dat0 V c).Φ t ⊢ Pipeline.ΦA spec0 c := by
  rw [show (dat0 V c).Φ t = Phi0 V c t.val (Nat.le_of_lt_succ t.isLt) from rfl, Phi0_pos V c _ _ ht, PhiA0_eq]
  iintro ⟨⟨HS, HR⟩, Hg⟩
  isplitl [HS HR]
  · isplitl [HS]
    · iexists _; iexact HS
    iexact HR
  iexact Hg

/-- After the last point the invariant gives the scoped rest back. -/
theorem hout0 (c : Dev nD) : (dat0 V c).Φ (Fin.last cfg0.N) ⊢ Pipeline.ΦA spec0 c :=
  Phi0_out V c _ (by rw [Fin.val_last]; have : cfg0.N = 64 := N_0; omega)

end Cert.Kernel.Hand

end
-- ==== Proof.KBody1.lean ====
/-
  The second matrix-product region: an [8192, 128] matrix against a [64, 128] matrix in four row blocks, the whole
  contraction inside one point: the scratch accumulator is reset, gains the block product, and its positive part is
  stored as the row block of the result, at every point. Stated at a parameter `V`, the buffer contents when the
  region is entered.
-/
import proofs.«111818_j30855045054720_1_alg».proof.Proof.Gen.Kernel.Launch
import proofs.«111818_j30855045054720_1_alg».proof.Proof.Gen.Kernel.Skeleton
import proofs.«111818_j30855045054720_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The scratch accumulator as a memref. -/
abbrev scM1 : Memref sig .tc .vmem S2048x64 .f32 := Memref.whole cc1_scratch0

/-- The proof data of the region on core `c`: the accumulator is rewritten before it is read at every point, so the
    invariant is the scoped rest at anything. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay3 (k1_pay2 (iblk1 V c 0 t) (iblk1 V c 1 t) k1_pay1)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) :
    (dat1 V c).after 2 t = k1_pay3 (k1_pay2 (iblk1 V c 0 t) (iblk1 V c 1 t) k1_pay1) := by dsimp only [dat1]

/-! ## The input windows' staging buffers before the body -/

/-- An input window's current staging buffer holds its block at every point, fetched there or not: the window is uncut
    and never idle, the body leaves the block in place, and where the window is not fetched its block index has not
    moved. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

/-! ## The body's two conditionals -/

/-- The condition of the body's first conditional (the accumulator is reset), from the grid coordinates. -/
abbrev cond1_0 (i : grid1.Coords) : Prop :=
  (Scalar.cmpi .ne (Scalar.extui (Scalar.cmpi .eq (BitVec.ofNat 32 (i 1).val) 0#32)) 0#32) = 1#1
/-- It holds at every point: the second grid axis has one position. -/
theorem hcond1_0 : ∀ t : Fin cfg1.N, cond1_0 (grid1.coords t) :=
  (by decide +kernel : ∀ t : Fin grid1.N, cond1_0 (grid1.coords t))

/-- The condition of the body's second conditional (the result is stored), from the grid coordinates. -/
abbrev cond1_1 (i : grid1.Coords) : Prop := k1_cond2 i = 1#1
/-- It holds at every point, for the same reason. -/
theorem hcond1_1 : ∀ t : Fin cfg1.N, cond1_1 (grid1.coords t) :=
  (by decide +kernel : ∀ t : Fin grid1.N, cond1_1 (grid1.coords t))

/-! ## The body's triple -/

/-- The two zero offsets of a whole-buffer access, as a constant function. -/
theorem offs1_zero : (![0, 0] : Fin 2 → ℕ) = fun _ => 0 := by
  funext a; fin_cases a <;> rfl

set_option maxHeartbeats 2000000 in
/-- The kernel body at a point where both conditionals are taken, on whole memrefs — the two inputs' at contents `x0`,
    `x1`, the output's and the accumulator's at anything — runs to the continuation holding the inputs' as they were, the
    output's at the positive part of the block product added to the zero accumulator, and the accumulator's at some
    contents. Every access goes through a whole buffer: a load reads the contents, a load after a store reads the
    stored value back, and the last store leaves its payload; the loads whose values are not used change nothing. -/
theorem sound_kernel1 (c : Dev nD) (E : Set ℕ) (i : grid1.Coords) (hc0 : cond1_0 i) (hc1 : cond1_1 i)
    (arg2 : Memref sig .tc .vmem S2048x128 .f32) (harg2 : arg2.IsWhole)
    (arg3 : Memref sig .tc .vmem S64x128 .f32) (harg3 : arg3.IsWhole)
    (arg4 : Memref sig .tc .vmem S2048x64 .f32) (harg4 : arg4.IsWhole)
    (arg5 : Memref sig .tc .vmem S2048x64 .f32) (harg5 : arg5.IsWhole)
    (x0 : Vec F S2048x128 .f32) (x1 : Vec F S64x128 .f32) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1
            ∗ owns (c : Thread nD τ) arg4 fullShare (k1_pay3 (k1_pay2 x0 x1 k1_pay1))
            ∗ (∃ d, owns (c : Thread nD τ) arg5 fullShare d)) -∗ K ⟨⟩))
      ⊢ wp frame (wpE (defs₀ (F := F)) Variants.none c none) E (cc1__linear_relu_kernel i arg2 harg2 arg3 harg3 arg4 harg4 arg5 harg5) K := by
  simp only [cc1__linear_relu_kernel_eq_skeleton]; unfold cc1__linear_relu_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ ?_).trans ((View.canon_unit_zero offs1_zero _ _).trans ?_)
    · intro y
      exact ⟨_, List.mem_singleton_self _, View.mem_set_unit_zero offs1_zero inb_S2048x64_S2048x64_0_0 y⟩
    sl_unfold_run_names
    rw [View.readCov_cons_toLoadRect, View.readCov_cons_toLoadRect, View.readAt_eq_ld, View.readAt_eq_ld,
      View.ld_unit_zero offs1_zero, View.ld_unit_zero offs1_zero]
  iexists _; iexists _; isplitr
  swap; · iexact H3
  ipureintro; rfl

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns: every window's buffer as the pipeline expects it at the point. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

/-- No window is idle at any point: the inputs never are, and the output is stored into at every point, the second
    conditional being taken everywhere. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel

/-- The accumulator, a whole scoped buffer, owned at given contents is its points-to there, and conversely. -/
theorem scratch1_in (c : Dev nD) (f : Buf (Elt F) ((c : Thread nD τ).loc cc1_scratch0)) :
    ((((c : Thread nD τ).loc cc1_scratch0) ↦{fullShare} f : sProp 𝕄)) ⊢ owns (c : Thread nD τ) scM1 fullShare f :=
  Entails.of_eq (owns_whole (c : Thread nD τ) cc1_scratch0 fullShare f).symm
theorem scratch1_out (c : Dev nD) (f : Buf (Elt F) ((c : Thread nD τ).loc cc1_scratch0)) :
    (owns (c : Thread nD τ) scM1 fullShare f : sProp 𝕄) ⊢ (((c : Thread nD τ).loc cc1_scratch0) ↦{fullShare} f) :=
  Entails.of_eq (owns_whole (c : Thread nD τ) cc1_scratch0 fullShare f)

set_option maxHeartbeats 1000000 in
/-- The body at any point: the inputs' memrefs hold their blocks and both conditionals are taken, so the triple applies;
    the invariant hands the body the accumulator at some contents out of the scoped rest and takes it back at some
    contents; the other scoped buffers, the generator register and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    show (dat1 V c).leavesExact 0 t = owns (c : Thread nD τ) (st1_0 t) fullShare ((dat1 V c).after 0 t) from by
      unfold Dat.leavesExact; rw [liveAt1_0 t],
    show (dat1 V c).leavesExact 1 t = owns (c : Thread nD τ) (st1_1 t) fullShare ((dat1 V c).after 1 t) from by
      unfold Dat.leavesExact; rw [liveAt1_1 t],
    show (dat1 V c).leavesExact 2 t = owns (c : Thread nD τ) (st1_2 t) fullShare ((dat1 V c).after 2 t) from by
      unfold Dat.leavesExact; rw [liveAt1_2 t],
    after1_0, after1_1, after1_2,
    show (dat1 V c).Φ t.castSucc = Pipeline.ΦA spec1 c from rfl]
  unfold Pipeline.ΦA
  rw [scopedRest1_eq]
  iintro ⟨⟨⟨R0, R1, R2, R3, R4, R5, R6, ⟨%fs, HS⟩, R8, R9, R10⟩, Hg⟩, Ho, ⟨%d0, H0⟩, ⟨%d1, H1⟩, ⟨%d2, H2⟩⟩
  ihave HS := (scratch1_in c fs) $$ HS
  iapply (sound_kernel1 c Set.univ (grid1.coords t) (hcond1_0 t) (hcond1_1 t) _ _ _ _ _ _ _ _
    (iblk1 V c 0 t) (iblk1 V c 1 t) _)
  isplitl [H0]; · iexact H0
  isplitl [H1]; · iexact H1
  isplitl [H2]; · iexists _; iexact H2
  isplitl [HS]; · iexists _; iexact HS
  iintro ⟨H0, H1, H2, ⟨%fs', HS⟩⟩
  ihave HS := (scratch1_out c fs') $$ HS
  isplitl [R0 R1 R2 R3 R4 R5 R6 HS R8 R9 R10 Hg]
  · isplitr [Hg]
    swap; · iexact Hg
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [HS]; · iexists _; iexact HS
    isplitl [R8]; · iexact R8
    isplitl [R9]; · iexact R9
    iexact R10
  isplitl [Ho]; · iexact Ho
  isplitl [H0]; · iexact H0
  isplitl [H1]; · iexact H1
  iexact H2

/-- The body obligation at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KBody2.lean ====
/-
  The third region, one point: the product of a [1024, 64] matrix with its own transpose, the absolute difference with a
  [1024, 1024] matrix, and the sum of all entries stored as a [1, 1] block. Stated at a parameter `V`, the buffer
  contents when the region is entered.
-/
import proofs.«111818_j30855045054720_1_alg».proof.Proof.Gen.Kernel.Launch
import proofs.«111818_j30855045054720_1_alg».proof.Proof.Gen.Kernel.Skeleton
import proofs.«111818_j30855045054720_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The proof data of the region on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => k2_pay1 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) :
    (dat2 V c).after 2 t = k2_pay1 (iblk2 V c 0 t) (iblk2 V c 1 t) := by dsimp only [dat2]

/-! ## The input windows' staging buffers before the body -/

/-- An input window's current staging buffer holds its block at the point: the window is fetched there, uncut and
    never idle, and the body leaves the block in place. -/
theorem before2_0 (c : Dev nD) (t : Fin cfg2.N) (d) : (dat2 V c).before 0 t d = iblk2 V c 0 t :=
  ((dat2 V c).before_in_eq_fetched 0 rfl (fun _ => rfl) (fun _ _ _ => rfl)
      (fun t => by rw [after2_0]; unfold Dat.blockOf iblk2; rw [A_eq2]; try rfl) t d).trans
    (by unfold Dat.fetched Dat.blockOf iblk2; rw [A_eq2]; try rfl)

theorem before2_1 (c : Dev nD) (t : Fin cfg2.N) (d) : (dat2 V c).before 1 t d = iblk2 V c 1 t :=
  ((dat2 V c).before_in_eq_fetched 1 rfl (fun _ => rfl) (fun _ _ _ => rfl)
      (fun t => by rw [after2_1]; unfold Dat.blockOf iblk2; rw [A_eq2]; try rfl) t d).trans
    (by unfold Dat.fetched Dat.blockOf iblk2; rw [A_eq2]; try rfl)

/-! ## The body's triple -/

/-- The two zero offsets of a whole-buffer access, as a constant function. -/
theorem zeros2 : (![0, 0] : Fin 2 → ℕ) = fun _ => 0 := by
  funext a; fin_cases a <;> rfl

set_option maxHeartbeats 1000000 in
/-- The kernel body on whole staging memrefs, the two inputs' at contents `x0`, `x1` and the output's at anything, runs
    to the continuation holding the inputs' as they were and the output's at the stored value: both loads and the store
    go through the whole buffers, so the loads read the contents and the store leaves its payload; the load of the
    output before the store is not used. -/
theorem sound_kernel2 (c : Dev nD) (E : Set ℕ) (i : grid2.Coords)
    (arg1 : Memref sig .tc .vmem S1024x64 .f32) (harg1 : arg1.IsWhole)
    (arg2 : Memref sig .tc .vmem S1024x1024 .f32) (harg2 : arg2.IsWhole)
    (arg3 : Memref sig .tc .vmem S1x1 .f32) (harg3 : arg3.IsWhole)
    (x0 : Vec F S1024x64 .f32) (x1 : Vec F S1024x1024 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (k2_pay1 x0 x1)) -∗ K ⟨⟩))
      ⊢ wp frame (wpE (defs₀ (F := F)) Variants.none c none) E (cc2__loss_kernel i arg1 harg1 arg2 harg2 arg3 harg3) K := by
  simp only [cc2__loss_kernel_eq_skeleton]; unfold cc2__loss_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.readAt_eq_ld, View.readAt_eq_ld, View.ld_unit_zero zeros2, View.ld_unit_zero zeros2]
  refine (View.read_writes_eq_canon _ _ _ ?_).trans (View.canon_unit_zero zeros2 _ _)
  intro y
  exact ⟨_, List.mem_singleton_self _, View.mem_set_unit_zero zeros2 inb_S1x1_S1x1_0_0 y⟩

/-! ## The body obligation -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at the point: the inputs' memrefs hold their blocks, so the triple applies; the invariant and what the core
    owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KRun.lean ====
/-
  The whole run of the program: three kernel regions alternating with three stretches of host operations. The buffer
  contents at each boundary are a fold from the launch memory: a region replaces its windows' arrays by what its
  write-backs leave, a host stretch applies its operations. Every weakly fair execution terminates with every unscoped
  buffer at the last fold; no region and no host operation writes an argument array, so each ends as launched.
-/
import proofs.«111818_j30855045054720_1_alg».proof.Proof.Gen.Kernel.Launch
import proofs.«111818_j30855045054720_1_alg».proof.Proof.Gen.Kernel.Skeleton
import proofs.«111818_j30855045054720_1_alg».proof.Proof.Gen.Kernel.Points
import proofs.«111818_j30855045054720_1_alg».proof.Proof.KBody0
import proofs.«111818_j30855045054720_1_alg».proof.Proof.KBody1
import proofs.«111818_j30855045054720_1_alg».proof.Proof.KBody2
import proofs.«111818_j30855045054720_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch (the first region's entry). -/
abbrev W0 : Dev nD → Valuation τ sig (Elt F) := fun c b => (s₀ m ρ).mem ((c : Dev nD), b)
abbrev E0 : (c : Dev nD) → (b : Ref sig .tc) → Buf (Elt F) ((c : Thread nD τ).loc b) := fun c b => W0 m ρ c b

/-- At region 0's exit: its arrays at what the pipeline leaves, every other buffer as entered. -/
def W1 (c : Dev nD) : Valuation τ sig (Elt F) :=
  Pipeline.withArrays spec0 c (W0 m ρ c) fun w => (dat0 (E0 m ρ) c).arrAt w cfg0.N
theorem W1_arr (c : Dev nD) (w : Fin cfg0.W) :
    W1 m ρ c (Proc.devRef .tc (Pipeline.arrRef spec0 w)) = (dat0 (E0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev X0 : (c : Dev nD) → (b : Ref sig .tc) → Buf (Elt F) ((c : Thread nD τ).loc b) := fun c b => W1 m ρ c b
theorem hF0 (c : Dev nD) (w : Fin cfg0.W) : (dat0 (E0 m ρ) c).arrAt w cfg0.N = X0 m ρ c (Pipeline.arrRef spec0 w) :=
  (W1_arr m ρ c w).symm
theorem hrest0 (c : Dev nD) : ∀ b, b ∉ Finset.univ.image (Pipeline.arrRef spec0) → X0 m ρ c b = E0 m ρ c b :=
  fun b hb => W1_of_ne m ρ c b fun w e => hb (Finset.mem_image.mpr ⟨w, Finset.mem_univ _, e⟩)

/-- After `hostOps1`. -/
abbrev W2 : Dev nD → Valuation τ sig (Elt F) := fun c => StableHlo.after hostOps1 (W1 m ρ c)
abbrev E1 : (c : Dev nD) → (b : Ref sig .tc) → Buf (Elt F) ((c : Thread nD τ).loc b) := fun c b => W2 m ρ c b

/-- At region 1's exit: its arrays at what the pipeline leaves, every other buffer as entered. -/
def W3 (c : Dev nD) : Valuation τ sig (Elt F) :=
  Pipeline.withArrays spec1 c (W2 m ρ c) fun w => (dat1 (E1 m ρ) c).arrAt w cfg1.N
theorem W3_arr (c : Dev nD) (w : Fin cfg1.W) :
    W3 m ρ c (Proc.devRef .tc (Pipeline.arrRef spec1 w)) = (dat1 (E1 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev X1 : (c : Dev nD) → (b : Ref sig .tc) → Buf (Elt F) ((c : Thread nD τ).loc b) := fun c b => W3 m ρ c b
theorem hF1 (c : Dev nD) (w : Fin cfg1.W) : (dat1 (E1 m ρ) c).arrAt w cfg1.N = X1 m ρ c (Pipeline.arrRef spec1 w) :=
  (W3_arr m ρ c w).symm
theorem hrest1 (c : Dev nD) : ∀ b, b ∉ Finset.univ.image (Pipeline.arrRef spec1) → X1 m ρ c b = E1 m ρ c b :=
  fun b hb => W3_of_ne m ρ c b fun w e => hb (Finset.mem_image.mpr ⟨w, Finset.mem_univ _, e⟩)

/-- After `hostOps2`. -/
abbrev W4 : Dev nD → Valuation τ sig (Elt F) := fun c => StableHlo.after hostOps2 (W3 m ρ c)
abbrev E2 : (c : Dev nD) → (b : Ref sig .tc) → Buf (Elt F) ((c : Thread nD τ).loc b) := fun c b => W4 m ρ c b

/-- At region 2's exit: its arrays at what the pipeline leaves, every other buffer as entered. -/
def W5 (c : Dev nD) : Valuation τ sig (Elt F) :=
  Pipeline.withArrays spec2 c (W4 m ρ c) fun w => (dat2 (E2 m ρ) c).arrAt w cfg2.N
theorem W5_arr (c : Dev nD) (w : Fin cfg2.W) :
    W5 m ρ c (Proc.devRef .tc (Pipeline.arrRef spec2 w)) = (dat2 (E2 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev X2 : (c : Dev nD) → (b : Ref sig .tc) → Buf (Elt F) ((c : Thread nD τ).loc b) := fun c b => W5 m ρ c b
theorem hF2 (c : Dev nD) (w : Fin cfg2.W) : (dat2 (E2 m ρ) c).arrAt w cfg2.N = X2 m ρ c (Pipeline.arrRef spec2 w) :=
  (W5_arr m ρ c w).symm
theorem hrest2 (c : Dev nD) : ∀ b, b ∉ Finset.univ.image (Pipeline.arrRef spec2) → X2 m ρ c b = E2 m ρ c b :=
  fun b hb => W5_of_ne m ρ c b fun w e => hb (Finset.mem_image.mpr ⟨w, Finset.mem_univ _, e⟩)

/-- After `hostOps3`. -/
abbrev W6 : Dev nD → Valuation τ sig (Elt F) := fun c => StableHlo.after hostOps3 (W5 m ρ c)

/-! ## The arguments end as launched -/
theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := StableHlo.after_of_writes_sub hostOps3 _ hostOps3_writes (by decide)
    _ = W4 m ρ c (Proc.devRef .tc main_arg0) := W5_of_ne m ρ c main_arg0 (by decide)
    _ = W3 m ρ c (Proc.devRef .tc main_arg0) := StableHlo.after_of_writes_sub hostOps2 _ hostOps2_writes (by decide)
    _ = W2 m ρ c (Proc.devRef .tc main_arg0) := W3_of_ne m ρ c main_arg0 (by decide)
    _ = W1 m ρ c (Proc.devRef .tc main_arg0) := StableHlo.after_of_writes_sub hostOps1 _ hostOps1_writes (by decide)
    _ = W0 m ρ c (Proc.devRef .tc main_arg0) := (W1_arr m ρ c 0).trans (((dat0 (E0 m ρ) c).arrAt_in 0 rfl _).trans (A_eq0 (E0 m ρ) c 0))
    _ = m ((c : Thread nD τ).loc main_arg0) := rfl
theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := StableHlo.after_of_writes_sub hostOps3 _ hostOps3_writes (by decide)
    _ = W4 m ρ c (Proc.devRef .tc main_arg1) := W5_of_ne m ρ c main_arg1 (by decide)
    _ = W3 m ρ c (Proc.devRef .tc main_arg1) := StableHlo.after_of_writes_sub hostOps2 _ hostOps2_writes (by decide)
    _ = W2 m ρ c (Proc.devRef .tc main_arg1) := W3_of_ne m ρ c main_arg1 (by decide)
    _ = W1 m ρ c (Proc.devRef .tc main_arg1) := StableHlo.after_of_writes_sub hostOps1 _ hostOps1_writes (by decide)
    _ = W0 m ρ c (Proc.devRef .tc main_arg1) := (W1_arr m ρ c 1).trans (((dat0 (E0 m ρ) c).arrAt_in 1 rfl _).trans (A_eq0 (E0 m ρ) c 1))
    _ = m ((c : Thread nD τ).loc main_arg1) := rfl
theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := StableHlo.after_of_writes_sub hostOps3 _ hostOps3_writes (by decide)
    _ = W4 m ρ c (Proc.devRef .tc main_arg2) := W5_of_ne m ρ c main_arg2 (by decide)
    _ = W3 m ρ c (Proc.devRef .tc main_arg2) := StableHlo.after_of_writes_sub hostOps2 _ hostOps2_writes (by decide)
    _ = W2 m ρ c (Proc.devRef .tc main_arg2) := (W3_arr m ρ c 1).trans (((dat1 (E1 m ρ) c).arrAt_in 1 rfl _).trans (A_eq1 (E1 m ρ) c 1))
    _ = W1 m ρ c (Proc.devRef .tc main_arg2) := StableHlo.after_of_writes_sub hostOps1 _ hostOps1_writes (by decide)
    _ = W0 m ρ c (Proc.devRef .tc main_arg2) := W1_of_ne m ρ c main_arg2 (by decide)
    _ = m ((c : Thread nD τ).loc main_arg2) := rfl
theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := StableHlo.after_of_writes_sub hostOps3 _ hostOps3_writes (by decide)
    _ = W4 m ρ c (Proc.devRef .tc main_arg3) := W5_of_ne m ρ c main_arg3 (by decide)
    _ = W3 m ρ c (Proc.devRef .tc main_arg3) := StableHlo.after_of_writes_sub hostOps2 _ hostOps2_writes (by decide)
    _ = W2 m ρ c (Proc.devRef .tc main_arg3) := W3_of_ne m ρ c main_arg3 (by decide)
    _ = W1 m ρ c (Proc.devRef .tc main_arg3) := StableHlo.after_of_writes_sub hostOps1 _ hostOps1_writes (by decide)
    _ = W0 m ρ c (Proc.devRef .tc main_arg3) := W1_of_ne m ρ c main_arg3 (by decide)
    _ = m ((c : Thread nD τ).loc main_arg3) := rfl
theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := StableHlo.after_of_writes_sub hostOps3 _ hostOps3_writes (by decide)
    _ = W4 m ρ c (Proc.devRef .tc main_arg4) := W5_of_ne m ρ c main_arg4 (by decide)
    _ = W3 m ρ c (Proc.devRef .tc main_arg4) := StableHlo.after_of_writes_sub hostOps2 _ hostOps2_writes (by decide)
    _ = W2 m ρ c (Proc.devRef .tc main_arg4) := W3_of_ne m ρ c main_arg4 (by decide)
    _ = W1 m ρ c (Proc.devRef .tc main_arg4) := StableHlo.after_of_writes_sub hostOps1 _ hostOps1_writes (by decide)
    _ = W0 m ρ c (Proc.devRef .tc main_arg4) := W1_of_ne m ρ c main_arg4 (by decide)
    _ = m ((c : Thread nD τ).loc main_arg4) := rfl
theorem W6_main_arg5 (c : Dev nD) : W6 m ρ c (Proc.devRef .tc main_arg5) = m ((c : Thread nD τ).loc main_arg5) :=
  calc W6 m ρ c (Proc.devRef .tc main_arg5)
    _ = W5 m ρ c (Proc.devRef .tc main_arg5) := StableHlo.after_of_writes_sub hostOps3 _ hostOps3_writes (by decide)
    _ = W4 m ρ c (Proc.devRef .tc main_arg5) := W5_of_ne m ρ c main_arg5 (by decide)
    _ = W3 m ρ c (Proc.devRef .tc main_arg5) := StableHlo.after_of_writes_sub hostOps2 _ hostOps2_writes (by decide)
    _ = W2 m ρ c (Proc.devRef .tc main_arg5) := W3_of_ne m ρ c main_arg5 (by decide)
    _ = W1 m ρ c (Proc.devRef .tc main_arg5) := StableHlo.after_of_writes_sub hostOps1 _ hostOps1_writes (by decide)
    _ = W0 m ρ c (Proc.devRef .tc main_arg5) := W1_of_ne m ρ c main_arg5 (by decide)
    _ = m ((c : Thread nD τ).loc main_arg5) := rfl
theorem W6_main_arg6 (c : Dev nD) : W6 m ρ c (Proc.devRef .tc main_arg6) = m ((c : Thread nD τ).loc main_arg6) :=
  calc W6 m ρ c (Proc.devRef .tc main_arg6)
    _ = W5 m ρ c (Proc.devRef .tc main_arg6) := StableHlo.after_of_writes_sub hostOps3 _ hostOps3_writes (by decide)
    _ = W4 m ρ c (Proc.devRef .tc main_arg6) := W5_of_ne m ρ c main_arg6 (by decide)
    _ = W3 m ρ c (Proc.devRef .tc main_arg6) := StableHlo.after_of_writes_sub hostOps2 _ hostOps2_writes (by decide)
    _ = W2 m ρ c (Proc.devRef .tc main_arg6) := W3_of_ne m ρ c main_arg6 (by decide)
    _ = W1 m ρ c (Proc.devRef .tc main_arg6) := StableHlo.after_of_writes_sub hostOps1 _ hostOps1_writes (by decide)
    _ = W0 m ρ c (Proc.devRef .tc main_arg6) := W1_of_ne m ρ c main_arg6 (by decide)
    _ = m ((c : Thread nD τ).loc main_arg6) := rfl

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (E0 m ρ) c
  | ⟨1, _⟩ => fun c => dat1 (E1 m ρ) c
  | ⟨2, _⟩ => fun c => dat2 (E2 m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m ρ c) ∗ ∃ r, prngReg c r)

/-- The last boundary's state regrouped: the buffers and the generator register beside the core owing nothing. -/
theorem last_assoc (c : Dev nD) :
    (iprop(StableHlo.held (c : Thread nD τ) (Pipeline.ucRefs τ sig) (W6 m ρ c) ∗ R c) : sProp 𝕄)
      ⊢ iprop(Tₙ m ρ c ∗ ∃ W, owes (c : Thread nD τ) (0 : CellTallies nD τ sig Unit) W) := by
  iintro ⟨Hh, Hp, HO⟩
  isplitl [Hh Hp]
  · isplitl [Hh]; · iexact Hh
    iexact Hp
  iexact HO

/-! ## The regions as segments -/

set_option backward.isDefEq.respectTransparency.types false in
/-- Region 0 over the thread state: entered from every unscoped buffer at `W0`, left at `W1`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (E0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (dat0 (E0 m ρ) c).Φ 0 from rfl]
    have h := hin0 (E0 m ρ) c
    unfold Pipeline.ΦA at h
    iintro ⟨Hp, -, Hr⟩
    iapply h
    isplitl [Hr]; · iexact Hr
    iexact Hp
  hout c := by
    rw [Pipeline.ownSems0_none, show (pdats m ρ 0 c).Φ (Fin.last _) = (dat0 (E0 m ρ) c).Φ (Fin.last cfg0.N) from rfl]
    have h := hout0 (E0 m ρ) c
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E0 m ρ c) (X0 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left at `W3`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (E1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E1 m ρ c) (X1 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W4`, left at `W5`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E2 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (E2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (E2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (E2 m ρ c) (X2 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)),
    .region (reg2 m ρ),
    .host (hseg hostOps3 hostOps3_sub hostOps3_fresh (W5 m ρ)) ]
theorem main_run (c : Dev nD) : main (F := F) c = Pipeline.Seg.run (segs m ρ) := (main_chain c).trans (by chain_rfl)

set_option backward.isDefEq.respectTransparency.types false in
/-- Every weakly fair execution of @main terminates, nothing faulting, with every unscoped buffer at the last fold. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => last_assoc m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c)⟩) (run_all m ρ)

/-- The same run with the result buffer named. -/
theorem run_result : θ_run defs (onTc (τ := τ) (main (F := F))) ⟨m, fun _ => 0, ρ⟩ (fun r => ∀ c : Dev nD,
      r.2.mem ((c.tc : Thread nD τ).loc main_v46) = W6 m ρ c (Proc.devRef .tc main_v46)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨h c _ (mem_uc main_v46 (by decide)),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c)⟩) (run_all m ρ)

end Cert.Kernel.Hand

end
-- ==== Proof.Body0.lean ====
/-
  The first matrix-product region: an [8192, 8192] matrix against a [128, 8192] matrix, contracted over the long axis in
  eight column blocks per row block. A scratch accumulator is reset at the first column block of a row block, gains one
  block product per point, and at the last column block its positive part is stored as the row block of the result.
  Stated at a parameter `V`, the buffer contents when the region is entered.
-/
import proofs.«111818_j30855045054720_1_alg».proof.Proof.Gen.KernelIdeal.Launch
import proofs.«111818_j30855045054720_1_alg».proof.Proof.Gen.KernelIdeal.Skeleton
import proofs.«111818_j30855045054720_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Loads and stores through the whole of a buffer -/

/-- A load through the whole of a view's shape reads what the view reads. -/
theorem readAt_unit_zero_eq_read {κ : Kind} {sp : Space} {s : Shape} {e : EltTy} (v : View sig κ sp s e) (g : v.ty.Contents (Elt F))
    {off : Fin s.rank → ℕ} (ho : off = fun _ => 0) (inb : ∀ a, off a + s.size a ≤ s.size a) :
    v.readAt (Elt F) (Rect.unit (s := s) off s.size inb).toLoadRect g = v.read (Elt F) g := by
  subst ho
  funext x
  exact congrArg (v.read (Elt F) g) (Rect.emb_whole_apply s x)

/-- What a view reads after a store of `P` through the whole of its shape, whatever was stored before: `P`. -/
theorem read_writes_unit_zero {κ : Kind} {sp : Space} {s : Shape} {e : EltTy} (v : View sig κ sp s e) (f : v.ty.Contents (Elt F))
    {off : Fin s.rank → ℕ} (ho : off = fun _ => 0) (inb : ∀ a, off a + s.size a ≤ s.size a) (P : s.Idx → Elt F e)
    (L : List (View.Piece (Elt F) s e)) :
    v.read (Elt F) (v.writes (Elt F) f (⟨Rect.unit (s := s) off s.size inb, P⟩ :: L)) = P := by
  subst ho
  funext x
  have h := View.read_writes_cons_emb v f (Rect.unit (s := s) (fun _ => 0) s.size inb) P L x
  rw [show (Rect.unit (s := s) (fun _ => 0) s.size inb).emb x = x from Rect.emb_whole_apply s x] at h
  exact h

theorem off2_zero : (![0, 0] : Fin 2 → ℕ) = fun _ => 0 := by decide

/-! ## The body's branch conditions and where the output window is idle -/

/-- The condition of the body's first `scf.if` (the accumulator's reset), from the grid coordinates. -/
abbrev cond0_0 (i : grid0.Coords) : Prop := (Scalar.cmpi .ne (Scalar.extui (Scalar.cmpi .eq (BitVec.ofNat 32 (i 1).val) 0#32)) 0#32) = 1#1
/-- It holds at the first column block of each row block. -/
theorem hcond0_0 : ∀ t : Fin cfg0.N, cond0_0 (grid0.coords t) ↔ t.val % 8 = 0 :=
  (by decide +kernel : ∀ t : Fin grid0.N, cond0_0 (grid0.coords t) ↔ t.val % 8 = 0)

/-- The condition of the body's second `scf.if` (the store of the result's row block), from the grid coordinates. -/
abbrev cond0_1 (i : grid0.Coords) : Prop := k0_cond2 i = 1#1
/-- It holds at the last column block of each row block. -/
theorem hcond0_1 : ∀ t : Fin cfg0.N, cond0_1 (grid0.coords t) ↔ t.val % 8 = 7 :=
  (by decide +kernel : ∀ t : Fin grid0.N, cond0_1 (grid0.coords t) ↔ t.val % 8 = 7)

/-- The input windows are never idle. -/
theorem liveAt0_0 : ∀ t : Fin cfg0.N, cfg0.idle 0 (grid0.coords t) = false := fun _ => rfl
theorem liveAt0_1 : ∀ t : Fin cfg0.N, cfg0.idle 1 (grid0.coords t) = false := fun _ => rfl
/-- Away from the last column block the output window is idle, and its block is not written back; -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
/-- at the last column block it is live. -/
theorem liveAt0_2 : ∀ t : Fin cfg0.N, cond0_1 (grid0.coords t) → cfg0.idle 2 (grid0.coords t) = false := by decide +kernel

/-! ## The body's three runs

On whole memrefs — the inputs' staging buffers at their blocks, the output's staging buffer and the accumulator as each
case states — the body runs to the continuation holding the inputs as they were, the accumulator at the block product
added to what it held (to zero at the first column block), and at the last column block the output's buffer at the
accumulator's positive part. -/
set_option maxHeartbeats 1000000 in
theorem run0_mid (c : Dev nD) (i : grid0.Coords) (arg2 : Memref sig .tc .vmem S1024x1024 .f32) (harg2 : arg2.IsWhole) (arg3 : Memref sig .tc .vmem S128x1024 .f32) (harg3 : arg3.IsWhole) (arg4 : Memref sig .tc .vmem S1024x128 .f32) (harg4 : arg4.IsWhole) (arg5 : Memref sig .tc .vmem S1024x128 .f32) (harg5 : arg5.IsWhole)
    (hc0 : ¬cond0_0 i) (hc1 : ¬cond0_1 i)
    (x0 : Vec F S1024x1024 .f32) (x1 : Vec F S128x1024 .f32) (xi2 : Vec F S1024x128 .f32) (xs : Vec F S1024x128 .f32) (E : Set ℕ) (K : PUnit → sProp 𝕄) :
    iprop(owns (c : Thread nD τ) arg2 fullShare x0 ∗ owns (c : Thread nD τ) arg3 fullShare x1 ∗ owns (c : Thread nD τ) arg4 fullShare xi2 ∗ owns (c : Thread nD τ) arg5 fullShare xs
       ∗ (iprop(owns (c : Thread nD τ) arg2 fullShare x0 ∗ owns (c : Thread nD τ) arg3 fullShare x1 ∗ owns (c : Thread nD τ) arg4 fullShare xi2 ∗ owns (c : Thread nD τ) arg5 fullShare (k0_pay2 x0 x1 xs)) -∗ K ⟨⟩))
     ⊢ wp frame (wpE (defs₀ (F := F)) Variants.none c none) E (cc0__linear_relu_kernel i arg2 harg2 arg3 harg3 arg4 harg4 arg5 harg5) K := by
  simp only [cc0__linear_relu_kernel_eq_skeleton]; unfold cc0__linear_relu_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact HS
  ipureintro
  refine (read_writes_unit_zero _ _ off2_zero _ _ _).trans ?_
  rw [readAt_unit_zero_eq_read _ _ off2_zero, readAt_unit_zero_eq_read _ _ off2_zero, readAt_unit_zero_eq_read _ _ off2_zero, hf0, hf1, hfs]

set_option maxHeartbeats 1000000 in
theorem run0_first (c : Dev nD) (i : grid0.Coords) (arg2 : Memref sig .tc .vmem S1024x1024 .f32) (harg2 : arg2.IsWhole) (arg3 : Memref sig .tc .vmem S128x1024 .f32) (harg3 : arg3.IsWhole) (arg4 : Memref sig .tc .vmem S1024x128 .f32) (harg4 : arg4.IsWhole) (arg5 : Memref sig .tc .vmem S1024x128 .f32) (harg5 : arg5.IsWhole)
    (hc0 : cond0_0 i) (hc1 : ¬cond0_1 i)
    (x0 : Vec F S1024x1024 .f32) (x1 : Vec F S128x1024 .f32) (xi2 : Vec F S1024x128 .f32) (E : Set ℕ) (K : PUnit → sProp 𝕄) :
    iprop(owns (c : Thread nD τ) arg2 fullShare x0 ∗ owns (c : Thread nD τ) arg3 fullShare x1 ∗ owns (c : Thread nD τ) arg4 fullShare xi2 ∗ (∃ d, owns (c : Thread nD τ) arg5 fullShare d)
       ∗ (iprop(owns (c : Thread nD τ) arg2 fullShare x0 ∗ owns (c : Thread nD τ) arg3 fullShare x1 ∗ owns (c : Thread nD τ) arg4 fullShare xi2 ∗ owns (c : Thread nD τ) arg5 fullShare (k0_pay2 x0 x1 k0_pay1)) -∗ K ⟨⟩))
     ⊢ wp frame (wpE (defs₀ (F := F)) Variants.none c none) E (cc0__linear_relu_kernel i arg2 harg2 arg3 harg3 arg4 harg4 arg5 harg5) K := by
  simp only [cc0__linear_relu_kernel_eq_skeleton]; unfold cc0__linear_relu_kernel_skel
  unfold owns
  iintro ⟨⟨%f0, %hf0, H0⟩, ⟨%f1, %hf1, H1⟩, ⟨%f2, %hf2, H2⟩, ⟨%ds, %fs, -, HS⟩, Hk⟩
  obtain rfl := harg2.eq_unread hf0; obtain rfl := harg3.eq_unread hf1; obtain rfl := harg4.eq_unread hf2
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact HS
  ipureintro
  refine (read_writes_unit_zero _ _ off2_zero _ _ _).trans ?_
  sl_unfold_run_names
  rw [readAt_unit_zero_eq_read _ _ off2_zero, readAt_unit_zero_eq_read _ _ off2_zero, View.readCov_cons_toLoadRect, hf0, hf1]

set_option maxHeartbeats 1000000 in
theorem run0_last (c : Dev nD) (i : grid0.Coords) (arg2 : Memref sig .tc .vmem S1024x1024 .f32) (harg2 : arg2.IsWhole) (arg3 : Memref sig .tc .vmem S128x1024 .f32) (harg3 : arg3.IsWhole) (arg4 : Memref sig .tc .vmem S1024x128 .f32) (harg4 : arg4.IsWhole) (arg5 : Memref sig .tc .vmem S1024x128 .f32) (harg5 : arg5.IsWhole)
    (hc0 : ¬cond0_0 i) (hc1 : cond0_1 i)
    (x0 : Vec F S1024x1024 .f32) (x1 : Vec F S128x1024 .f32) (xs : Vec F S1024x128 .f32) (E : Set ℕ) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare xs
       ∗ (iprop(owns (c : Thread nD τ) arg2 fullShare x0 ∗ owns (c : Thread nD τ) arg3 fullShare x1 ∗ owns (c : Thread nD τ) arg4 fullShare (k0_pay3 (k0_pay2 x0 x1 xs)) ∗ owns (c : Thread nD τ) arg5 fullShare (k0_pay2 x0 x1 xs)) -∗ K ⟨⟩))
     ⊢ wp frame (wpE (defs₀ (F := F)) Variants.none c none) E (cc0__linear_relu_kernel i arg2 harg2 arg3 harg3 arg4 harg4 arg5 harg5) K := by
  simp only [cc0__linear_relu_kernel_eq_skeleton]; unfold cc0__linear_relu_kernel_skel
  unfold owns
  iintro ⟨⟨%f0, %hf0, H0⟩, ⟨%f1, %hf1, H1⟩, ⟨%d2, %f2, -, H2⟩, ⟨%fs, %hfs, HS⟩, Hk⟩
  obtain rfl := harg2.eq_unread hf0; obtain rfl := harg3.eq_unread hf1; obtain rfl := harg5.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    refine (read_writes_unit_zero _ _ off2_zero _ _ _).trans ?_
    sl_unfold_run_names
    rw [View.readCov_cons_toLoadRect, readAt_unit_zero_eq_read _ _ off2_zero, readAt_unit_zero_eq_read _ _ off2_zero, readAt_unit_zero_eq_read _ _ off2_zero, hf0, hf1, hfs]
  iexists _; isplitr
  swap; · iexact HS
  ipureintro
  sl_unfold_run_names
  refine (read_writes_unit_zero _ _ off2_zero _ _ _).trans ?_
  rw [readAt_unit_zero_eq_read _ _ off2_zero, readAt_unit_zero_eq_read _ _ off2_zero, readAt_unit_zero_eq_read _ _ off2_zero, hf0, hf1, hfs]

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The accumulator after point `n`: the block product of the point added to zero at the first column block of a
    row block, and to what the point before left otherwise. -/
def acc0 (c : Dev nD) : (n : ℕ) → n < cfg0.N → Vec F S1024x128 .f32
  | 0, hn => k0_pay2 (iblk0 V c 0 ⟨0, hn⟩) (iblk0 V c 1 ⟨0, hn⟩) k0_pay1
  | n + 1, hn => k0_pay2 (iblk0 V c 0 ⟨n + 1, hn⟩) (iblk0 V c 1 ⟨n + 1, hn⟩)
      (if (n + 1) % 8 = 0 then k0_pay1 else acc0 c n (Nat.lt_of_succ_lt hn))

/-- The accumulator at the first column block of a row block: the block product added to zero. -/
theorem acc0_first (c : Dev nD) (t : Fin cfg0.N) (h0 : t.val % 8 = 0) :
    acc0 V c t.val t.isLt = k0_pay2 (iblk0 V c 0 t) (iblk0 V c 1 t) k0_pay1 := by
  obtain ⟨n, hn⟩ := t
  cases n with
  | zero => rfl
  | succ n =>
    have h0' : (n + 1) % 8 = 0 := h0
    show k0_pay2 (iblk0 V c 0 ⟨n + 1, hn⟩) (iblk0 V c 1 ⟨n + 1, hn⟩)
      (if (n + 1) % 8 = 0 then k0_pay1 else acc0 V c n (Nat.lt_of_succ_lt hn)) = _
    rw [if_pos h0']

/-- The accumulator at any other column block: the block product added to what the point before left. -/
theorem acc0_next (c : Dev nD) (t : Fin cfg0.N) (h0 : ¬t.val % 8 = 0) :
    acc0 V c t.val t.isLt = k0_pay2 (iblk0 V c 0 t) (iblk0 V c 1 t)
      (acc0 V c (t.val - 1) (Nat.lt_of_le_of_lt (Nat.sub_le _ _) t.isLt)) := by
  obtain ⟨n, hn⟩ := t
  cases n with
  | zero => exact absurd (Nat.zero_mod _) h0
  | succ n =>
    have h0' : ¬(n + 1) % 8 = 0 := h0
    show k0_pay2 (iblk0 V c 0 ⟨n + 1, hn⟩) (iblk0 V c 1 ⟨n + 1, hn⟩)
      (if (n + 1) % 8 = 0 then k0_pay1 else acc0 V c n (Nat.lt_of_succ_lt hn)) = _
    rw [if_neg h0']; rfl

/-- The scratch accumulator as a memref. -/
abbrev scM0 : Memref sig .tc .vmem S1024x128 .f32 := Memref.whole cc0_scratch0

/-- The scoped buffers of the other two regions (their staging buffers and the second region's accumulator), each
    whole at some contents: what the scoped rest holds beside this region's accumulator. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f))

/-- The scoped rest with the accumulator as a memref owned at some contents. -/
theorem PhiA0_eq (c : Dev nD) :
    (Pipeline.ΦA spec0 c : sProp 𝕄)
      = iprop(iprop((∃ d, owns (c : Thread nD τ) scM0 fullShare d) ∗ rest0 (F := F) c) ∗ (∃ r, prngReg c r)) := by
  unfold Pipeline.ΦA; rw [scopedRest0_eq]; unfold rest0; simp only [scM0, owns_whole]; try rfl

/-- The region invariant before position `n`: at first the scoped rest at anything; afterwards the accumulator at what
    the point before left, the other scoped buffers at anything, and the generator register at some state. -/
def Phi0 (c : Dev nD) : (n : ℕ) → n ≤ cfg0.N → sProp 𝕄
  | 0, _ => Pipeline.ΦA spec0 c
  | n + 1, hn => iprop(iprop(owns (c : Thread nD τ) scM0 fullShare (acc0 V c n hn) ∗ rest0 (F := F) c) ∗ (∃ r, prngReg c r))

theorem Phi0_zero (c : Dev nD) (n : ℕ) (h : n ≤ cfg0.N) (hz : n = 0) : Phi0 V c n h = Pipeline.ΦA spec0 c := by
  subst hz; rfl

/-- After point `n`: the accumulator at that point's contents. -/
theorem Phi0_succ (c : Dev nD) (n : ℕ) (hn : n < cfg0.N) :
    Phi0 V c (n + 1) hn = iprop(iprop(owns (c : Thread nD τ) scM0 fullShare (acc0 V c n hn) ∗ rest0 (F := F) c) ∗ (∃ r, prngReg c r)) := rfl

/-- Before a point that is not the first: the accumulator at what the point before left. -/
theorem Phi0_pos (c : Dev nD) (n : ℕ) (h : n ≤ cfg0.N) (hz : n ≠ 0) :
    Phi0 V c n h = iprop(iprop(owns (c : Thread nD τ) scM0 fullShare (acc0 V c (n - 1) (by omega)) ∗ rest0 (F := F) c) ∗ (∃ r, prngReg c r)) := by
  cases n with
  | zero => exact absurd rfl hz
  | succ n => rfl

/-- The proof data of the region on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay3 (acc0 V c t.val t.isLt)
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay3 (acc0 V c t.val t.isLt) := by dsimp only [dat0]

/-- The invariant at a point's start, restated at the point's position. -/
theorem Phi0_castSucc (c : Dev nD) (t : Fin cfg0.N) :
    (dat0 V c).Φ t.castSucc = Phi0 V c t.val (Nat.le_of_lt t.isLt) := by
  dsimp only [dat0]; simp only [Fin.coe_castSucc]

/-- Each input's current staging buffer holds its block at every point. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)

/-! ## The body obligation, at a generic point -/

/-- Each window's current staging memref at point `t`, spelled as the pipeline passes it, and its wholeness. -/
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x128 .f32 := win0_2.stage (cfg0.slots t 2)
abbrev hs0_2 (t : Fin cfg0.N) : (ms0_2 t).IsWhole := hstage0_2 ((cfg0.slots t 2).cast nbuf0_2)

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point. The inputs' memrefs hold their blocks; the position within the row block says which of the
    three runs applies. The invariant hands the body the accumulator (at what the point before left, or at anything
    where it is reset) and takes it back at this point's contents; away from the last column block the output's buffer
    is handed back as found, at the last it holds the positive part of the accumulator. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = Phi0 V c (t.val + 1) t.isLt from rfl, Phi0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  have hN : t.val < 64 := lt_of_lt_of_eq t.isLt (show cfg0.N = 64 from N_0)
  by_cases h0 : t.val % 8 = 0
  · have hc0 : cond0_0 (grid0.coords t) := (hcond0_0 t).mpr h0
    have hc1 : ¬cond0_1 (grid0.coords t) := fun h => by have := (hcond0_1 t).mp h; omega
    rw [Dat.leavesExact_idle (dat0 V c) 2 t (idleAt0_2 t hc1) (noFlush0_2 t hc1)]
    rw [acc0_first V c t h0]
    by_cases hz : t.val = 0
    · rw [Phi0_castSucc V c t, Phi0_zero V c _ _ hz, PhiA0_eq]
      iintro ⟨⟨⟨HS, HR⟩, Hg⟩, Ho, ⟨%d0, H0⟩, ⟨%d1, H1⟩, ⟨%d2, H2⟩⟩
      iapply (run0_first c (grid0.coords t) _ (hs0_0 t) _ (hs0_1 t) _ (hs0_2 t) _ (Memref.isWhole_whole _) hc0 hc1 (iblk0 V c 0 t) (iblk0 V c 1 t) _ Set.univ _)
      isplitl [H0]; · iexact H0
      isplitl [H1]; · iexact H1
      isplitl [H2]; · iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2
    · rw [Phi0_castSucc V c t, Phi0_pos V c _ _ hz]
      iintro ⟨⟨⟨HS, HR⟩, Hg⟩, Ho, ⟨%d0, H0⟩, ⟨%d1, H1⟩, ⟨%d2, H2⟩⟩
      iapply (run0_first c (grid0.coords t) _ (hs0_0 t) _ (hs0_1 t) _ (hs0_2 t) _ (Memref.isWhole_whole _) hc0 hc1 (iblk0 V c 0 t) (iblk0 V c 1 t) _ Set.univ _)
      isplitl [H0]; · iexact H0
      isplitl [H1]; · iexact H1
      isplitl [H2]; · iexact H2
      isplitl [HS]; · iexists _; iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2
  · have hc0 : ¬cond0_0 (grid0.coords t) := fun h => h0 ((hcond0_0 t).mp h)
    have hz : t.val ≠ 0 := fun h => h0 (by rw [h])
    rw [acc0_next V c t h0]
    rw [Phi0_castSucc V c t, Phi0_pos V c _ _ hz]
    by_cases h1 : t.val % 8 = 7
    · have hc1 : cond0_1 (grid0.coords t) := (hcond0_1 t).mpr h1
      rw [show (dat0 V c).leavesExact 2 t = owns (c : Thread nD τ) (ms0_2 t) fullShare ((dat0 V c).after 2 t) from by
        unfold Dat.leavesExact; rw [liveAt0_2 t hc1], after0_2, acc0_next V c t h0]
      iintro ⟨⟨⟨HS, HR⟩, Hg⟩, Ho, ⟨%d0, H0⟩, ⟨%d1, H1⟩, ⟨%d2, H2⟩⟩
      iapply (run0_last c (grid0.coords t) _ (hs0_0 t) _ (hs0_1 t) _ (hs0_2 t) _ (Memref.isWhole_whole _) hc0 hc1 (iblk0 V c 0 t) (iblk0 V c 1 t) _ Set.univ _)
      isplitl [H0]; · iexact H0
      isplitl [H1]; · iexact H1
      isplitl [H2]; · iexists _; iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexact H2
    · have hc1 : ¬cond0_1 (grid0.coords t) := fun h => h1 ((hcond0_1 t).mp h)
      rw [Dat.leavesExact_idle (dat0 V c) 2 t (idleAt0_2 t hc1) (noFlush0_2 t hc1)]
      iintro ⟨⟨⟨HS, HR⟩, Hg⟩, Ho, ⟨%d0, H0⟩, ⟨%d1, H1⟩, ⟨%d2, H2⟩⟩
      iapply (run0_mid c (grid0.coords t) _ (hs0_0 t) _ (hs0_1 t) _ (hs0_2 t) _ (Memref.isWhole_whole _) hc0 hc1 (iblk0 V c 0 t) (iblk0 V c 1 t) _ _ Set.univ _)
      isplitl [H0]; · iexact H0
      isplitl [H1]; · iexact H1
      isplitl [H2]; · iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2

/-- The body obligation at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = Phi0 V c 0 (Nat.zero_le _) from rfl, Phi0_zero V c 0 _ rfl]
  try exact Idealize.SL.BI.Entails.refl _

/-- After any point but the first the invariant gives the scoped rest back: the accumulator's named contents are forgotten. -/
theorem Phi0_out (c : Dev nD) (t : Fin (cfg0.N + 1)) (ht : t.val ≠ 0) : (dat0 V c).Φ t ⊢ Pipeline.ΦA spec0 c := by
  rw [show (dat0 V c).Φ t = Phi0 V c t.val (Nat.le_of_lt_succ t.isLt) from rfl, Phi0_pos V c _ _ ht, PhiA0_eq]
  iintro ⟨⟨HS, HR⟩, Hg⟩
  isplitl [HS HR]
  · isplitl [HS]
    · iexists _; iexact HS
    iexact HR
  iexact Hg

/-- After the last point the invariant gives the scoped rest back. -/
theorem hout0 (c : Dev nD) : (dat0 V c).Φ (Fin.last cfg0.N) ⊢ Pipeline.ΦA spec0 c :=
  Phi0_out V c _ (by rw [Fin.val_last]; have : cfg0.N = 64 := N_0; omega)

end Cert.KernelIdeal.Hand

end
-- ==== Proof.Body1.lean ====
/-
  The second matrix-product region: an [8192, 128] matrix against a [64, 128] matrix in four row blocks, the whole
  contraction inside one point: the scratch accumulator is reset, gains the block product, and its positive part is
  stored as the row block of the result, at every point. Stated at a parameter `V`, the buffer contents when the
  region is entered.
-/
import proofs.«111818_j30855045054720_1_alg».proof.Proof.Gen.KernelIdeal.Launch
import proofs.«111818_j30855045054720_1_alg».proof.Proof.Gen.KernelIdeal.Skeleton
import proofs.«111818_j30855045054720_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The scratch accumulator as a memref. -/
abbrev scM1 : Memref sig .tc .vmem S2048x64 .f32 := Memref.whole cc1_scratch0

/-- The proof data of the region on core `c`: the accumulator is rewritten before it is read at every point, so the
    invariant is the scoped rest at anything. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay3 (k1_pay2 (iblk1 V c 0 t) (iblk1 V c 1 t) k1_pay1)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) :
    (dat1 V c).after 2 t = k1_pay3 (k1_pay2 (iblk1 V c 0 t) (iblk1 V c 1 t) k1_pay1) := by dsimp only [dat1]

/-! ## The input windows' staging buffers before the body -/

/-- An input window's current staging buffer holds its block at every point, fetched there or not: the window is uncut
    and never idle, the body leaves the block in place, and where the window is not fetched its block index has not
    moved. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

/-! ## The body's two conditionals -/

/-- The condition of the body's first conditional (the accumulator is reset), from the grid coordinates. -/
abbrev cond1_0 (i : grid1.Coords) : Prop :=
  (Scalar.cmpi .ne (Scalar.extui (Scalar.cmpi .eq (BitVec.ofNat 32 (i 1).val) 0#32)) 0#32) = 1#1
/-- It holds at every point: the second grid axis has one position. -/
theorem hcond1_0 : ∀ t : Fin cfg1.N, cond1_0 (grid1.coords t) :=
  (by decide +kernel : ∀ t : Fin grid1.N, cond1_0 (grid1.coords t))

/-- The condition of the body's second conditional (the result is stored), from the grid coordinates. -/
abbrev cond1_1 (i : grid1.Coords) : Prop := k1_cond2 i = 1#1
/-- It holds at every point, for the same reason. -/
theorem hcond1_1 : ∀ t : Fin cfg1.N, cond1_1 (grid1.coords t) :=
  (by decide +kernel : ∀ t : Fin grid1.N, cond1_1 (grid1.coords t))

/-! ## The body's triple -/

/-- The two zero offsets of a whole-buffer access, as a constant function. -/
theorem offs1_zero : (![0, 0] : Fin 2 → ℕ) = fun _ => 0 := by
  funext a; fin_cases a <;> rfl

set_option maxHeartbeats 2000000 in
/-- The kernel body at a point where both conditionals are taken, on whole memrefs — the two inputs' at contents `x0`,
    `x1`, the output's and the accumulator's at anything — runs to the continuation holding the inputs' as they were, the
    output's at the positive part of the block product added to the zero accumulator, and the accumulator's at some
    contents. Every access goes through a whole buffer: a load reads the contents, a load after a store reads the
    stored value back, and the last store leaves its payload; the loads whose values are not used change nothing. -/
theorem sound_kernel1 (c : Dev nD) (E : Set ℕ) (i : grid1.Coords) (hc0 : cond1_0 i) (hc1 : cond1_1 i)
    (arg2 : Memref sig .tc .vmem S2048x128 .f32) (harg2 : arg2.IsWhole)
    (arg3 : Memref sig .tc .vmem S64x128 .f32) (harg3 : arg3.IsWhole)
    (arg4 : Memref sig .tc .vmem S2048x64 .f32) (harg4 : arg4.IsWhole)
    (arg5 : Memref sig .tc .vmem S2048x64 .f32) (harg5 : arg5.IsWhole)
    (x0 : Vec F S2048x128 .f32) (x1 : Vec F S64x128 .f32) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1
            ∗ owns (c : Thread nD τ) arg4 fullShare (k1_pay3 (k1_pay2 x0 x1 k1_pay1))
            ∗ (∃ d, owns (c : Thread nD τ) arg5 fullShare d)) -∗ K ⟨⟩))
      ⊢ wp frame (wpE (defs₀ (F := F)) Variants.none c none) E (cc1__linear_relu_kernel i arg2 harg2 arg3 harg3 arg4 harg4 arg5 harg5) K := by
  simp only [cc1__linear_relu_kernel_eq_skeleton]; unfold cc1__linear_relu_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ ?_).trans ((View.canon_unit_zero offs1_zero _ _).trans ?_)
    · intro y
      exact ⟨_, List.mem_singleton_self _, View.mem_set_unit_zero offs1_zero inb_S2048x64_S2048x64_0_0 y⟩
    sl_unfold_run_names
    rw [View.readCov_cons_toLoadRect, View.readCov_cons_toLoadRect, View.readAt_eq_ld, View.readAt_eq_ld,
      View.ld_unit_zero offs1_zero, View.ld_unit_zero offs1_zero]
  iexists _; iexists _; isplitr
  swap; · iexact H3
  ipureintro; rfl

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns: every window's buffer as the pipeline expects it at the point. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

/-- No window is idle at any point: the inputs never are, and the output is stored into at every point, the second
    conditional being taken everywhere. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel

/-- The accumulator, a whole scoped buffer, owned at given contents is its points-to there, and conversely. -/
theorem scratch1_in (c : Dev nD) (f : Buf (Elt F) ((c : Thread nD τ).loc cc1_scratch0)) :
    ((((c : Thread nD τ).loc cc1_scratch0) ↦{fullShare} f : sProp 𝕄)) ⊢ owns (c : Thread nD τ) scM1 fullShare f :=
  Entails.of_eq (owns_whole (c : Thread nD τ) cc1_scratch0 fullShare f).symm
theorem scratch1_out (c : Dev nD) (f : Buf (Elt F) ((c : Thread nD τ).loc cc1_scratch0)) :
    (owns (c : Thread nD τ) scM1 fullShare f : sProp 𝕄) ⊢ (((c : Thread nD τ).loc cc1_scratch0) ↦{fullShare} f) :=
  Entails.of_eq (owns_whole (c : Thread nD τ) cc1_scratch0 fullShare f)

set_option maxHeartbeats 1000000 in
/-- The body at any point: the inputs' memrefs hold their blocks and both conditionals are taken, so the triple applies;
    the invariant hands the body the accumulator at some contents out of the scoped rest and takes it back at some
    contents; the other scoped buffers, the generator register and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    show (dat1 V c).leavesExact 0 t = owns (c : Thread nD τ) (st1_0 t) fullShare ((dat1 V c).after 0 t) from by
      unfold Dat.leavesExact; rw [liveAt1_0 t],
    show (dat1 V c).leavesExact 1 t = owns (c : Thread nD τ) (st1_1 t) fullShare ((dat1 V c).after 1 t) from by
      unfold Dat.leavesExact; rw [liveAt1_1 t],
    show (dat1 V c).leavesExact 2 t = owns (c : Thread nD τ) (st1_2 t) fullShare ((dat1 V c).after 2 t) from by
      unfold Dat.leavesExact; rw [liveAt1_2 t],
    after1_0, after1_1, after1_2,
    show (dat1 V c).Φ t.castSucc = Pipeline.ΦA spec1 c from rfl]
  unfold Pipeline.ΦA
  rw [scopedRest1_eq]
  iintro ⟨⟨⟨R0, R1, R2, R3, R4, R5, R6, ⟨%fs, HS⟩, R8, R9, R10⟩, Hg⟩, Ho, ⟨%d0, H0⟩, ⟨%d1, H1⟩, ⟨%d2, H2⟩⟩
  ihave HS := (scratch1_in c fs) $$ HS
  iapply (sound_kernel1 c Set.univ (grid1.coords t) (hcond1_0 t) (hcond1_1 t) _ _ _ _ _ _ _ _
    (iblk1 V c 0 t) (iblk1 V c 1 t) _)
  isplitl [H0]; · iexact H0
  isplitl [H1]; · iexact H1
  isplitl [H2]; · iexists _; iexact H2
  isplitl [HS]; · iexists _; iexact HS
  iintro ⟨H0, H1, H2, ⟨%fs', HS⟩⟩
  ihave HS := (scratch1_out c fs') $$ HS
  isplitl [R0 R1 R2 R3 R4 R5 R6 HS R8 R9 R10 Hg]
  · isplitr [Hg]
    swap; · iexact Hg
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [HS]; · iexists _; iexact HS
    isplitl [R8]; · iexact R8
    isplitl [R9]; · iexact R9
    iexact R10
  isplitl [Ho]; · iexact Ho
  isplitl [H0]; · iexact H0
  isplitl [H1]; · iexact H1
  iexact H2

/-- The body obligation at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Body2.lean ====
/-
  The third region, one point: the product of a [1024, 64] matrix with its own transpose, the absolute difference with a
  [1024, 1024] matrix, and the sum of all entries stored as a [1, 1] block. Stated at a parameter `V`, the buffer
  contents when the region is entered.
-/
import proofs.«111818_j30855045054720_1_alg».proof.Proof.Gen.KernelIdeal.Launch
import proofs.«111818_j30855045054720_1_alg».proof.Proof.Gen.KernelIdeal.Skeleton
import proofs.«111818_j30855045054720_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The proof data of the region on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => k2_pay1 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) :
    (dat2 V c).after 2 t = k2_pay1 (iblk2 V c 0 t) (iblk2 V c 1 t) := by dsimp only [dat2]

/-! ## The input windows' staging buffers before the body -/

/-- An input window's current staging buffer holds its block at the point: the window is fetched there, uncut and
    never idle, and the body leaves the block in place. -/
theorem before2_0 (c : Dev nD) (t : Fin cfg2.N) (d) : (dat2 V c).before 0 t d = iblk2 V c 0 t :=
  ((dat2 V c).before_in_eq_fetched 0 rfl (fun _ => rfl) (fun _ _ _ => rfl)
      (fun t => by rw [after2_0]; unfold Dat.blockOf iblk2; rw [A_eq2]; try rfl) t d).trans
    (by unfold Dat.fetched Dat.blockOf iblk2; rw [A_eq2]; try rfl)

theorem before2_1 (c : Dev nD) (t : Fin cfg2.N) (d) : (dat2 V c).before 1 t d = iblk2 V c 1 t :=
  ((dat2 V c).before_in_eq_fetched 1 rfl (fun _ => rfl) (fun _ _ _ => rfl)
      (fun t => by rw [after2_1]; unfold Dat.blockOf iblk2; rw [A_eq2]; try rfl) t d).trans
    (by unfold Dat.fetched Dat.blockOf iblk2; rw [A_eq2]; try rfl)

/-! ## The body's triple -/

/-- The two zero offsets of a whole-buffer access, as a constant function. -/
theorem zeros2 : (![0, 0] : Fin 2 → ℕ) = fun _ => 0 := by
  funext a; fin_cases a <;> rfl

set_option maxHeartbeats 1000000 in
/-- The kernel body on whole staging memrefs, the two inputs' at contents `x0`, `x1` and the output's at anything, runs
    to the continuation holding the inputs' as they were and the output's at the stored value: both loads and the store
    go through the whole buffers, so the loads read the contents and the store leaves its payload; the load of the
    output before the store is not used. -/
theorem sound_kernel2 (c : Dev nD) (E : Set ℕ) (i : grid2.Coords)
    (arg1 : Memref sig .tc .vmem S1024x64 .f32) (harg1 : arg1.IsWhole)
    (arg2 : Memref sig .tc .vmem S1024x1024 .f32) (harg2 : arg2.IsWhole)
    (arg3 : Memref sig .tc .vmem S1x1 .f32) (harg3 : arg3.IsWhole)
    (x0 : Vec F S1024x64 .f32) (x1 : Vec F S1024x1024 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (k2_pay1 x0 x1)) -∗ K ⟨⟩))
      ⊢ wp frame (wpE (defs₀ (F := F)) Variants.none c none) E (cc2__loss_kernel i arg1 harg1 arg2 harg2 arg3 harg3) K := by
  simp only [cc2__loss_kernel_eq_skeleton]; unfold cc2__loss_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.readAt_eq_ld, View.readAt_eq_ld, View.ld_unit_zero zeros2, View.ld_unit_zero zeros2]
  refine (View.read_writes_eq_canon _ _ _ ?_).trans (View.canon_unit_zero zeros2 _ _)
  intro y
  exact ⟨_, List.mem_singleton_self _, View.mem_set_unit_zero zeros2 inb_S1x1_S1x1_0_0 y⟩

/-! ## The body obligation -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at the point: the inputs' memrefs hold their blocks, so the triple applies; the invariant and what the core
    owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.Run.lean ====
/-
  The whole run of the program: three kernel regions alternating with three stretches of host operations. The buffer
  contents at each boundary are a fold from the launch memory: a region replaces its windows' arrays by what its
  write-backs leave, a host stretch applies its operations. Every weakly fair execution terminates with every unscoped
  buffer at the last fold; no region and no host operation writes an argument array, so each ends as launched.
-/
import proofs.«111818_j30855045054720_1_alg».proof.Proof.Gen.KernelIdeal.Launch
import proofs.«111818_j30855045054720_1_alg».proof.Proof.Gen.KernelIdeal.Skeleton
import proofs.«111818_j30855045054720_1_alg».proof.Proof.Gen.KernelIdeal.Points
import proofs.«111818_j30855045054720_1_alg».proof.Proof.Body0
import proofs.«111818_j30855045054720_1_alg».proof.Proof.Body1
import proofs.«111818_j30855045054720_1_alg».proof.Proof.Body2
import proofs.«111818_j30855045054720_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch (the first region's entry). -/
abbrev W0 : Dev nD → Valuation τ sig (Elt F) := fun c b => (s₀ m ρ).mem ((c : Dev nD), b)
abbrev E0 : (c : Dev nD) → (b : Ref sig .tc) → Buf (Elt F) ((c : Thread nD τ).loc b) := fun c b => W0 m ρ c b

/-- At region 0's exit: its arrays at what the pipeline leaves, every other buffer as entered. -/
def W1 (c : Dev nD) : Valuation τ sig (Elt F) :=
  Pipeline.withArrays spec0 c (W0 m ρ c) fun w => (dat0 (E0 m ρ) c).arrAt w cfg0.N
theorem W1_arr (c : Dev nD) (w : Fin cfg0.W) :
    W1 m ρ c (Proc.devRef .tc (Pipeline.arrRef spec0 w)) = (dat0 (E0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev X0 : (c : Dev nD) → (b : Ref sig .tc) → Buf (Elt F) ((c : Thread nD τ).loc b) := fun c b => W1 m ρ c b
theorem hF0 (c : Dev nD) (w : Fin cfg0.W) : (dat0 (E0 m ρ) c).arrAt w cfg0.N = X0 m ρ c (Pipeline.arrRef spec0 w) :=
  (W1_arr m ρ c w).symm
theorem hrest0 (c : Dev nD) : ∀ b, b ∉ Finset.univ.image (Pipeline.arrRef spec0) → X0 m ρ c b = E0 m ρ c b :=
  fun b hb => W1_of_ne m ρ c b fun w e => hb (Finset.mem_image.mpr ⟨w, Finset.mem_univ _, e⟩)

/-- After `hostOps1`. -/
abbrev W2 : Dev nD → Valuation τ sig (Elt F) := fun c => StableHlo.after hostOps1 (W1 m ρ c)
abbrev E1 : (c : Dev nD) → (b : Ref sig .tc) → Buf (Elt F) ((c : Thread nD τ).loc b) := fun c b => W2 m ρ c b

/-- At region 1's exit: its arrays at what the pipeline leaves, every other buffer as entered. -/
def W3 (c : Dev nD) : Valuation τ sig (Elt F) :=
  Pipeline.withArrays spec1 c (W2 m ρ c) fun w => (dat1 (E1 m ρ) c).arrAt w cfg1.N
theorem W3_arr (c : Dev nD) (w : Fin cfg1.W) :
    W3 m ρ c (Proc.devRef .tc (Pipeline.arrRef spec1 w)) = (dat1 (E1 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev X1 : (c : Dev nD) → (b : Ref sig .tc) → Buf (Elt F) ((c : Thread nD τ).loc b) := fun c b => W3 m ρ c b
theorem hF1 (c : Dev nD) (w : Fin cfg1.W) : (dat1 (E1 m ρ) c).arrAt w cfg1.N = X1 m ρ c (Pipeline.arrRef spec1 w) :=
  (W3_arr m ρ c w).symm
theorem hrest1 (c : Dev nD) : ∀ b, b ∉ Finset.univ.image (Pipeline.arrRef spec1) → X1 m ρ c b = E1 m ρ c b :=
  fun b hb => W3_of_ne m ρ c b fun w e => hb (Finset.mem_image.mpr ⟨w, Finset.mem_univ _, e⟩)

/-- After `hostOps2`. -/
abbrev W4 : Dev nD → Valuation τ sig (Elt F) := fun c => StableHlo.after hostOps2 (W3 m ρ c)
abbrev E2 : (c : Dev nD) → (b : Ref sig .tc) → Buf (Elt F) ((c : Thread nD τ).loc b) := fun c b => W4 m ρ c b

/-- At region 2's exit: its arrays at what the pipeline leaves, every other buffer as entered. -/
def W5 (c : Dev nD) : Valuation τ sig (Elt F) :=
  Pipeline.withArrays spec2 c (W4 m ρ c) fun w => (dat2 (E2 m ρ) c).arrAt w cfg2.N
theorem W5_arr (c : Dev nD) (w : Fin cfg2.W) :
    W5 m ρ c (Proc.devRef .tc (Pipeline.arrRef spec2 w)) = (dat2 (E2 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev X2 : (c : Dev nD) → (b : Ref sig .tc) → Buf (Elt F) ((c : Thread nD τ).loc b) := fun c b => W5 m ρ c b
theorem hF2 (c : Dev nD) (w : Fin cfg2.W) : (dat2 (E2 m ρ) c).arrAt w cfg2.N = X2 m ρ c (Pipeline.arrRef spec2 w) :=
  (W5_arr m ρ c w).symm
theorem hrest2 (c : Dev nD) : ∀ b, b ∉ Finset.univ.image (Pipeline.arrRef spec2) → X2 m ρ c b = E2 m ρ c b :=
  fun b hb => W5_of_ne m ρ c b fun w e => hb (Finset.mem_image.mpr ⟨w, Finset.mem_univ _, e⟩)

/-- After `hostOps3`. -/
abbrev W6 : Dev nD → Valuation τ sig (Elt F) := fun c => StableHlo.after hostOps3 (W5 m ρ c)

/-! ## The arguments end as launched -/
theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := StableHlo.after_of_writes_sub hostOps3 _ hostOps3_writes (by decide)
    _ = W4 m ρ c (Proc.devRef .tc main_arg0) := W5_of_ne m ρ c main_arg0 (by decide)
    _ = W3 m ρ c (Proc.devRef .tc main_arg0) := StableHlo.after_of_writes_sub hostOps2 _ hostOps2_writes (by decide)
    _ = W2 m ρ c (Proc.devRef .tc main_arg0) := W3_of_ne m ρ c main_arg0 (by decide)
    _ = W1 m ρ c (Proc.devRef .tc main_arg0) := StableHlo.after_of_writes_sub hostOps1 _ hostOps1_writes (by decide)
    _ = W0 m ρ c (Proc.devRef .tc main_arg0) := (W1_arr m ρ c 0).trans (((dat0 (E0 m ρ) c).arrAt_in 0 rfl _).trans (A_eq0 (E0 m ρ) c 0))
    _ = m ((c : Thread nD τ).loc main_arg0) := rfl
theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := StableHlo.after_of_writes_sub hostOps3 _ hostOps3_writes (by decide)
    _ = W4 m ρ c (Proc.devRef .tc main_arg1) := W5_of_ne m ρ c main_arg1 (by decide)
    _ = W3 m ρ c (Proc.devRef .tc main_arg1) := StableHlo.after_of_writes_sub hostOps2 _ hostOps2_writes (by decide)
    _ = W2 m ρ c (Proc.devRef .tc main_arg1) := W3_of_ne m ρ c main_arg1 (by decide)
    _ = W1 m ρ c (Proc.devRef .tc main_arg1) := StableHlo.after_of_writes_sub hostOps1 _ hostOps1_writes (by decide)
    _ = W0 m ρ c (Proc.devRef .tc main_arg1) := (W1_arr m ρ c 1).trans (((dat0 (E0 m ρ) c).arrAt_in 1 rfl _).trans (A_eq0 (E0 m ρ) c 1))
    _ = m ((c : Thread nD τ).loc main_arg1) := rfl
theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := StableHlo.after_of_writes_sub hostOps3 _ hostOps3_writes (by decide)
    _ = W4 m ρ c (Proc.devRef .tc main_arg2) := W5_of_ne m ρ c main_arg2 (by decide)
    _ = W3 m ρ c (Proc.devRef .tc main_arg2) := StableHlo.after_of_writes_sub hostOps2 _ hostOps2_writes (by decide)
    _ = W2 m ρ c (Proc.devRef .tc main_arg2) := (W3_arr m ρ c 1).trans (((dat1 (E1 m ρ) c).arrAt_in 1 rfl _).trans (A_eq1 (E1 m ρ) c 1))
    _ = W1 m ρ c (Proc.devRef .tc main_arg2) := StableHlo.after_of_writes_sub hostOps1 _ hostOps1_writes (by decide)
    _ = W0 m ρ c (Proc.devRef .tc main_arg2) := W1_of_ne m ρ c main_arg2 (by decide)
    _ = m ((c : Thread nD τ).loc main_arg2) := rfl
theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := StableHlo.after_of_writes_sub hostOps3 _ hostOps3_writes (by decide)
    _ = W4 m ρ c (Proc.devRef .tc main_arg3) := W5_of_ne m ρ c main_arg3 (by decide)
    _ = W3 m ρ c (Proc.devRef .tc main_arg3) := StableHlo.after_of_writes_sub hostOps2 _ hostOps2_writes (by decide)
    _ = W2 m ρ c (Proc.devRef .tc main_arg3) := W3_of_ne m ρ c main_arg3 (by decide)
    _ = W1 m ρ c (Proc.devRef .tc main_arg3) := StableHlo.after_of_writes_sub hostOps1 _ hostOps1_writes (by decide)
    _ = W0 m ρ c (Proc.devRef .tc main_arg3) := W1_of_ne m ρ c main_arg3 (by decide)
    _ = m ((c : Thread nD τ).loc main_arg3) := rfl
theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := StableHlo.after_of_writes_sub hostOps3 _ hostOps3_writes (by decide)
    _ = W4 m ρ c (Proc.devRef .tc main_arg4) := W5_of_ne m ρ c main_arg4 (by decide)
    _ = W3 m ρ c (Proc.devRef .tc main_arg4) := StableHlo.after_of_writes_sub hostOps2 _ hostOps2_writes (by decide)
    _ = W2 m ρ c (Proc.devRef .tc main_arg4) := W3_of_ne m ρ c main_arg4 (by decide)
    _ = W1 m ρ c (Proc.devRef .tc main_arg4) := StableHlo.after_of_writes_sub hostOps1 _ hostOps1_writes (by decide)
    _ = W0 m ρ c (Proc.devRef .tc main_arg4) := W1_of_ne m ρ c main_arg4 (by decide)
    _ = m ((c : Thread nD τ).loc main_arg4) := rfl
theorem W6_main_arg5 (c : Dev nD) : W6 m ρ c (Proc.devRef .tc main_arg5) = m ((c : Thread nD τ).loc main_arg5) :=
  calc W6 m ρ c (Proc.devRef .tc main_arg5)
    _ = W5 m ρ c (Proc.devRef .tc main_arg5) := StableHlo.after_of_writes_sub hostOps3 _ hostOps3_writes (by decide)
    _ = W4 m ρ c (Proc.devRef .tc main_arg5) := W5_of_ne m ρ c main_arg5 (by decide)
    _ = W3 m ρ c (Proc.devRef .tc main_arg5) := StableHlo.after_of_writes_sub hostOps2 _ hostOps2_writes (by decide)
    _ = W2 m ρ c (Proc.devRef .tc main_arg5) := W3_of_ne m ρ c main_arg5 (by decide)
    _ = W1 m ρ c (Proc.devRef .tc main_arg5) := StableHlo.after_of_writes_sub hostOps1 _ hostOps1_writes (by decide)
    _ = W0 m ρ c (Proc.devRef .tc main_arg5) := W1_of_ne m ρ c main_arg5 (by decide)
    _ = m ((c : Thread nD τ).loc main_arg5) := rfl
theorem W6_main_arg6 (c : Dev nD) : W6 m ρ c (Proc.devRef .tc main_arg6) = m ((c : Thread nD τ).loc main_arg6) :=
  calc W6 m ρ c (Proc.devRef .tc main_arg6)
    _ = W5 m ρ c (Proc.devRef .tc main_arg6) := StableHlo.after_of_writes_sub hostOps3 _ hostOps3_writes (by decide)
    _ = W4 m ρ c (Proc.devRef .tc main_arg6) := W5_of_ne m ρ c main_arg6 (by decide)
    _ = W3 m ρ c (Proc.devRef .tc main_arg6) := StableHlo.after_of_writes_sub hostOps2 _ hostOps2_writes (by decide)
    _ = W2 m ρ c (Proc.devRef .tc main_arg6) := W3_of_ne m ρ c main_arg6 (by decide)
    _ = W1 m ρ c (Proc.devRef .tc main_arg6) := StableHlo.after_of_writes_sub hostOps1 _ hostOps1_writes (by decide)
    _ = W0 m ρ c (Proc.devRef .tc main_arg6) := W1_of_ne m ρ c main_arg6 (by decide)
    _ = m ((c : Thread nD τ).loc main_arg6) := rfl

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (E0 m ρ) c
  | ⟨1, _⟩ => fun c => dat1 (E1 m ρ) c
  | ⟨2, _⟩ => fun c => dat2 (E2 m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m ρ c) ∗ ∃ r, prngReg c r)

/-- The last boundary's state regrouped: the buffers and the generator register beside the core owing nothing. -/
theorem last_assoc (c : Dev nD) :
    (iprop(StableHlo.held (c : Thread nD τ) (Pipeline.ucRefs τ sig) (W6 m ρ c) ∗ R c) : sProp 𝕄)
      ⊢ iprop(Tₙ m ρ c ∗ ∃ W, owes (c : Thread nD τ) (0 : CellTallies nD τ sig Unit) W) := by
  iintro ⟨Hh, Hp, HO⟩
  isplitl [Hh Hp]
  · isplitl [Hh]; · iexact Hh
    iexact Hp
  iexact HO

/-! ## The regions as segments -/

set_option backward.isDefEq.respectTransparency.types false in
/-- Region 0 over the thread state: entered from every unscoped buffer at `W0`, left at `W1`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (E0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (dat0 (E0 m ρ) c).Φ 0 from rfl]
    have h := hin0 (E0 m ρ) c
    unfold Pipeline.ΦA at h
    iintro ⟨Hp, -, Hr⟩
    iapply h
    isplitl [Hr]; · iexact Hr
    iexact Hp
  hout c := by
    rw [Pipeline.ownSems0_none, show (pdats m ρ 0 c).Φ (Fin.last _) = (dat0 (E0 m ρ) c).Φ (Fin.last cfg0.N) from rfl]
    have h := hout0 (E0 m ρ) c
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E0 m ρ c) (X0 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left at `W3`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (E1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E1 m ρ c) (X1 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W4`, left at `W5`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E2 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (E2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (E2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (E2 m ρ c) (X2 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)),
    .region (reg2 m ρ),
    .host (hseg hostOps3 hostOps3_sub hostOps3_fresh (W5 m ρ)) ]
theorem main_run (c : Dev nD) : main (F := F) c = Pipeline.Seg.run (segs m ρ) := (main_chain c).trans (by chain_rfl)

set_option backward.isDefEq.respectTransparency.types false in
/-- Every weakly fair execution of @main terminates, nothing faulting, with every unscoped buffer at the last fold. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => last_assoc m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c)⟩) (run_all m ρ)

/-- The same run with the result buffer named. -/
theorem run_result : θ_run defs (onTc (τ := τ) (main (F := F))) ⟨m, fun _ => 0, ρ⟩ (fun r => ∀ c : Dev nD,
      r.2.mem ((c.tc : Thread nD τ).loc main_v46) = W6 m ρ c (Proc.devRef .tc main_v46)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨h c _ (mem_uc main_v46 (by decide)),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c)⟩) (run_all m ρ)

end Cert.KernelIdeal.Hand

end
-- ==== Proof.KChains.lean ====
/-
  The host stretches between the regions, read at the buffers the next region (or the result) takes: each is one of the
  named chains applied to what the region before left and to argument arrays, which no stretch and no region changes.
-/
import proofs.«111818_j30855045054720_1_alg».proof.Proof.Run

set_option maxRecDepth 16384

noncomputable section

namespace Cert.KernelIdeal.HandValue

open Cert.KernelIdeal Cert.KernelIdeal.Gen Cert.KernelIdeal.Hand Idealize.ShloMosaic Idealize.ShloMosaic.TcCoe Idealize.SL.Sem Idealize.ShloMosaic.StableHlo

variable {F : FTy → Type} [FloatOps F]

/-- Indices read signed: a negative index wraps around by 8192. -/
def wrapE (a : (⟨S262144, .i32⟩ : BufTy).Contents (Elt F)) : (⟨S262144, .i32⟩ : BufTy).Contents (Elt F) :=
  select (cmpi .slt a (broadcastInDim S262144 ![] bcast_S_S262144 (constantI S_ 32 0#32)))
    (addi a (broadcastInDim S262144 ![] bcast_S_S262144 (constantI S_ 32 8192#32))) a
def wrapN (a : (⟨S1024, .i32⟩ : BufTy).Contents (Elt F)) : (⟨S1024, .i32⟩ : BufTy).Contents (Elt F) :=
  select (cmpi .slt a (broadcastInDim S1024 ![] bcast_S_S1024 (constantI S_ 32 0#32)))
    (addi a (broadcastInDim S1024 ![] bcast_S_S1024 (constantI S_ 32 8192#32))) a

/-- A layer's rows plus, for every edge, the source row added into the destination row (width 128). -/
def agg128 (h : (⟨S8192x128, .f32⟩ : BufTy).Contents (Elt F)) (a4 a5 : (⟨S262144, .i32⟩ : BufTy).Contents (Elt F)) :
    (⟨S8192x128, .f32⟩ : BufTy).Contents (Elt F) :=
  addf h (Host.scatterAdd scatter_S8192x128_S262144x1_S262144x128_1_0_0_1
    (broadcastInDim S8192x128 ![] bcast_S_S8192x128 (constant (F := F) S_ .f32 0x00000000#32))
    (broadcastInDim S262144x1 ![0] bcast_S262144_S262144x1_0 a5)
    (Host.gather gather_S8192x128_S262144x1_S262144x128_1_0_n_n_0_1_1128 h
      (broadcastInDim S262144x1 ![0] bcast_S262144_S262144x1_0 (wrapE a4))))

/-- The same at width 64. -/
def agg64 (h : (⟨S8192x64, .f32⟩ : BufTy).Contents (Elt F)) (a4 a5 : (⟨S262144, .i32⟩ : BufTy).Contents (Elt F)) :
    (⟨S8192x64, .f32⟩ : BufTy).Contents (Elt F) :=
  addf h (Host.scatterAdd scatter_S8192x64_S262144x1_S262144x64_1_0_0_1
    (broadcastInDim S8192x64 ![] bcast_S_S8192x64 (constant (F := F) S_ .f32 0x00000000#32))
    (broadcastInDim S262144x1 ![0] bcast_S262144_S262144x1_0 a5)
    (Host.gather gather_S8192x64_S262144x1_S262144x64_1_0_n_n_0_1_164 h
      (broadcastInDim S262144x1 ![0] bcast_S262144_S262144x1_0 (wrapE a4))))

/-- The rows of the chosen nodes. -/
def rowsOf (r : (⟨S8192x64, .f32⟩ : BufTy).Contents (Elt F)) (a6 : (⟨S1024, .i32⟩ : BufTy).Contents (Elt F)) :
    (⟨S1024x64, .f32⟩ : BufTy).Contents (Elt F) :=
  Host.gather gather_S8192x64_S1024x1_S1024x64_1_0_n_n_0_1_164 r (broadcastInDim S1024x1 ![0] bcast_S1024_S1024x1_0 (wrapN a6))

/-- The distance matrix restricted to the chosen nodes, rows then columns. -/
def subMat (d : (⟨S8192x8192, .f32⟩ : BufTy).Contents (Elt F)) (a6 : (⟨S1024, .i32⟩ : BufTy).Contents (Elt F)) :
    (⟨S1024x1024, .f32⟩ : BufTy).Contents (Elt F) :=
  Host.gather gather_S1024x8192_S1024x1_S1024x1024_0_1_n_n_1_1_10241
    (Host.gather gather_S8192x8192_S1024x1_S1024x8192_1_0_n_n_0_1_18192 d (broadcastInDim S1024x1 ![0] bcast_S1024_S1024x1_0 (wrapN a6)))
    (broadcastInDim S1024x1 ![0] bcast_S1024_S1024x1_0 (wrapN a6))

variable (m : (ℓ : Loc nD τ sig) → Buf (Elt F) ℓ) (ρ : Dev nD → PrngReg) (c : Dev nD)

/-! ## The arguments at every boundary -/
theorem W1_main_arg0 : W1 m ρ c (Proc.devRef .tc main_arg0) = m ((c : Thread nD τ).loc main_arg0) :=
  (W1_arr m ρ c 0).trans (((dat0 (E0 m ρ) c).arrAt_in 0 rfl _).trans (A_eq0 (E0 m ρ) c 0))
theorem W2_main_arg0 : W2 m ρ c (Proc.devRef .tc main_arg0) = m ((c : Thread nD τ).loc main_arg0) :=
  (StableHlo.after_of_writes_sub hostOps1 _ hostOps1_writes (by decide)).trans (W1_main_arg0 m ρ c)
theorem W3_main_arg0 : W3 m ρ c (Proc.devRef .tc main_arg0) = m ((c : Thread nD τ).loc main_arg0) :=
  (W3_of_ne m ρ c main_arg0 (by decide)).trans (W2_main_arg0 m ρ c)
theorem W4_main_arg0 : W4 m ρ c (Proc.devRef .tc main_arg0) = m ((c : Thread nD τ).loc main_arg0) :=
  (StableHlo.after_of_writes_sub hostOps2 _ hostOps2_writes (by decide)).trans (W3_main_arg0 m ρ c)
theorem W1_main_arg1 : W1 m ρ c (Proc.devRef .tc main_arg1) = m ((c : Thread nD τ).loc main_arg1) :=
  (W1_arr m ρ c 1).trans (((dat0 (E0 m ρ) c).arrAt_in 1 rfl _).trans (A_eq0 (E0 m ρ) c 1))
theorem W2_main_arg1 : W2 m ρ c (Proc.devRef .tc main_arg1) = m ((c : Thread nD τ).loc main_arg1) :=
  (StableHlo.after_of_writes_sub hostOps1 _ hostOps1_writes (by decide)).trans (W1_main_arg1 m ρ c)
theorem W3_main_arg1 : W3 m ρ c (Proc.devRef .tc main_arg1) = m ((c : Thread nD τ).loc main_arg1) :=
  (W3_of_ne m ρ c main_arg1 (by decide)).trans (W2_main_arg1 m ρ c)
theorem W4_main_arg1 : W4 m ρ c (Proc.devRef .tc main_arg1) = m ((c : Thread nD τ).loc main_arg1) :=
  (StableHlo.after_of_writes_sub hostOps2 _ hostOps2_writes (by decide)).trans (W3_main_arg1 m ρ c)
theorem W1_main_arg2 : W1 m ρ c (Proc.devRef .tc main_arg2) = m ((c : Thread nD τ).loc main_arg2) :=
  W1_of_ne m ρ c main_arg2 (by decide)
theorem W2_main_arg2 : W2 m ρ c (Proc.devRef .tc main_arg2) = m ((c : Thread nD τ).loc main_arg2) :=
  (StableHlo.after_of_writes_sub hostOps1 _ hostOps1_writes (by decide)).trans (W1_main_arg2 m ρ c)
theorem W3_main_arg2 : W3 m ρ c (Proc.devRef .tc main_arg2) = m ((c : Thread nD τ).loc main_arg2) :=
  ((W3_arr m ρ c 1).trans (((dat1 (E1 m ρ) c).arrAt_in 1 rfl _).trans (A_eq1 (E1 m ρ) c 1))).trans (W2_main_arg2 m ρ c)
theorem W4_main_arg2 : W4 m ρ c (Proc.devRef .tc main_arg2) = m ((c : Thread nD τ).loc main_arg2) :=
  (StableHlo.after_of_writes_sub hostOps2 _ hostOps2_writes (by decide)).trans (W3_main_arg2 m ρ c)
theorem W1_main_arg3 : W1 m ρ c (Proc.devRef .tc main_arg3) = m ((c : Thread nD τ).loc main_arg3) :=
  W1_of_ne m ρ c main_arg3 (by decide)
theorem W2_main_arg3 : W2 m ρ c (Proc.devRef .tc main_arg3) = m ((c : Thread nD τ).loc main_arg3) :=
  (StableHlo.after_of_writes_sub hostOps1 _ hostOps1_writes (by decide)).trans (W1_main_arg3 m ρ c)
theorem W3_main_arg3 : W3 m ρ c (Proc.devRef .tc main_arg3) = m ((c : Thread nD τ).loc main_arg3) :=
  (W3_of_ne m ρ c main_arg3 (by decide)).trans (W2_main_arg3 m ρ c)
theorem W4_main_arg3 : W4 m ρ c (Proc.devRef .tc main_arg3) = m ((c : Thread nD τ).loc main_arg3) :=
  (StableHlo.after_of_writes_sub hostOps2 _ hostOps2_writes (by decide)).trans (W3_main_arg3 m ρ c)
theorem W1_main_arg4 : W1 m ρ c (Proc.devRef .tc main_arg4) = m ((c : Thread nD τ).loc main_arg4) :=
  W1_of_ne m ρ c main_arg4 (by decide)
theorem W2_main_arg4 : W2 m ρ c (Proc.devRef .tc main_arg4) = m ((c : Thread nD τ).loc main_arg4) :=
  (StableHlo.after_of_writes_sub hostOps1 _ hostOps1_writes (by decide)).trans (W1_main_arg4 m ρ c)
theorem W3_main_arg4 : W3 m ρ c (Proc.devRef .tc main_arg4) = m ((c : Thread nD τ).loc main_arg4) :=
  (W3_of_ne m ρ c main_arg4 (by decide)).trans (W2_main_arg4 m ρ c)
theorem W4_main_arg4 : W4 m ρ c (Proc.devRef .tc main_arg4) = m ((c : Thread nD τ).loc main_arg4) :=
  (StableHlo.after_of_writes_sub hostOps2 _ hostOps2_writes (by decide)).trans (W3_main_arg4 m ρ c)
theorem W1_main_arg5 : W1 m ρ c (Proc.devRef .tc main_arg5) = m ((c : Thread nD τ).loc main_arg5) :=
  W1_of_ne m ρ c main_arg5 (by decide)
theorem W2_main_arg5 : W2 m ρ c (Proc.devRef .tc main_arg5) = m ((c : Thread nD τ).loc main_arg5) :=
  (StableHlo.after_of_writes_sub hostOps1 _ hostOps1_writes (by decide)).trans (W1_main_arg5 m ρ c)
theorem W3_main_arg5 : W3 m ρ c (Proc.devRef .tc main_arg5) = m ((c : Thread nD τ).loc main_arg5) :=
  (W3_of_ne m ρ c main_arg5 (by decide)).trans (W2_main_arg5 m ρ c)
theorem W4_main_arg5 : W4 m ρ c (Proc.devRef .tc main_arg5) = m ((c : Thread nD τ).loc main_arg5) :=
  (StableHlo.after_of_writes_sub hostOps2 _ hostOps2_writes (by decide)).trans (W3_main_arg5 m ρ c)
theorem W1_main_arg6 : W1 m ρ c (Proc.devRef .tc main_arg6) = m ((c : Thread nD τ).loc main_arg6) :=
  W1_of_ne m ρ c main_arg6 (by decide)
theorem W2_main_arg6 : W2 m ρ c (Proc.devRef .tc main_arg6) = m ((c : Thread nD τ).loc main_arg6) :=
  (StableHlo.after_of_writes_sub hostOps1 _ hostOps1_writes (by decide)).trans (W1_main_arg6 m ρ c)
theorem W3_main_arg6 : W3 m ρ c (Proc.devRef .tc main_arg6) = m ((c : Thread nD τ).loc main_arg6) :=
  (W3_of_ne m ρ c main_arg6 (by decide)).trans (W2_main_arg6 m ρ c)
theorem W4_main_arg6 : W4 m ρ c (Proc.devRef .tc main_arg6) = m ((c : Thread nD τ).loc main_arg6) :=
  (StableHlo.after_of_writes_sub hostOps2 _ hostOps2_writes (by decide)).trans (W3_main_arg6 m ρ c)

/-! ## The stretches -/

/-- After the first stretch the second region's left operand is the first aggregation of what the first region left. -/
theorem W2_v11 : W2 m ρ c (Proc.devRef .tc main_v11)
    = agg128 (W1 m ρ c (Proc.devRef .tc main_v0)) (W1 m ρ c (Proc.devRef .tc main_arg4)) (W1 m ρ c (Proc.devRef .tc main_arg5)) := by
  show StableHlo.after hostOps1 (W1 m ρ c) (Proc.devRef .tc main_v11) = _
  generalize W1 m ρ c = Y
  after_results
  rfl

/-- After the second stretch the third region's left operand is the selected rows of the second aggregation. -/
theorem W4_v30 : W4 m ρ c (Proc.devRef .tc main_v30)
    = rowsOf (agg64 (W3 m ρ c (Proc.devRef .tc main_v12)) (W3 m ρ c (Proc.devRef .tc main_arg4)) (W3 m ρ c (Proc.devRef .tc main_arg5)))
        (W3 m ρ c (Proc.devRef .tc main_arg6)) := by
  show StableHlo.after hostOps2 (W3 m ρ c) (Proc.devRef .tc main_v30) = _
  generalize W3 m ρ c = Y
  after_results_simp
  rfl

/-- and its right operand the selected block of the distance matrix. -/
theorem W4_v44 : W4 m ρ c (Proc.devRef .tc main_v44)
    = subMat (W3 m ρ c (Proc.devRef .tc main_arg3)) (W3 m ρ c (Proc.devRef .tc main_arg6)) := by
  show StableHlo.after hostOps2 (W3 m ρ c) (Proc.devRef .tc main_v44) = _
  generalize W3 m ρ c = Y
  after_results_simp
  rfl

/-- The result is the third region's [1, 1] output recast as a scalar. -/
theorem W6_v46 : W6 m ρ c (Proc.devRef .tc main_v46)
    = shapeCast S_ (W5 m ρ c (Proc.devRef .tc main_v45)) shapeCasts_S1x1_S_ := by
  show StableHlo.after hostOps3 (W5 m ρ c) (Proc.devRef .tc main_v46) = _
  generalize W5 m ρ c = Y
  after_results
  rfl

end Cert.KernelIdeal.HandValue

end
-- ==== Proof.Spec.lean ====
/-
  The pure functions the two programs share, on extended reals, index by index.
-/
import Idealize.ShloMosaic.PureOps.Ideal
import Idealize.ShloMosaic.Lib.ValueIdx

noncomputable section

namespace Cert.Spec

open Idealize.ShloMosaic Idealize.ShloMosaic.ValueIdx

/-- The positive part of the product of `A` with the transpose of `B`: at (p, q) it is
    max (∑ₖ A (p, k) · B (q, k)) 0. -/
def reluRowsDot {a K b : Nat} (A : (⟨2, ![a, K]⟩ : Shape).Idx → EReal) (B : (⟨2, ![b, K]⟩ : Shape).Idx → EReal) :
    (⟨2, ![a, b]⟩ : Shape).Idx → EReal :=
  fun j => max (∑ k : Fin K, A (ix2 (j 0) k) * B (ix2 (j 1) k)) 0

theorem reluRowsDot_apply {a K b : Nat} (A : (⟨2, ![a, K]⟩ : Shape).Idx → EReal) (B : (⟨2, ![b, K]⟩ : Shape).Idx → EReal)
    (p : Fin a) (q : Fin b) :
    reluRowsDot A B (ix2 p q) = max (∑ k : Fin K, A (ix2 p k) * B (ix2 q k)) 0 := rfl

/-- The sum over all pairs (p, q) of |∑ₖ R (p, k) · R (q, k) − D (p, q)|, the absolute value of an extended real `x`
    being max x (−x). -/
def pairLoss {n K : Nat} (R : (⟨2, ![n, K]⟩ : Shape).Idx → EReal) (D : (⟨2, ![n, n]⟩ : Shape).Idx → EReal) : EReal :=
  ∑ j : (⟨2, ![n, n]⟩ : Shape).Idx,
    max ((∑ k : Fin K, R (ix2 (j 0) k) * R (ix2 (j 1) k)) - D j) (-((∑ k : Fin K, R (ix2 (j 0) k) * R (ix2 (j 1) k)) - D j))

end Cert.Spec

end
-- ==== Proof.LibRowsDot.lean ====
/-
  Two matrices contracted along their rows' common axis, read at an index, at the ideal instance.

  For a rank-2 contraction [a, K] · [b, K] → [a, b] (the left operand's axis 1 against the right operand's axis 1, no
  batch axis: the product of the left matrix with the transpose of the right), the accumulate-into-zero matrix product
  and the host's dot_general are both, at the result index (p, q), the sum over k < K of lhs (p, k) · rhs (q, k): the
  contracted shape has one axis of extent K, so the sum over its indices is a sum over Fin K, and the operand indices
  the contraction names at (p, q) and k are (p, k) and (q, k). The operands may be of any float formats (on extended
  reals a change of format is the identity). The four coordinate facts about a given dimension record (hl0, hl1, hr0,
  hr1) are taken as hypotheses: for a literal record each is a computation.
-/
import Idealize.ShloMosaic.PureOps.Ideal.Laws
import Idealize.ShloMosaic.Lib.ValueIdx

noncomputable section

namespace Cert.Lib.RowsDot

open Idealize.ShloMosaic Idealize.ShloMosaic.ValueIdx

variable {a K b : Nat} (D : DotDims (⟨2, ![a, K]⟩ : Shape) (⟨2, ![b, K]⟩ : Shape) (⟨2, ![a, b]⟩ : Shape))
  (hr : D.contr.rank = 1) (hs : D.contr.size ⟨0, by omega⟩ = K)
  (hl0 : ∀ (i : (⟨2, ![a, b]⟩ : Shape).Idx) (q : D.contr.Idx), (D.lhsIdx i q 0).val = (i 0).val)
  (hl1 : ∀ (i : (⟨2, ![a, b]⟩ : Shape).Idx) (q : D.contr.Idx), (D.lhsIdx i q 1).val = (q ⟨0, by omega⟩).val)
  (hr0 : ∀ (i : (⟨2, ![a, b]⟩ : Shape).Idx) (q : D.contr.Idx), (D.rhsIdx i q 0).val = (i 1).val)
  (hr1 : ∀ (i : (⟨2, ![a, b]⟩ : Shape).Idx) (q : D.contr.Idx), (D.rhsIdx i q 1).val = (q ⟨0, by omega⟩).val)

include hr hs hl0 hl1 hr0 hr1

/-- The sum over the contracted shape's indices of the products of the operands at the contraction's indices is the
    sum over k < K of lhs (p, k) · rhs (q, k). -/
theorem sum_contr (lhs : (⟨2, ![a, K]⟩ : Shape).Idx → EReal) (rhs : (⟨2, ![b, K]⟩ : Shape).Idx → EReal) (p : Fin a) (q : Fin b) :
    ∑ k : D.contr.Idx, lhs (D.lhsIdx (ix2 p q) k) * rhs (D.rhsIdx (ix2 p q) k) = ∑ k : Fin K, lhs (ix2 p k) * rhs (ix2 q k) := by
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun ax => Fin.ext (by
    match ax with
    | ⟨0, _⟩ => exact hl0 _ _
    | ⟨1, _⟩ => exact (hl1 _ _).trans hk)
  have er : D.rhsIdx (ix2 p q) ((contrEquiv1 D K hr hs).symm k) = ix2 q k := funext fun ax => Fin.ext (by
    match ax with
    | ⟨0, _⟩ => exact hr0 _ _
    | ⟨1, _⟩ => exact (hr1 _ _).trans hk)
  rw [el, er]

/-- The matrix product accumulated into the zero splat, at (p, q), for operands of any float formats. -/
theorem matmul_zero_apply {φ₁ φ₂ : FTy} (prec : Option ContractPrecision) (lhs : FVec Ideal (⟨2, ![a, K]⟩ : Shape) φ₁)
    (rhs : FVec Ideal (⟨2, ![b, K]⟩ : Shape) φ₂) (p : Fin a) (q : Fin b) :
    matmul D prec lhs rhs (constant (⟨2, ![a, b]⟩ : Shape) .f32 0x00000000#32) (ix2 p q) = ∑ k : Fin K, lhs (ix2 p k) * rhs (ix2 q k) :=
  (Ideal.matmul_constant_zero_apply D prec lhs rhs (ix2 p q)).trans
    (sum_contr D hr hs hl0 hl1 hr0 hr1 (fun i => lhs i) (fun i => rhs i) p q)

/-- The host's dot_general, at (p, q), for operands of any float formats. -/
theorem dotGeneral_apply {φ₁ φ₂ : FTy} (prec : Option ContractPrecision) (lhs : FVec Ideal (⟨2, ![a, K]⟩ : Shape) φ₁)
    (rhs : FVec Ideal (⟨2, ![b, K]⟩ : Shape) φ₂) (p : Fin a) (q : Fin b) :
    Host.dotGeneral D prec lhs rhs (ix2 p q) = ∑ k : Fin K, lhs (ix2 p k) * rhs (ix2 q k) :=
  (Ideal.dotGeneral_apply D prec .single lhs rhs (ix2 p q)).trans
    (sum_contr D hr hs hl0 hl1 hr0 hr1 (fun i => lhs i) (fun i => rhs i) p q)

end Cert.Lib.RowsDot

end
-- ==== Proof.ValueLib.lean ====
/-
  General facts used to read the matrix-product regions' values: a matrix of extended reals extended by zero to all
  pairs of naturals, the positive part of a product with a transpose over such extensions, and a sum over m·n
  consecutive naturals split into m runs of n.
-/
import proofs.«111818_j30855045054720_1_alg».proof.Proof.Spec
import Idealize.ShloMosaic.Lib.ValueIdx
import Idealize.ShloMosaic.PureOps.Ideal.Laws

noncomputable section

namespace Cert.KernelIdeal.HandValue

open Idealize.ShloMosaic Idealize.ShloMosaic.ValueIdx

/-! ## A matrix on all pairs of naturals -/

/-- A matrix of extended reals extended by zero outside its index range. -/
def nat2 {a b : Nat} (A : (⟨2, ![a, b]⟩ : Shape).Idx → EReal) (r s : Nat) : EReal :=
  if h : r < a ∧ s < b then A (ix2 ⟨r, h.1⟩ ⟨s, h.2⟩) else 0

theorem nat2_ix2 {a b : Nat} (A : (⟨2, ![a, b]⟩ : Shape).Idx → EReal) (p : Fin a) (q : Fin b) :
    nat2 A p.val q.val = A (ix2 p q) := by
  unfold nat2
  rw [dif_pos ⟨p.isLt, q.isLt⟩]

/-- An entry named by the values of its index's coordinates. -/
theorem eq_nat2 {a b : Nat} (A : (⟨2, ![a, b]⟩ : Shape).Idx → EReal) (j : (⟨2, ![a, b]⟩ : Shape).Idx) (r s : Nat)
    (h0 : (j 0).val = r) (h1 : (j 1).val = s) : A j = nat2 A r s := by
  subst h0 h1
  have e : j = ix2 ⟨(j 0).val, idx2_lt0 j⟩ ⟨(j 1).val, idx2_lt1 j⟩ := eq_ix2 j
  rw [nat2_ix2 A ⟨(j 0).val, idx2_lt0 j⟩ ⟨(j 1).val, idx2_lt1 j⟩, ← e]

/-- The positive part of the product with the transpose, at an index named by the values of its coordinates, over
    the matrices extended to all pairs of naturals. -/
theorem reluRowsDot_nat {a K b : Nat} (A : (⟨2, ![a, K]⟩ : Shape).Idx → EReal) (B : (⟨2, ![b, K]⟩ : Shape).Idx → EReal)
    (j : (⟨2, ![a, b]⟩ : Shape).Idx) (r s : Nat) (h0 : (j 0).val = r) (h1 : (j 1).val = s) :
    Cert.Spec.reluRowsDot A B j = max (∑ k ∈ Finset.range K, nat2 A r k * nat2 B s k) 0 := by
  subst h0 h1
  rw [Finset.sum_range]
  show max (∑ k : Fin K, A (ix2 (j 0) k) * B (ix2 (j 1) k)) 0 = _
  refine congrArg (fun z => max z 0) (Finset.sum_congr rfl fun k _ => ?_)
  exact congrArg₂ (fun x y => x * y) (nat2_ix2 A (j 0) k).symm (nat2_ix2 B (j 1) k).symm

/-! ## A sum over m·n consecutive naturals, run by run -/

/-- The sum over the first m·n naturals is the sum over m runs of n. -/
theorem sum_range_blocks {β : Type*} [AddCommMonoid β] (g : Nat → β) (n : Nat) :
    ∀ m : Nat, ∑ s ∈ Finset.range m, ∑ k ∈ Finset.range n, g (n * s + k) = ∑ k ∈ Finset.range (m * n), g k
  | 0 => by rw [Nat.zero_mul, Finset.sum_range_zero, Finset.sum_range_zero]
  | m + 1 => by
    rw [Finset.sum_range_succ, sum_range_blocks g n m, Nat.succ_mul, Finset.sum_range_add, Nat.mul_comm n m]

end Cert.KernelIdeal.HandValue

end
-- ==== Proof.Value0Pay.lean ====
/-
  The three values the first matrix-product region's body stores, read at an index at the ideal instance: the reset
  value is zero, a step adds to the accumulator the product of the two loaded blocks contracted along their rows'
  common axis, and the stored result is the positive part of the accumulator.
-/
import proofs.«111818_j30855045054720_1_alg».proof.Proof.Body0
import proofs.«111818_j30855045054720_1_alg».proof.Proof.Spec
import proofs.«111818_j30855045054720_1_alg».proof.Proof.LibRowsDot
import proofs.«111818_j30855045054720_1_alg».proof.Proof.ValueLib
import Idealize.ShloMosaic.Lib.Pipeline.Value
import Idealize.ShloMosaic.Lib.ValueIdx
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx

/-! ## The contraction's index facts -/

/-- The dimension record of the block product: [1024, 1024] · [128, 1024] contracted on axis 1 of both. -/
abbrev D0 : DotDims S1024x1024 S128x1024 S1024x128 := dot_S1024x1024_S128x1024_S1024x128_1_1_0_0_n_n

theorem D0_rank : D0.contr.rank = 1 := rfl
theorem D0_size : D0.contr.size ⟨0, by rw [D0_rank]; omega⟩ = 1024 := rfl
theorem D0_l0 (i : S1024x128.Idx) (q : D0.contr.Idx) : (D0.lhsIdx i q 0).val = (i 0).val := by
  simp [DotDims.lhsIdx, D0, dot_S1024x1024_S128x1024_S1024x128_1_1_0_0_n_n]; rfl
theorem D0_l1 (i : S1024x128.Idx) (q : D0.contr.Idx) : (D0.lhsIdx i q 1).val = (q ⟨0, by rw [D0_rank]; omega⟩).val := by
  simp [DotDims.lhsIdx, D0, dot_S1024x1024_S128x1024_S1024x128_1_1_0_0_n_n]; rfl
theorem D0_r0 (i : S1024x128.Idx) (q : D0.contr.Idx) : (D0.rhsIdx i q 0).val = (i 1).val := by
  simp [DotDims.rhsIdx, D0, dot_S1024x1024_S128x1024_S1024x128_1_1_0_0_n_n]; rfl
theorem D0_r1 (i : S1024x128.Idx) (q : D0.contr.Idx) : (D0.rhsIdx i q 1).val = (q ⟨0, by rw [D0_rank]; omega⟩).val := by
  simp [DotDims.rhsIdx, D0, dot_S1024x1024_S128x1024_S1024x128_1_1_0_0_n_n]; rfl

/-! ## The stored values at an index -/

/-- The reset value is zero everywhere. -/
theorem pay1_apply (p : Fin 1024) (q : Fin 128) : (k0_pay1 (F := Ideal)) (ix2 p q) = 0 := by
  unfold k0_pay1
  exact Ideal.ofBits_zero_f32

/-- A step leaves, at (p, q), the accumulator there plus ∑ₖ x₀ (p, k) · x₁ (q, k): the change of format is the
    identity on extended reals and the product into the zero splat is the contraction's sum. -/
theorem pay2_apply (x0 : Vec Ideal S1024x1024 .f32) (x1 : Vec Ideal S128x1024 .f32) (a : Vec Ideal S1024x128 .f32)
    (p : Fin 1024) (q : Fin 128) :
    k0_pay2 x0 x1 a (ix2 p q) = a (ix2 p q) + ∑ k : Fin 1024, x0 (ix2 p k) * x1 (ix2 q k) := by
  unfold k0_pay2
  refine (congrFun (shapeCast_self _ _) (ix2 p q)).trans ?_
  refine (addf_apply _ _ _).trans ?_
  refine congrArg (fun z => a (ix2 p q) + z) ?_
  exact Cert.Lib.RowsDot.matmul_zero_apply (a := 1024) (K := 1024) (b := 128) D0 D0_rank D0_size D0_l0 D0_l1 D0_r0 D0_r1 none
    (truncf .bf16 x0 bitsLt_bf16_f32) (truncf .bf16 x1 bitsLt_bf16_f32) p q

/-- The stored result is the positive part of the accumulator. -/
theorem pay3_apply (a : Vec Ideal S1024x128 .f32) (p : Fin 1024) (q : Fin 128) :
    k0_pay3 a (ix2 p q) = max (a (ix2 p q)) 0 := by
  unfold k0_pay3
  show max (a (ix2 p q)) (Ideal.ofBits .f32 0x00000000#32) = _
  rw [Ideal.ofBits_zero_f32]

end Cert.KernelIdeal.HandValue

end
-- ==== Proof.Value0Acc.lean ====
/-
  The first matrix-product region's accumulator after each point, at an index: the sum of the block products of the
  column blocks of the point's row block seen so far.
-/
import proofs.«111818_j30855045054720_1_alg».proof.Proof.Value0Pay

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx

variable (V : (c : Dev nD) → (b : Ref sig .tc) → Buf (Elt Ideal) ((c : Thread nD τ).loc b))

/-- The block indices at a point, decided over the grid: the left operand's block is (t / 8, t % 8), the right
    operand's (0, t % 8), the result's (t / 8, 0). -/
theorem idx_facts0 : ∀ t : Fin cfg0.N, win0_0.index t (0 : Fin 2) = t.val / 8 ∧ win0_0.index t (1 : Fin 2) = t.val % 8
    ∧ win0_1.index t (0 : Fin 2) = 0 ∧ win0_1.index t (1 : Fin 2) = t.val % 8
    ∧ win0_2.index t (0 : Fin 2) = t.val / 8 ∧ win0_2.index t (1 : Fin 2) = 0 :=
  (by decide +kernel : ∀ t : Fin grid0.N, _)

set_option maxHeartbeats 400000 in
/-- The left operand's block at point t, at (p, k), is the array at (1024·(t / 8) + p, 1024·(t % 8) + k). -/
theorem iblk0_0_apply (c : Dev nD) (t : Fin cfg0.N) (p k : Fin 1024) :
    (iblk0 V c 0 t : Vec Ideal S1024x1024 .f32) (ix2 p k)
      = nat2 (V c main_arg0) (1024 * (t.val / 8) + p.val) (1024 * (t.val % 8) + k.val) := by
  obtain ⟨e0, e1, -, -, -, -⟩ := idx_facts0 t
  unfold iblk0
  rw [View.read_apply]
  refine eq_nat2 (V c main_arg0) (((cfg0.win 0).blk t).view.emb (ix2 p k)) _ _ ?_ ?_
  · show win0_0.index t (0 : Fin 2) * 1024 + 1 * p.val = _
    rw [e0]; omega
  · show win0_0.index t (1 : Fin 2) * 1024 + 1 * k.val = _
    rw [e1]; omega

set_option maxHeartbeats 400000 in
/-- The right operand's block at point t, at (q, k), is the array at (q, 1024·(t % 8) + k). -/
theorem iblk0_1_apply (c : Dev nD) (t : Fin cfg0.N) (q : Fin 128) (k : Fin 1024) :
    (iblk0 V c 1 t : Vec Ideal S128x1024 .f32) (ix2 q k)
      = nat2 (V c main_arg1) q.val (1024 * (t.val % 8) + k.val) := by
  obtain ⟨-, -, e0, e1, -, -⟩ := idx_facts0 t
  unfold iblk0
  rw [View.read_apply]
  refine eq_nat2 (V c main_arg1) (((cfg0.win 1).blk t).view.emb (ix2 q k)) _ _ ?_ ?_
  · show win0_1.index t (0 : Fin 2) * 128 + 1 * q.val = _
    rw [e0]; omega
  · show win0_1.index t (1 : Fin 2) * 1024 + 1 * k.val = _
    rw [e1]; omega

/-- The product of row block i with column block s, at (p, q): ∑ₖ X (1024·i + p, 1024·s + k) · W (q, 1024·s + k). -/
def blockDot (c : Dev nD) (i s : Nat) (p : Fin 1024) (q : Fin 128) : EReal :=
  ∑ k ∈ Finset.range 1024, nat2 (V c main_arg0) (1024 * i + p.val) (1024 * s + k) * nat2 (V c main_arg1) q.val (1024 * s + k)

/-- Two loaded blocks contracted along their rows' common axis, at (p, q). -/
def rowsDotAt (x0 : Vec Ideal S1024x1024 .f32) (x1 : Vec Ideal S128x1024 .f32) (p : Fin 1024) (q : Fin 128) : EReal :=
  ∑ k : Fin 1024, x0 (ix2 p k) * x1 (ix2 q k)

/-- A step leaves, at (p, q), the accumulator there plus the contraction of the two loaded blocks. -/
theorem pay2_rowsDotAt (x0 : Vec Ideal S1024x1024 .f32) (x1 : Vec Ideal S128x1024 .f32) (a : Vec Ideal S1024x128 .f32)
    (p : Fin 1024) (q : Fin 128) : k0_pay2 x0 x1 a (ix2 p q) = a (ix2 p q) + rowsDotAt x0 x1 p q :=
  pay2_apply x0 x1 a p q

/-- What a point adds to the accumulator is the product of its row block with its column block. -/
theorem point_dot (c : Dev nD) (t : Fin cfg0.N) (p : Fin 1024) (q : Fin 128) :
    rowsDotAt (iblk0 V c 0 t) (iblk0 V c 1 t) p q = blockDot V c (t.val / 8) (t.val % 8) p q := by
  unfold blockDot rowsDotAt
  rw [Finset.sum_range]
  refine Finset.sum_congr rfl fun k _ => ?_
  exact congrArg₂ (fun x y : EReal => x * y) (iblk0_0_apply V c t p k) (iblk0_1_apply V c t q k)

/-- The accumulator after point n, at (p, q): the products of the row block n / 8 with the column blocks 0 … n % 8. -/
theorem acc0_apply (c : Dev nD) : ∀ (n : Nat) (hn : n < cfg0.N) (p : Fin 1024) (q : Fin 128),
    acc0 V c n hn (ix2 p q) = ∑ s ∈ Finset.range (n % 8 + 1), blockDot V c (n / 8) s p q
  | 0, hn, p, q => by
    show k0_pay2 (iblk0 V c 0 ⟨0, hn⟩) (iblk0 V c 1 ⟨0, hn⟩) (k0_pay1 (F := Ideal)) (ix2 p q) = _
    refine (pay2_rowsDotAt _ _ _ p q).trans ?_
    rw [pay1_apply, zero_add, point_dot V c ⟨0, hn⟩ p q]
    show blockDot V c (0 / 8) (0 % 8) p q = ∑ s ∈ Finset.range (0 % 8 + 1), blockDot V c (0 / 8) s p q
    rw [show 0 % 8 + 1 = 1 from rfl, Finset.sum_range_one]
  | n + 1, hn, p, q => by
    show k0_pay2 (iblk0 V c 0 ⟨n + 1, hn⟩) (iblk0 V c 1 ⟨n + 1, hn⟩)
      (if (n + 1) % 8 = 0 then (k0_pay1 (F := Ideal)) else acc0 V c n (Nat.lt_of_succ_lt hn)) (ix2 p q) = _
    refine (pay2_rowsDotAt _ _ _ p q).trans ?_
    rw [point_dot V c ⟨n + 1, hn⟩ p q]
    show _ + blockDot V c ((n + 1) / 8) ((n + 1) % 8) p q = _
    by_cases h : (n + 1) % 8 = 0
    · rw [if_pos h, pay1_apply, zero_add, h, Finset.sum_range_one]
    · rw [if_neg h, acc0_apply c n (Nat.lt_of_succ_lt hn) p q]
      have hd : (n + 1) / 8 = n / 8 := by omega
      have hm : (n + 1) % 8 = n % 8 + 1 := by omega
      rw [hd, hm, Finset.sum_range_succ _ (n % 8 + 1)]

end Cert.KernelIdeal.HandValue

end
-- ==== Proof.Value0.lean ====
/-
  After the first matrix-product region its result array is the positive part of the product of the first operand
  with the transpose of the second: each row block is written back once, after its last column block, holding the
  positive part of the sum of the eight block products, which is the sum over the whole contracted axis.
-/
import proofs.«111818_j30855045054720_1_alg».proof.Proof.Value0Acc

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The eight block products of a row block add up to the sum over the whole contracted axis. -/
theorem sum_blockDot (c : Dev nD) (i : Nat) (p : Fin 1024) (q : Fin 128) :
    ∑ s ∈ Finset.range 8, blockDot V c i s p q
      = ∑ k ∈ Finset.range 8192, nat2 (V c main_arg0) (1024 * i + p.val) k * nat2 (V c main_arg1) q.val k := by
  unfold blockDot
  exact sum_range_blocks (fun k => nat2 (V c main_arg0) (1024 * i + p.val) k * nat2 (V c main_arg1) q.val k) 1024 8

set_option maxHeartbeats 400000 in
/-- What a point that writes back writes is its block of the positive part of the product. -/
theorem flushed_eq0 (c : Dev nD) (t : Fin cfg0.N) (hf : (cfg0.win 2).flush t = true) :
    (dat0 V c).flushed 2 t
      = ((cfg0.win 2).blk t).view.read (Elt Ideal) (Cert.Spec.reluRowsDot (V c main_arg0) (V c main_arg1)) := by
  have h7 : t.val % 8 = 7 := (flush0_2 t).mp hf
  obtain ⟨-, -, -, -, e0, e1⟩ := idx_facts0 t
  show (cfg0.win 2).cut (grid0.coords t) ((dat0 V c).after 2 t) = _
  rw [after0_2]
  funext j
  obtain ⟨p, q, rfl⟩ : ∃ (p : Fin 1024) (q : Fin 128), j = ix2 p q := ⟨j 0, j 1, eq_ix2 j⟩
  show k0_pay3 (acc0 V c t.val t.isLt) (ix2 p q) = _
  refine (pay3_apply _ p q).trans ?_
  rw [acc0_apply V c t.val t.isLt p q, h7, sum_blockDot V c (t.val / 8) p q, View.read_apply]
  refine (reluRowsDot_nat (V c main_arg0) (V c main_arg1) (((cfg0.win 2).blk t).view.emb (ix2 p q)) _ _ ?_ ?_).symm
  · show win0_2.index t (0 : Fin 2) * 1024 + 1 * p.val = _
    rw [e0]; omega
  · show win0_2.index t (1 : Fin 2) * 128 + 1 * q.val = _
    rw [e1]; omega

set_option maxHeartbeats 400000 in
/-- Every index of the result array is in the block of the point that writes its row block back. -/
theorem cover0 (i : S8192x128.Idx) : ∃ t : Fin cfg0.N, (cfg0.win 2).flush t = true ∧ i ∈ ((cfg0.win 2).blk t).view.set := by
  have hN : grid0.N = 64 := N_0
  have hi0 : (i 0).val < 8192 := idx2_lt0 i
  have hi1 : (i 1).val < 128 := idx2_lt1 i
  let t : Fin cfg0.N := ⟨8 * ((i 0).val / 1024) + 7, by show _ < grid0.N; omega⟩
  have ht : t.val = 8 * ((i 0).val / 1024) + 7 := rfl
  obtain ⟨-, -, -, -, e0, e1⟩ := idx_facts0 t
  refine ⟨t, (flush0_2 t).mpr (by omega), ?_⟩
  show i ∈ ((View.whole main_v0).slice (win0_2.rect t)).set
  rw [View.set_slice_whole, Rect.mem_set_unit]
  intro a
  match a with
  | ⟨0, _⟩ =>
    show win0_2.index t (0 : Fin 2) * 1024 ≤ (i 0).val ∧ (i 0).val < win0_2.index t (0 : Fin 2) * 1024 + 1024
    rw [e0]; omega
  | ⟨1, _⟩ =>
    show win0_2.index t (1 : Fin 2) * 128 ≤ (i 1).val ∧ (i 1).val < win0_2.index t (1 : Fin 2) * 128 + 128
    rw [e1]; omega

/-- After the region the result array is the positive part of the product of the first operand with the transpose
    of the second. -/
theorem final0 (c : Dev nD) :
    (dat0 (F := Ideal) V c).arrAt 2 cfg0.N = Cert.Spec.reluRowsDot (V c main_arg0) (V c main_arg1) :=
  (dat0 V c).arrAt_eq_of_cover 2 (Cert.Spec.reluRowsDot (V c main_arg0) (V c main_arg1)) (flushed_eq0 V c) cover0

end Cert.KernelIdeal.HandValue

end
-- ==== Proof.Value1.lean ====
/-
  After the second matrix-product region its result array is the positive part of the product of the first operand
  with the transpose of the second: every point holds a whole row block's contraction, resets the accumulator to
  zero, adds the block product and writes the positive part back as the row block of the result.
-/
import proofs.«111818_j30855045054720_1_alg».proof.Proof.Body1
import proofs.«111818_j30855045054720_1_alg».proof.Proof.Spec
import proofs.«111818_j30855045054720_1_alg».proof.Proof.LibRowsDot
import proofs.«111818_j30855045054720_1_alg».proof.Proof.ValueLib
import Idealize.ShloMosaic.Lib.Pipeline.Value
import Idealize.ShloMosaic.Lib.ValueIdx
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

/-! ## The contraction's index facts -/

/-- The dimension record of the block product: [2048, 128] · [64, 128] contracted on axis 1 of both. -/
abbrev D1 : DotDims S2048x128 S64x128 S2048x64 := dot_S2048x128_S64x128_S2048x64_1_1_0_0_n_n

theorem D1_rank : D1.contr.rank = 1 := rfl
theorem D1_size : D1.contr.size ⟨0, by rw [D1_rank]; omega⟩ = 128 := rfl
theorem D1_l0 (i : S2048x64.Idx) (q : D1.contr.Idx) : (D1.lhsIdx i q 0).val = (i 0).val := by
  simp [DotDims.lhsIdx, D1, dot_S2048x128_S64x128_S2048x64_1_1_0_0_n_n]; rfl
theorem D1_l1 (i : S2048x64.Idx) (q : D1.contr.Idx) : (D1.lhsIdx i q 1).val = (q ⟨0, by rw [D1_rank]; omega⟩).val := by
  simp [DotDims.lhsIdx, D1, dot_S2048x128_S64x128_S2048x64_1_1_0_0_n_n]; rfl
theorem D1_r0 (i : S2048x64.Idx) (q : D1.contr.Idx) : (D1.rhsIdx i q 0).val = (i 1).val := by
  simp [DotDims.rhsIdx, D1, dot_S2048x128_S64x128_S2048x64_1_1_0_0_n_n]; rfl
theorem D1_r1 (i : S2048x64.Idx) (q : D1.contr.Idx) : (D1.rhsIdx i q 1).val = (q ⟨0, by rw [D1_rank]; omega⟩).val := by
  simp [DotDims.rhsIdx, D1, dot_S2048x128_S64x128_S2048x64_1_1_0_0_n_n]; rfl

/-! ## The stored values at an index -/

/-- Two loaded blocks contracted along their rows' common axis, at (p, q). -/
def rowsDotAt1 (x0 : Vec Ideal S2048x128 .f32) (x1 : Vec Ideal S64x128 .f32) (p : Fin 2048) (q : Fin 64) : EReal :=
  ∑ k : Fin 128, x0 (ix2 p k) * x1 (ix2 q k)

/-- The reset value is zero everywhere. -/
theorem pay1_1_apply (p : Fin 2048) (q : Fin 64) : (k1_pay1 (F := Ideal)) (ix2 p q) = 0 := by
  unfold k1_pay1
  exact Ideal.ofBits_zero_f32

/-- A step leaves, at (p, q), the accumulator there plus ∑ₖ x₀ (p, k) · x₁ (q, k): the change of format is the
    identity on extended reals and the product into the zero splat is the contraction's sum. -/
theorem pay1_2_apply (x0 : Vec Ideal S2048x128 .f32) (x1 : Vec Ideal S64x128 .f32) (a : Vec Ideal S2048x64 .f32)
    (p : Fin 2048) (q : Fin 64) :
    k1_pay2 x0 x1 a (ix2 p q) = a (ix2 p q) + rowsDotAt1 x0 x1 p q := by
  unfold k1_pay2 rowsDotAt1
  refine (congrFun (shapeCast_self _ _) (ix2 p q)).trans ?_
  refine (addf_apply _ _ _).trans ?_
  refine congrArg (fun z => a (ix2 p q) + z) ?_
  refine (Cert.Lib.RowsDot.matmul_zero_apply (a := 2048) (K := 128) (b := 64) D1 D1_rank D1_size D1_l0 D1_l1 D1_r0 D1_r1 none
    (truncf .bf16 (shapeCast S2048x128 x0 shapeCasts_S2048x128_S2048x128) bitsLt_bf16_f32) (truncf .bf16 x1 bitsLt_bf16_f32) p q).trans ?_
  refine Finset.sum_congr rfl fun k _ => ?_
  exact congrArg (fun z : EReal => z * x1 (ix2 q k)) (congrFun (shapeCast_self x0 shapeCasts_S2048x128_S2048x128) (ix2 p k))

/-- The stored result is the positive part of the accumulator. -/
theorem pay1_3_apply (a : Vec Ideal S2048x64 .f32) (p : Fin 2048) (q : Fin 64) :
    k1_pay3 a (ix2 p q) = max (a (ix2 p q)) 0 := by
  unfold k1_pay3
  show max (a (ix2 p q)) (Ideal.ofBits .f32 0x00000000#32) = _
  rw [Ideal.ofBits_zero_f32]

/-! ## The blocks at a point -/

variable (V : (c : Dev nD) → (b : Ref sig .tc) → Buf (Elt Ideal) ((c : Thread nD τ).loc b))

/-- The block indices at a point, decided over the grid: the left operand's and the result's block is (t, 0), the
    right operand's (0, 0). -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

set_option maxHeartbeats 400000 in
/-- The left operand's block at point t, at (p, k), is the array at (2048·t + p, k). -/
theorem iblk1_0_apply (c : Dev nD) (t : Fin cfg1.N) (p : Fin 2048) (k : Fin 128) :
    (iblk1 V c 0 t : Vec Ideal S2048x128 .f32) (ix2 p k) = nat2 (V c main_v11) (2048 * t.val + p.val) k.val := by
  obtain ⟨e0, e1, -, -, -, -⟩ := idx_facts1 t
  unfold iblk1
  rw [View.read_apply]
  refine eq_nat2 (V c main_v11) (((cfg1.win 0).blk t).view.emb (ix2 p k)) _ _ ?_ ?_
  · show win1_0.index t (0 : Fin 2) * 2048 + 1 * p.val = _
    rw [e0]; omega
  · show win1_0.index t (1 : Fin 2) * 128 + 1 * k.val = _
    rw [e1]; omega

set_option maxHeartbeats 400000 in
/-- The right operand's block at any point is the whole array. -/
theorem iblk1_1_apply (c : Dev nD) (t : Fin cfg1.N) (q : Fin 64) (k : Fin 128) :
    (iblk1 V c 1 t : Vec Ideal S64x128 .f32) (ix2 q k) = nat2 (V c main_arg2) q.val k.val := by
  obtain ⟨-, -, e0, e1, -, -⟩ := idx_facts1 t
  unfold iblk1
  rw [View.read_apply]
  refine eq_nat2 (V c main_arg2) (((cfg1.win 1).blk t).view.emb (ix2 q k)) _ _ ?_ ?_
  · show win1_1.index t (0 : Fin 2) * 64 + 1 * q.val = _
    rw [e0]; omega
  · show win1_1.index t (1 : Fin 2) * 128 + 1 * k.val = _
    rw [e1]; omega

/-- The contraction of a point's two blocks is the sum over the whole contracted axis at the point's rows. -/
theorem point_dot1 (c : Dev nD) (t : Fin cfg1.N) (p : Fin 2048) (q : Fin 64) :
    rowsDotAt1 (iblk1 V c 0 t) (iblk1 V c 1 t) p q
      = ∑ k ∈ Finset.range 128, nat2 (V c main_v11) (2048 * t.val + p.val) k * nat2 (V c main_arg2) q.val k := by
  unfold rowsDotAt1
  rw [Finset.sum_range]
  refine Finset.sum_congr rfl fun k _ => ?_
  exact congrArg₂ (fun x y : EReal => x * y) (iblk1_0_apply V c t p k) (iblk1_1_apply V c t q k)

/-! ## From blocks to the array -/

set_option maxHeartbeats 400000 in
/-- What a point writes back is its block of the positive part of the product. -/
theorem flushed_eq1 (c : Dev nD) (t : Fin cfg1.N) (hf : (cfg1.win 2).flush t = true) :
    (dat1 V c).flushed 2 t
      = ((cfg1.win 2).blk t).view.read (Elt Ideal) (Cert.Spec.reluRowsDot (V c main_v11) (V c main_arg2)) := by
  obtain ⟨-, -, -, -, e0, e1⟩ := idx_facts1 t
  show (cfg1.win 2).cut (grid1.coords t) ((dat1 V c).after 2 t) = _
  rw [after1_2]
  funext j
  obtain ⟨p, q, rfl⟩ : ∃ (p : Fin 2048) (q : Fin 64), j = ix2 p q := ⟨j 0, j 1, eq_ix2 j⟩
  show k1_pay3 (k1_pay2 (iblk1 V c 0 t) (iblk1 V c 1 t) (k1_pay1 (F := Ideal))) (ix2 p q) = _
  refine (pay1_3_apply _ p q).trans ?_
  rw [pay1_2_apply _ _ _ p q, pay1_1_apply, zero_add, point_dot1 V c t p q, View.read_apply]
  refine (reluRowsDot_nat (V c main_v11) (V c main_arg2) (((cfg1.win 2).blk t).view.emb (ix2 p q)) _ _ ?_ ?_).symm
  · show win1_2.index t (0 : Fin 2) * 2048 + 1 * p.val = _
    rw [e0]; omega
  · show win1_2.index t (1 : Fin 2) * 64 + 1 * q.val = _
    rw [e1]; omega

set_option maxHeartbeats 400000 in
/-- Every index of the result array is in the block of the point of its row block. -/
theorem cover1 (i : S8192x64.Idx) : ∃ t : Fin cfg1.N, (cfg1.win 2).flush t = true ∧ i ∈ ((cfg1.win 2).blk t).view.set := by
  have hN : grid1.N = 4 := N_1
  have hi0 : (i 0).val < 8192 := idx2_lt0 i
  have hi1 : (i 1).val < 64 := idx2_lt1 i
  let t : Fin cfg1.N := ⟨(i 0).val / 2048, by show _ < grid1.N; omega⟩
  have ht : t.val = (i 0).val / 2048 := rfl
  obtain ⟨-, -, -, -, e0, e1⟩ := idx_facts1 t
  refine ⟨t, flush1_2 t, ?_⟩
  show i ∈ ((View.whole main_v12).slice (win1_2.rect t)).set
  rw [View.set_slice_whole, Rect.mem_set_unit]
  intro a
  match a with
  | ⟨0, _⟩ =>
    show win1_2.index t (0 : Fin 2) * 2048 ≤ (i 0).val ∧ (i 0).val < win1_2.index t (0 : Fin 2) * 2048 + 2048
    rw [e0]; omega
  | ⟨1, _⟩ =>
    show win1_2.index t (1 : Fin 2) * 64 ≤ (i 1).val ∧ (i 1).val < win1_2.index t (1 : Fin 2) * 64 + 64
    rw [e1]; omega

/-- After the region the result array is the positive part of the product of the first operand with the transpose
    of the second. -/
theorem final1 (c : Dev nD) :
    (dat1 (F := Ideal) V c).arrAt 2 cfg1.N = Cert.Spec.reluRowsDot (V c main_v11) (V c main_arg2) :=
  (dat1 V c).arrAt_eq_of_cover 2 (Cert.Spec.reluRowsDot (V c main_v11) (V c main_arg2)) (flushed_eq1 V c) cover1

end Cert.KernelIdeal.HandValue

end
-- ==== Proof.Value2.lean ====
/-
  What the third region leaves in its [1, 1] result array, on extended reals.

  The region has one point and each of its three blocks is its whole array. The point's stored value is the [1, 1]
  splat of one number: the rows' product R·Rᵀ of the [1024, 64] block R (at (p, q) the sum over k < 64 of
  R (p, k) · R (q, k)), minus the [1024, 1024] block D, in absolute value max x (−x), viewed as a [1, 1024, 1024]
  array and summed over all of its indices (a total sum, which the change of shape re-indexes by a bijection of the
  index sets), then read at the one index and splat. Since the blocks are the arrays themselves, the result array ends
  holding, at its one index, the sum over all (p, q) of |∑ₖ R (p, k) · R (q, k) − D (p, q)| of the two arrays the region
  found. No finiteness is used: only that sums over a finite index set are invariant under re-indexing.
-/
import proofs.«111818_j30855045054720_1_alg».proof.Proof.Body2
import proofs.«111818_j30855045054720_1_alg».proof.Proof.Spec
import proofs.«111818_j30855045054720_1_alg».proof.Proof.LibRowsDot
import Idealize.ShloMosaic.Lib.Pipeline.Value
import Idealize.ShloMosaic.Lib.ValueIdx
import Idealize.ShloMosaic.PureOps.Ideal.Laws

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

/-! ## The point's stored value at its index -/

/-- The product of a [1024, 64] matrix with its own transpose, accumulated into zero, at (p, q): the sum over k < 64 of
    x (p, k) · x (q, k). -/
theorem gram2_apply (x : FVec Ideal S1024x64 .bf16) (p q : Fin 1024) :
    matmul dot_S1024x64_S1024x64_S1024x1024_1_1_0_0_n_n none x x (constant S1024x1024 .f32 0x00000000#32) (ix2 p q)
      = ∑ k : Fin 64, x (ix2 p k) * x (ix2 q k) :=
  Cert.Lib.RowsDot.matmul_zero_apply (a := 1024) (K := 64) (b := 1024) dot_S1024x64_S1024x64_S1024x1024_1_1_0_0_n_n rfl rfl
    (fun _ _ => rfl) (fun _ _ => rfl) (fun _ _ => rfl) (fun _ _ => rfl) none x x p q

/-- The absolute difference of that product and a [1024, 1024] matrix at (p, q); a change of float format is the
    identity on extended reals. -/
theorem abs_diff2_apply (v0 : Vec Ideal S1024x64 .f32) (v4 : Vec Ideal S1024x1024 .f32) (p q : Fin 1024) :
    (absf (subf (matmul dot_S1024x64_S1024x64_S1024x1024_1_1_0_0_n_n none (truncf .bf16 v0 bitsLt_bf16_f32) (truncf .bf16 v0 bitsLt_bf16_f32)
        (constant S1024x1024 .f32 0x00000000#32)) v4) : FVec Ideal S1024x1024 .f32) (ix2 p q)
      = max ((∑ k : Fin 64, v0 (ix2 p k) * v0 (ix2 q k)) - v4 (ix2 p q)) (-((∑ k : Fin 64, v0 (ix2 p k) * v0 (ix2 q k)) - v4 (ix2 p q))) :=
  congrArg (fun z : EReal => max (z - v4 (ix2 p q)) (-(z - v4 (ix2 p q)))) (gram2_apply (truncf .bf16 v0 bitsLt_bf16_f32) p q)

/-- A [1024, 1024] array viewed as [1, 1024, 1024], summed over its two large axes into the one-element vector, read at
    its one index and splat to [1, 1]: at every index the sum of the array over all of its indices. The view matches the
    two index sets one to one, and a sum over a finite set does not change under such a matching. -/
theorem total_sum2 (W : FVec Ideal S1024x1024 .f32) (j : S1x1.Idx) :
    broadcast S1x1 (extractAt ![0, 0, 0] (shapeCast S1x1x1 (multiReduction .add [1, 2] S1 (shapeCast S1x1024x1024 W shapeCasts_S1024x1024_S1x1024x1024) 0x00000000#32 reduces_S1x1024x1024_S1 (.inl rfl) rfl) shapeCasts_S1_S1x1x1) inpos_S1x1x1_p0_0_0) j
      = ∑ i : S1024x1024.Idx, W i := by
  show multiReduction .add [1, 2] S1 (shapeCast S1x1024x1024 W shapeCasts_S1024x1024_S1x1024x1024) 0x00000000#32 reduces_S1x1024x1024_S1 (.inl rfl) rfl _ = _
  refine (Ideal.multiReduction_add_total (φ := .f32) _ _ reduces_S1x1024x1024_S1 (fun b => ?_) (.inl rfl) rfl _).trans ?_
  · match b with
    | ⟨0, _⟩ => rfl
  · exact Equiv.sum_comp (Shape.reshapeEquiv shapeCasts_S1024x1024_S1x1024x1024) W

/-- The stored value at its index is the loss of the two loaded blocks. -/
theorem pay2_1_apply (v0 : Vec Ideal S1024x64 .f32) (v4 : Vec Ideal S1024x1024 .f32) (j : S1x1.Idx) :
    k2_pay1 v0 v4 j = Cert.Spec.pairLoss v0 v4 := by
  unfold k2_pay1
  refine (total_sum2 _ j).trans ?_
  unfold Cert.Spec.pairLoss
  refine Finset.sum_congr rfl fun i _ => ?_
  obtain ⟨p, q, rfl⟩ : ∃ (p : Fin 1024) (q : Fin 1024), i = ix2 p q := ⟨i 0, i 1, eq_ix2 i⟩
  rw [shapeCast_self, shapeCast_self]
  exact abs_diff2_apply v0 v4 p q

/-! ## From the one block to the array -/

variable (V : (c : Dev nD) → (b : Ref sig .tc) → Buf (Elt Ideal) ((c : Thread nD τ).loc b)) (c : Dev nD)

/-- Every block index of the three windows is zero at the one point: each block starts at its array's origin. -/
theorem idx_zero2 : ∀ t : Fin cfg2.N, win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0 :=
  (by decide +kernel : ∀ t : Fin grid2.N, _)

/-- The first window's block is the whole [1024, 64] array. -/
theorem iblk2_0_eq (t : Fin cfg2.N) : iblk2 V c 0 t = V c main_v30 := by
  obtain ⟨e0, e1, -, -, -, -⟩ := idx_zero2 t
  funext y
  show V c main_v30 (((cfg2.win 0).blk t).view.emb y) = V c main_v30 y
  refine congrArg _ (funext fun a => Fin.ext ?_)
  match a with
  | ⟨0, _⟩ => show win2_0.index t (0 : Fin 2) * 1024 + 1 * (y 0).val = (y 0).val; rw [e0]; omega
  | ⟨1, _⟩ => show win2_0.index t (1 : Fin 2) * 64 + 1 * (y 1).val = (y 1).val; rw [e1]; omega

/-- The second window's block is the whole [1024, 1024] array. -/
theorem iblk2_1_eq (t : Fin cfg2.N) : iblk2 V c 1 t = V c main_v44 := by
  obtain ⟨-, -, e0, e1, -, -⟩ := idx_zero2 t
  funext y
  show V c main_v44 (((cfg2.win 1).blk t).view.emb y) = V c main_v44 y
  refine congrArg _ (funext fun a => Fin.ext ?_)
  match a with
  | ⟨0, _⟩ => show win2_1.index t (0 : Fin 2) * 1024 + 1 * (y 0).val = (y 0).val; rw [e0]; omega
  | ⟨1, _⟩ => show win2_1.index t (1 : Fin 2) * 1024 + 1 * (y 1).val = (y 1).val; rw [e1]; omega

/-- What the point writes back is the block of the constant array at the loss of the two arrays the region found. -/
theorem flushed_eq2 (t : Fin cfg2.N) :
    (dat2 (F := Ideal) V c).flushed 2 t
      = ((cfg2.win 2).blk t).view.read (Elt Ideal) (fun _ => Cert.Spec.pairLoss (V c main_v30) (V c main_v44)) := by
  show (cfg2.win 2).cut (grid2.coords t) ((dat2 (F := Ideal) V c).after 2 t) = _
  rw [after2_2]
  funext y
  show k2_pay1 (iblk2 V c 0 t) (iblk2 V c 1 t) _ = Cert.Spec.pairLoss (V c main_v30) (V c main_v44)
  refine (pay2_1_apply _ _ _).trans ?_
  rw [iblk2_0_eq, iblk2_1_eq]

/-- An index of the result array is in the point's block iff each coordinate is in the block's range on its axis. -/
theorem mem_blk2 (t : Fin cfg2.N) (i : S1x1.Idx) :
    i ∈ ((cfg2.win 2).blk t).view.set ↔ ∀ a : Fin 2, win2_2.index t a * S1x1.size a ≤ (i a).val ∧ (i a).val < win2_2.index t a * S1x1.size a + S1x1.size a := by
  show i ∈ ((View.whole main_v45).slice (win2_2.rect t)).set ↔ _
  rw [View.set_slice_whole, Rect.mem_set_unit]
  exact Iff.rfl

/-- The one point's block covers the [1, 1] array. -/
theorem cover2 (i : S1x1.Idx) : ∃ t : Fin cfg2.N, (cfg2.win 2).flush t = true ∧ i ∈ ((cfg2.win 2).blk t).view.set := by
  refine ⟨t2_0, flush2_2 t2_0, ?_⟩
  rw [mem_blk2]
  obtain ⟨-, -, -, -, e0, e1⟩ := idx_zero2 t2_0
  have h0 : (i 0).val < 1 := (i 0).isLt
  have h1 : (i 1).val < 1 := (i 1).isLt
  intro a
  match a with
  | ⟨0, _⟩ => show win2_2.index t2_0 (0 : Fin 2) * 1 ≤ (i 0).val ∧ (i 0).val < win2_2.index t2_0 (0 : Fin 2) * 1 + 1; rw [e0]; omega
  | ⟨1, _⟩ => show win2_2.index t2_0 (1 : Fin 2) * 1 ≤ (i 1).val ∧ (i 1).val < win2_2.index t2_0 (1 : Fin 2) * 1 + 1; rw [e1]; omega

/-- THE RESULT ARRAY after the region: at its one index, the sum over all (p, q) of |∑ₖ R (p, k) · R (q, k) − D (p, q)| of
    the [1024, 64] array R and the [1024, 1024] array D the region found. -/
theorem final2 : (dat2 (F := Ideal) V c).arrAt 2 cfg2.N = fun _ => Cert.Spec.pairLoss (V c main_v30) (V c main_v44) :=
  (dat2 (F := Ideal) V c).arrAt_eq_of_cover 2 (fun _ => Cert.Spec.pairLoss (V c main_v30) (V c main_v44))
    (fun t _ => flushed_eq2 V c t) cover2

end Cert.KernelIdeal.HandValue

end
-- ==== Proof.KValue.lean ====
/-
  The kernel program's result on extended reals: the three regions' output arrays are the positive parts of the two
  matrix products and the pair loss, and the host stretches between them are the named chains, so the result is one
  function of the argument arrays.
-/
import proofs.«111818_j30855045054720_1_alg».proof.Proof.KChains
import proofs.«111818_j30855045054720_1_alg».proof.Proof.Value0
import proofs.«111818_j30855045054720_1_alg».proof.Proof.Value1
import proofs.«111818_j30855045054720_1_alg».proof.Proof.Value2

set_option maxRecDepth 16384

noncomputable section

namespace Cert.KernelIdeal.HandValue

open Cert.KernelIdeal Cert.KernelIdeal.Gen Cert.KernelIdeal.Hand Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The first region leaves the first dense layer. -/
theorem W1_v0 : W1 m ρ c (Proc.devRef .tc main_v0) = Cert.Spec.reluRowsDot (m ((c : Thread nD τ).loc main_arg0) : S8192x8192.Idx → Elt Ideal .f32) (m ((c : Thread nD τ).loc main_arg1) : S128x8192.Idx → Elt Ideal .f32) :=
  (W1_arr m ρ c 2).trans (final0 (E0 m ρ) c)

/-- The second region leaves the second dense layer of the first aggregation. -/
theorem W3_v12 : W3 m ρ c (Proc.devRef .tc main_v12)
    = Cert.Spec.reluRowsDot (agg128 (Cert.Spec.reluRowsDot (m ((c : Thread nD τ).loc main_arg0) : S8192x8192.Idx → Elt Ideal .f32) (m ((c : Thread nD τ).loc main_arg1) : S128x8192.Idx → Elt Ideal .f32)) (m ((c : Thread nD τ).loc main_arg4) : S262144.Idx → Elt Ideal .i32) (m ((c : Thread nD τ).loc main_arg5) : S262144.Idx → Elt Ideal .i32)) (m ((c : Thread nD τ).loc main_arg2) : S64x128.Idx → Elt Ideal .f32) := by
  refine ((W3_arr m ρ c 2).trans (final1 (E1 m ρ) c)).trans ?_
  show Cert.Spec.reluRowsDot (W2 m ρ c (Proc.devRef .tc main_v11)) (W2 m ρ c (Proc.devRef .tc main_arg2)) = _
  rw [W2_v11, W2_main_arg2, W1_v0, W1_main_arg4, W1_main_arg5]

/-- The third region leaves the pair loss of the selected rows against the selected block. -/
theorem W5_v45 : W5 m ρ c (Proc.devRef .tc main_v45) = fun _ => Cert.Spec.pairLoss (rowsOf (agg64 (Cert.Spec.reluRowsDot (agg128 (Cert.Spec.reluRowsDot (m ((c : Thread nD τ).loc main_arg0) : S8192x8192.Idx → Elt Ideal .f32) (m ((c : Thread nD τ).loc main_arg1) : S128x8192.Idx → Elt Ideal .f32)) (m ((c : Thread nD τ).loc main_arg4) : S262144.Idx → Elt Ideal .i32) (m ((c : Thread nD τ).loc main_arg5) : S262144.Idx → Elt Ideal .i32)) (m ((c : Thread nD τ).loc main_arg2) : S64x128.Idx → Elt Ideal .f32)) (m ((c : Thread nD τ).loc main_arg4) : S262144.Idx → Elt Ideal .i32) (m ((c : Thread nD τ).loc main_arg5) : S262144.Idx → Elt Ideal .i32)) (m ((c : Thread nD τ).loc main_arg6) : S1024.Idx → Elt Ideal .i32)) (subMat (m ((c : Thread nD τ).loc main_arg3) : S8192x8192.Idx → Elt Ideal .f32) (m ((c : Thread nD τ).loc main_arg6) : S1024.Idx → Elt Ideal .i32)) := by
  refine ((W5_arr m ρ c 2).trans (final2 (E2 m ρ) c)).trans ?_
  show (fun _ => Cert.Spec.pairLoss (W4 m ρ c (Proc.devRef .tc main_v30)) (W4 m ρ c (Proc.devRef .tc main_v44))) = _
  rw [W4_v30, W4_v44, W3_v12, W3_main_arg3, W3_main_arg4, W3_main_arg5, W3_main_arg6]

/-- The program's result. -/
theorem result (i : S_.Idx) : (W6 m ρ c (Proc.devRef .tc main_v46) : S_.Idx → Elt Ideal .f32) i = Cert.Spec.pairLoss (rowsOf (agg64 (Cert.Spec.reluRowsDot (agg128 (Cert.Spec.reluRowsDot (m ((c : Thread nD τ).loc main_arg0) : S8192x8192.Idx → Elt Ideal .f32) (m ((c : Thread nD τ).loc main_arg1) : S128x8192.Idx → Elt Ideal .f32)) (m ((c : Thread nD τ).loc main_arg4) : S262144.Idx → Elt Ideal .i32) (m ((c : Thread nD τ).loc main_arg5) : S262144.Idx → Elt Ideal .i32)) (m ((c : Thread nD τ).loc main_arg2) : S64x128.Idx → Elt Ideal .f32)) (m ((c : Thread nD τ).loc main_arg4) : S262144.Idx → Elt Ideal .i32) (m ((c : Thread nD τ).loc main_arg5) : S262144.Idx → Elt Ideal .i32)) (m ((c : Thread nD τ).loc main_arg6) : S1024.Idx → Elt Ideal .i32)) (subMat (m ((c : Thread nD τ).loc main_arg3) : S8192x8192.Idx → Elt Ideal .f32) (m ((c : Thread nD τ).loc main_arg6) : S1024.Idx → Elt Ideal .i32)) := by
  rw [W6_v46, W5_v45]
  rfl

end Cert.KernelIdeal.HandValue

end
-- ==== Proof.RefValue.lean ====
/-
  The reference read stage by stage on extended reals: each dense layer is the positive part of a product with a
  transposed matrix, the aggregation steps and the row selections are host chains carried as named functions, and the
  result is the sum over all pairs of the absolute difference between the selected rows' inner products and the selected
  entries of the distance matrix.
-/
import proofs.«111818_j30855045054720_1_alg».proof.Proof.Gen.ReferenceIdeal.Read
import proofs.«111818_j30855045054720_1_alg».proof.Proof.Spec

noncomputable section

namespace Cert.ReferenceIdeal.RefValue

open Cert.ReferenceIdeal Cert.ReferenceIdeal.Gen Cert.ReferenceIdeal.Read Idealize.ShloMosaic Idealize.ShloMosaic.ValueIdx

section Chains
variable {F : FTy → Type} [FloatOps F]
/-- Indices read signed: a negative index wraps around by 8192. -/
def wrapE (a : (⟨S262144, .i32⟩ : BufTy).Contents (Elt F)) : (⟨S262144, .i32⟩ : BufTy).Contents (Elt F) :=
  select (cmpi .slt a (broadcastInDim S262144 ![] bcast_S_S262144 (constantI S_ 32 0#32)))
    (addi a (broadcastInDim S262144 ![] bcast_S_S262144 (constantI S_ 32 8192#32))) a
def wrapN (a : (⟨S1024, .i32⟩ : BufTy).Contents (Elt F)) : (⟨S1024, .i32⟩ : BufTy).Contents (Elt F) :=
  select (cmpi .slt a (broadcastInDim S1024 ![] bcast_S_S1024 (constantI S_ 32 0#32)))
    (addi a (broadcastInDim S1024 ![] bcast_S_S1024 (constantI S_ 32 8192#32))) a

/-- A layer's rows plus, for every edge, the source row added into the destination row (width 128). -/
def agg128 (h : (⟨S8192x128, .f32⟩ : BufTy).Contents (Elt F)) (a4 a5 : (⟨S262144, .i32⟩ : BufTy).Contents (Elt F)) :
    (⟨S8192x128, .f32⟩ : BufTy).Contents (Elt F) :=
  addf h (Host.scatterAdd scatter_S8192x128_S262144x1_S262144x128_1_0_0_1
    (broadcastInDim S8192x128 ![] bcast_S_S8192x128 (constant (F := F) S_ .f32 0x00000000#32))
    (broadcastInDim S262144x1 ![0] bcast_S262144_S262144x1_0 a5)
    (Host.gather gather_S8192x128_S262144x1_S262144x128_1_0_n_n_0_1_1128 h
      (broadcastInDim S262144x1 ![0] bcast_S262144_S262144x1_0 (wrapE a4))))

/-- The same at width 64. -/
def agg64 (h : (⟨S8192x64, .f32⟩ : BufTy).Contents (Elt F)) (a4 a5 : (⟨S262144, .i32⟩ : BufTy).Contents (Elt F)) :
    (⟨S8192x64, .f32⟩ : BufTy).Contents (Elt F) :=
  addf h (Host.scatterAdd scatter_S8192x64_S262144x1_S262144x64_1_0_0_1
    (broadcastInDim S8192x64 ![] bcast_S_S8192x64 (constant (F := F) S_ .f32 0x00000000#32))
    (broadcastInDim S262144x1 ![0] bcast_S262144_S262144x1_0 a5)
    (Host.gather gather_S8192x64_S262144x1_S262144x64_1_0_n_n_0_1_164 h
      (broadcastInDim S262144x1 ![0] bcast_S262144_S262144x1_0 (wrapE a4))))

/-- The rows of the chosen nodes. -/
def rowsOf (r : (⟨S8192x64, .f32⟩ : BufTy).Contents (Elt F)) (a6 : (⟨S1024, .i32⟩ : BufTy).Contents (Elt F)) :
    (⟨S1024x64, .f32⟩ : BufTy).Contents (Elt F) :=
  Host.gather gather_S8192x64_S1024x1_S1024x64_1_0_n_n_0_1_164 r (broadcastInDim S1024x1 ![0] bcast_S1024_S1024x1_0 (wrapN a6))

/-- The distance matrix restricted to the chosen nodes, rows then columns. -/
def subMat (d : (⟨S8192x8192, .f32⟩ : BufTy).Contents (Elt F)) (a6 : (⟨S1024, .i32⟩ : BufTy).Contents (Elt F)) :
    (⟨S1024x1024, .f32⟩ : BufTy).Contents (Elt F) :=
  Host.gather gather_S1024x8192_S1024x1_S1024x1024_0_1_n_n_1_1_10241
    (Host.gather gather_S8192x8192_S1024x1_S1024x8192_1_0_n_n_0_1_18192 d (broadcastInDim S1024x1 ![0] bcast_S1024_S1024x1_0 (wrapN a6)))
    (broadcastInDim S1024x1 ![0] bcast_S1024_S1024x1_0 (wrapN a6))

end Chains

variable (x0 x3 : (⟨S8192x8192, .f32⟩ : BufTy).Contents (Elt Ideal)) (x1 : (⟨S128x8192, .f32⟩ : BufTy).Contents (Elt Ideal)) (x2 : (⟨S64x128, .f32⟩ : BufTy).Contents (Elt Ideal))
  (x4 x5 : (⟨S262144, .i32⟩ : BufTy).Contents (Elt Ideal)) (x6 : (⟨S1024, .i32⟩ : BufTy).Contents (Elt Ideal))

/-- The first dense layer. -/
theorem layer1 : val_main_v2 (F := Ideal) x0 x1 = Cert.Spec.reluRowsDot x0 x1 := by
  funext i
  obtain ⟨p, q, rfl⟩ : ∃ (p : Fin 8192) (q : Fin 128), i = ix2 p q := ⟨i 0, i 1, eq_ix2 i⟩
  rw [val_main_v2_apply, val_main_v1_apply, val_main_call0_v0_apply, val_main_call0_cst_apply, Cert.Spec.reluRowsDot_apply]
  change max _ _ = max _ _
  refine congrArg₂ max (Finset.sum_congr rfl fun k _ => ?_) Ideal.ofBits_zero_f32
  rw [val_main_v0_apply]
  have e1 : lidx_main_v1 (ix2 p q) k = ix2 p k := funext fun a => Fin.ext (by match a with | ⟨0, _⟩ => rfl | ⟨1, _⟩ => rfl)
  have e2 : idx_main_v0 (ridx_main_v1 (ix2 p q) k) = ix2 q k := funext fun a => Fin.ext (by match a with | ⟨0, _⟩ => rfl | ⟨1, _⟩ => rfl)
  rw [e1, e2]

/-- The first aggregation. -/
theorem agg1 : val_main_v13 (F := Ideal) x0 x1 x4 x5 = agg128 (val_main_v2 (F := Ideal) x0 x1) x4 x5 := rfl

/-- The second dense layer. -/
theorem layer2 : val_main_v16 (F := Ideal) x0 x1 x2 x4 x5 = Cert.Spec.reluRowsDot (val_main_v13 (F := Ideal) x0 x1 x4 x5) x2 := by
  funext i
  obtain ⟨p, q, rfl⟩ : ∃ (p : Fin 8192) (q : Fin 64), i = ix2 p q := ⟨i 0, i 1, eq_ix2 i⟩
  rw [val_main_v16_apply, val_main_v15_apply, val_main_call1_v0_apply, val_main_call1_cst_apply, Cert.Spec.reluRowsDot_apply]
  change max _ _ = max _ _
  refine congrArg₂ max (Finset.sum_congr rfl fun k _ => ?_) Ideal.ofBits_zero_f32
  rw [val_main_v14_apply]
  have e1 : lidx_main_v15 (ix2 p q) k = ix2 p k := funext fun a => Fin.ext (by match a with | ⟨0, _⟩ => rfl | ⟨1, _⟩ => rfl)
  have e2 : idx_main_v14 (ridx_main_v15 (ix2 p q) k) = ix2 q k := funext fun a => Fin.ext (by match a with | ⟨0, _⟩ => rfl | ⟨1, _⟩ => rfl)
  rw [e1, e2]

/-- The second aggregation and the selected rows. -/
theorem rows : val_main_v34 (F := Ideal) x0 x1 x2 x4 x5 x6 = rowsOf (agg64 (val_main_v16 (F := Ideal) x0 x1 x2 x4 x5) x4 x5) x6 := rfl

/-- The selected block of the distance matrix. -/
theorem dist : val_main_v50 (F := Ideal) x3 x6 = subMat x3 x6 := rfl

/-- The result: the loss of the selected rows against the selected block. -/
theorem result (i : S_.Idx) : val_main_v53 (F := Ideal) x0 x1 x2 x3 x4 x5 x6 i
    = Cert.Spec.pairLoss (val_main_v34 (F := Ideal) x0 x1 x2 x4 x5 x6) (val_main_v50 (F := Ideal) x3 x6) := by
  rw [val_main_v53_apply, val_main_cst_10_apply]
  unfold Cert.Spec.pairLoss
  refine (congrArg₂ (· + ·) Ideal.ofBits_zero_f32 (Finset.sum_congr rfl fun j _ => ?_)).trans (zero_add _)
  obtain ⟨p, q, rfl⟩ : ∃ (p q : Fin 1024), j = ix2 p q := ⟨j 0, j 1, eq_ix2 j⟩
  rw [val_main_v52_apply, val_main_v51_apply, val_main_v36_apply]
  change max _ (-_) = max _ (-_)
  have hs : (∑ k : Fin 64, val_main_v34 (F := Ideal) x0 x1 x2 x4 x5 x6 (lidx_main_v36 (ix2 p q) k) * val_main_v35 (F := Ideal) x0 x1 x2 x4 x5 x6 (ridx_main_v36 (ix2 p q) k))
      = ∑ k : Fin 64, val_main_v34 (F := Ideal) x0 x1 x2 x4 x5 x6 (ix2 p k) * val_main_v34 (F := Ideal) x0 x1 x2 x4 x5 x6 (ix2 q k) := by
    refine Finset.sum_congr rfl fun k _ => ?_
    rw [val_main_v35_apply]
    have e1 : lidx_main_v36 (ix2 p q) k = ix2 p k := funext fun a => Fin.ext (by match a with | ⟨0, _⟩ => rfl | ⟨1, _⟩ => rfl)
    have e2 : idx_main_v35 (ridx_main_v36 (ix2 p q) k) = ix2 q k := funext fun a => Fin.ext (by match a with | ⟨0, _⟩ => rfl | ⟨1, _⟩ => rfl)
    rw [e1, e2]
  rw [hs]
  rfl

/-- The reference's result as one function of the arguments. -/
theorem result_eq (i : S_.Idx) : val_main_v53 (F := Ideal) x0 x1 x2 x3 x4 x5 x6 i
    = Cert.Spec.pairLoss (rowsOf (agg64 (Cert.Spec.reluRowsDot (agg128 (Cert.Spec.reluRowsDot x0 x1) x4 x5) x2) x4 x5) x6) (subMat x3 x6) := by
  rw [result, rows, dist, layer2, agg1, layer1]

end Cert.ReferenceIdeal.RefValue

end
-- ==== Proof.lean ====
/-
  The certificate's five claims. Both printed kernel programs run three kernel regions between stretches of host
  operations: the run of the whole program (each region's proof data and body, the buffer contents folded through the
  boundaries) gives each frame, and at the ideal instance names the result: the pair loss of the selected rows of the
  twice aggregated, twice dense-layered features against the selected block of the distance matrix. The reference's
  run read stage by stage is the same function of the same arguments: a matrix product accumulated block by block into
  zero is the whole contraction, a product with a transposed operand is the contraction of the two last axes, and the
  host chains are the same operations in both programs. No rewrite was made when the kernel was idealized.
-/
import proofs.«111818_j30855045054720_1_alg».proof.Defs
import proofs.«111818_j30855045054720_1_alg».proof.Proof.Gen.Kernel
import proofs.«111818_j30855045054720_1_alg».proof.Proof.Gen.KernelIdeal
import proofs.«111818_j30855045054720_1_alg».proof.Proof.Gen.ReferenceIdeal
import proofs.«111818_j30855045054720_1_alg».proof.Proof.Gen.Pre_finite_inputs
import proofs.«111818_j30855045054720_1_alg».proof.Proof.KRun
import proofs.«111818_j30855045054720_1_alg».proof.Proof.KValue
import proofs.«111818_j30855045054720_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the same scalar: each side's result is the one function of the arguments, the arguments
    agree, and the host chains are the same operations. -/
theorem algebraic : Cert.algebraic_KernelIdeal_ReferenceIdeal := by
  intro m ρ m' ρ' _ hagree
  refine ⟨fun c => Cert.KernelIdeal.Hand.W6 m ρ c (Proc.devRef .tc Cert.KernelIdeal.main_v46), Cert.KernelIdeal.Hand.run_result m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v53_eq]
  funext i
  refine (Cert.ReferenceIdeal.RefValue.result_eq _ _ _ _ _ _ _ i).trans ?_
  refine Eq.trans ?_ (Cert.KernelIdeal.HandValue.result m ρ c i).symm
  rw [(hagree c).1, (hagree c).2.1, (hagree c).2.2.1, (hagree c).2.2.2.1, (hagree c).2.2.2.2.1, (hagree c).2.2.2.2.2.1, (hagree c).2.2.2.2.2.2]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
